-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v6_0)) (v4 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v6_0) = v3 c
          ∧ r.2.mem ((c.tc : Thread Cert.KernelIdeal.nD Cert.KernelIdeal.τ).loc Cert.KernelIdeal.main_v6_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x2048 : Shape := ⟨2, ![16384, 2048]⟩
abbrev S16384 : Shape := ⟨1, ![16384]⟩
abbrev S2048x2 : Shape := ⟨2, ![2048, 2]⟩
abbrev S2 : Shape := ⟨1, ![2]⟩
abbrev S8x2048x2 : Shape := ⟨3, ![8, 2048, 2]⟩
abbrev S8x2 : Shape := ⟨2, ![8, 2]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S2 : S_.BroadcastsInDim S2 (![] : Fin 0 → Fin S2.rank)
  reducesTo_S2_S_d0 : S2.ReducesTo [0] S_
  bcast_S_S8x2048x2 : S_.BroadcastsInDim S8x2048x2 (![] : Fin 0 → Fin S8x2048x2.rank)
  reducesTo_S8x2048x2_S_d0_1_2 : S8x2048x2.ReducesTo [0, 1, 2] S_
  bcast_S_S8x2 : S_.BroadcastsInDim S8x2 (![] : Fin 0 → Fin S8x2.rank)
  reducesTo_S8x2_S_d0_1 : S8x2.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_arg5 : FVec F S8x2 .f32) (main_v13 : IVec S_ 1) (main_v16 : IVec S8x2048x2 1) : IVec S_ 1 :=
  let main_c_5 : IVec S_ 1 := constantI S_ 1 1#1
  let main_v17 : IVec S_ 1 := (fun x v => Host.reduce IntOp.andi x v reducesTo_S8x2048x2_S_d0_1_2 h_S_) main_v16 main_c_5
  let main_v18 : IVec S_ 1 := andi main_v13 main_v17
  let main_v19 : FVec F S8x2 .f32 := Host.absf main_arg5
  let main_cst_6 : FVec F S_ .f32 := constant S_ .f32 0x7F800000#32
  let main_v20 : FVec F S8x2 .f32 := broadcastInDim S8x2 ![] bcast_S_S8x2 main_cst_6
  let main_v21 : IVec S8x2 1 := cmpf .olt main_v19 main_v20
  let main_c_7 : IVec S_ 1 := constantI S_ 1 1#1
  let main_v22 : IVec S_ 1 := (fun x v => Host.reduce IntOp.andi x v reducesTo_S8x2_S_d0_1 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg1 main_v24
  let main_c_9 : IVec S_ 32 := constantI S_ 32 7#32
  let main_v26 : IVec S16384 32 := broadcastInDim S16384 ![] bcast_S_S16384 main_c_9
  let main_v27 : IVec S16384 1 := cmpi .sle main_arg1 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  main_v30

def fn {F : FTy → Type} [FloatOps F] (main_arg0 : FVec F S16384x2048 .f32) (main_arg1 : IVec S16384 32) (main_arg2 : FVec F S2048x2 .f32) (main_arg3 : FVec F S2 .f32) (main_arg4 : FVec F S8x2048x2 .f32) (main_arg5 : FVec F S8x2 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2 .f32 := Host.absf main_arg2
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S8x2048x2 .f32 := Host.absf main_arg4
  let main_cst_4 : FVec F S_ .f32 := constant S_ .f32 0x7F800000#32
  let main_v15 : FVec F S8x2048x2 .f32 := broadcastInDim S8x2048x2 ![] bcast_S_S8x2048x2 main_cst_4
  let main_v16 : IVec S8x2048x2 1 := cmpf .olt main_v14 main_v15
  fn_part1 (F := F) main_arg1 main_arg5 main_v13 main_v16
-- ==== Kernel.lean ====
abbrev S16384x2048 : Shape := ⟨2, ![16384, 2048]⟩
abbrev S16384 : Shape := ⟨1, ![16384]⟩
abbrev S2048x2 : Shape := ⟨2, ![2048, 2]⟩
abbrev S2 : Shape := ⟨1, ![2]⟩
abbrev S8x2048x2 : Shape := ⟨3, ![8, 2048, 2]⟩
abbrev S8x2 : Shape := ⟨2, ![8, 2]⟩
abbrev S2048x8x2 : Shape := ⟨3, ![2048, 8, 2]⟩
abbrev S2048x16 : Shape := ⟨2, ![2048, 16]⟩
abbrev S2048x18 : Shape := ⟨2, ![2048, 18]⟩
abbrev S16 : Shape := ⟨1, ![16]⟩
abbrev S16384x16 : Shape := ⟨2, ![16384, 16]⟩
abbrev S1024x2048 : Shape := ⟨2, ![1024, 2048]⟩
abbrev S1024 : Shape := ⟨1, ![1024]⟩
abbrev S1024x16 : Shape := ⟨2, ![1024, 16]⟩
abbrev S1024x18 : Shape := ⟨2, ![1024, 18]⟩
abbrev S1x16 : Shape := ⟨2, ![1, 16]⟩
abbrev S1024x2 : Shape := ⟨2, ![1024, 2]⟩
abbrev S1x2 : Shape := ⟨2, ![1, 2]⟩
abbrev S1024x1 : Shape := ⟨2, ![1024, 1]⟩
abbrev S262144 : Shape := ⟨1, ![262144]⟩
abbrev S8192 : Shape := ⟨1, ![8192]⟩
abbrev S512 : Shape := ⟨1, ![512]⟩
abbrev S_ : Shape := ⟨0, ![]⟩

abbrev nBuf : Table → Nat
  | .hbm => 17
  | .local .tc .vmem => 13
  | .local .scVector .vmem => 4
  | _ => 0

abbrev bufTy : (tb : Table) → Fin (nBuf tb) → BufTy
  | .hbm, ⟨0, _⟩ => ⟨S16384x2048, .f32⟩
  | .hbm, ⟨1, _⟩ => ⟨S16384, .i32⟩
  | .hbm, ⟨2, _⟩ => ⟨S2048x2, .f32⟩
  | .hbm, ⟨3, _⟩ => ⟨S2, .f32⟩
  | .hbm, ⟨4, _⟩ => ⟨S8x2048x2, .f32⟩
  | .hbm, ⟨5, _⟩ => ⟨S8x2, .f32⟩
  | .hbm, ⟨6, _⟩ => ⟨S2048x8x2, .f32⟩
  | .hbm, ⟨7, _⟩ => ⟨S2048x16, .f32⟩
  | .hbm, ⟨8, _⟩ => ⟨S2048x18, .f32⟩
  | .hbm, ⟨9, _⟩ => ⟨S16, .f32⟩
  | .hbm, ⟨10, _⟩ => ⟨S16384x2048, .f32⟩
  | .hbm, ⟨11, _⟩ => ⟨S16384, .f32⟩
  | .hbm, ⟨12, _⟩ => ⟨S16384, .f32⟩
  | .hbm, ⟨13, _⟩ => ⟨S16384x16, .f32⟩
  | .hbm, ⟨14, _⟩ => ⟨S262144, .f32⟩
  | .hbm, ⟨15, _⟩ => ⟨S16384, .f32⟩
  | .hbm, ⟨16, _⟩ => ⟨S16384, .f32⟩
  | .local .tc .vmem, ⟨0, _⟩ => ⟨S1024x2048, .f32⟩
  | .local .tc .vmem, ⟨1, _⟩ => ⟨S1024x2048, .f32⟩
  | .local .tc .vmem, ⟨2, _⟩ => ⟨S2048x18, .f32⟩
  | .local .tc .vmem, ⟨3, _⟩ => ⟨S16, .f32⟩
  | .local .tc .vmem, ⟨4, _⟩ => ⟨S2, .f32⟩
  | .local .tc .vmem, ⟨5, _⟩ => ⟨S1024x2048, .f32⟩
  | .local .tc .vmem, ⟨6, _⟩ => ⟨S1024x2048, .f32⟩
  | .local .tc .vmem, ⟨7, _⟩ => ⟨S1024, .f32⟩
  | .local .tc .vmem, ⟨8, _⟩ => ⟨S1024, .f32⟩
  | .local .tc .vmem, ⟨9, _⟩ => ⟨S1024, .f32⟩
  | .local .tc .vmem, ⟨10, _⟩ => ⟨S1024, .f32⟩
  | .local .tc .vmem, ⟨11, _⟩ => ⟨S1024x16, .f32⟩
  | .local .tc .vmem, ⟨12, _⟩ => ⟨S1024x16, .f32⟩
  | .local .scVector .vmem, ⟨0, _⟩ => ⟨S8192, .f32⟩
  | .local .scVector .vmem, ⟨1, _⟩ => ⟨S512, .i32⟩
  | .local .scVector .vmem, ⟨2, _⟩ => ⟨S512, .f32⟩
  | .local .scVector .vmem, ⟨3, _⟩ => ⟨S512, .f32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v5_scv : Ref sig .scVector := ⟨.hbm, 14, rfl⟩
abbrev main_arg1_scv : Ref sig .scVector := ⟨.hbm, 1, rfl⟩
abbrev main_v6_0_scv : Ref sig .scVector := ⟨.hbm, 15, rfl⟩
abbrev main_v6_1_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_0 : BitVec 32 := 2#32
  let v3 : BitVec 32 := Scalar.muli v2 c2_i32_0
  let c8_i32 : BitVec 32 := 8#32
  let v4 : BitVec 32 := Scalar.muli v3 c8_i32
  ![v4.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_1 : BitVec 32 := 0#32
  let c32_i32 : BitVec 32 := 32#32
  let v5 : BitVec 32 := Scalar.addi c0_i32_1 c32_i32
  let c1_i32 : BitVec 32 := 1#32
  ⟨c0_i32_1, v5, c1_i32⟩
def k1_off3 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c16_i32_3 : BitVec 32 := 16#32
  let v10 : BitVec 32 := Scalar.muli arg10 c16_i32_3
  let v11 : Index := Scalar.indexCast v10
  ![v11.toNat]

def k1_chk1 (v17 : IVec S16 32) : Prop :=
  (∀ a x, ((![v17] : Fin 1 → IVec S16 32) a x).toNat < S8192.size a)
instance k1_chk1.dec : ∀ (v17 : IVec S16 32), Decidable (k1_chk1 v17) := fun v17 => decidable_of_iff' _ (Iff.of_eq (k1_chk1.eq_1 v17))
theorem k1_idx1_inb : ∀ (v17 : IVec S16 32) (k1_hw1 : k1_chk1 v17), ∀ a x, ((![v17] : Fin 1 → IVec S16 32) a x).toNat < S8192.size a := fun v17 k1_hw1 => k1_hw1
def k1_off4 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c16_i32_6 : BitVec 32 := 16#32
  let v19 : BitVec 32 := Scalar.muli arg10 c16_i32_6
  let v20 : Index := Scalar.indexCast v19
  ![v20.toNat]

def k1_chk2 (v23 : IVec S16 32) : Prop :=
  (∀ a x, ((![v23] : Fin 1 → IVec S16 32) a x).toNat < S8192.size a)
instance k1_chk2.dec : ∀ (v23 : IVec S16 32), Decidable (k1_chk2 v23) := fun v23 => decidable_of_iff' _ (Iff.of_eq (k1_chk2.eq_1 v23))
theorem k1_idx2_inb : ∀ (v23 : IVec S16 32) (k1_hw2 : k1_chk2 v23), ∀ a x, ((![v23] : Fin 1 → IVec S16 32) a x).toNat < S8192.size a := fun v23 k1_hw2 => k1_hw2
def k1_off5 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c16_i32_8 : BitVec 32 := 16#32
  let v25 : BitVec 32 := Scalar.muli arg10 c16_i32_8
  let v26 : Index := Scalar.indexCast v25
  ![v26.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S8x2048x2_S2048x8x2_1_0_2 : S8x2048x2.Transposes [1, 0, 2] S2048x8x2
  shapeCasts_S2048x8x2_S2048x16 : S2048x8x2.ShapeCasts S2048x16
  concatenates_S2048x16_S2048x2_S2048x18_d1 : Shape.Concatenates [S2048x16, S2048x2] S2048x18 1
  shapeCasts_S8x2_S16 : S8x2.ShapeCasts S16
  inb_S1024x2048_S1024x2048_0_0 : ∀ a, (![0, 0] : Fin 2 → Nat) a + S1024x2048.size a ≤ S1024x2048.size a
  h_S1024x2048 : 0 < S1024x2048.numel
  inb_S2048x18_S2048x18_0_0 : ∀ a, (![0, 0] : Fin 2 → Nat) a + S2048x18.size a ≤ S2048x18.size a
  h_S2048x18 : 0 < S2048x18.numel
  shapeCasts_S2048x18_S2048x18 : S2048x18.ShapeCasts S2048x18
  slices_S1024x18_o0_0_S1024x16 : S1024x18.Slices ![0, 0] S1024x16
  inb_S16_S16_0 : ∀ a, (![0] : Fin 1 → Nat) a + S16.size a ≤ S16.size a
  h_S16 : 0 < S16.numel
  shapeCasts_S16_S16 : S16.ShapeCasts S16
  shapeCasts_S16_S1x16 : S16.ShapeCasts S1x16
  broadcasts_S1x16_S1024x16 : S1x16.Broadcasts S1024x16
  iota_S1024x16_d1_w32 : S1024x16.Iotas .tc 32 [1]
  broadcasts_S1024x16_S1024x16 : S1024x16.Broadcasts S1024x16
  inb_S1024x16_S1024x16_0_0 : ∀ a, (![0, 0] : Fin 2 → Nat) a + S1024x16.size a ≤ S1024x16.size a
  h_S1024x16 : 0 < S1024x16.numel
  slices_S1024x18_o0_16_S1024x2 : S1024x18.Slices ![0, 16] S1024x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  slices_S1024x2_o0_0_S1024x1 : S1024x2.Slices ![0, 0] S1024x1
  shapeCasts_S1024x1_S1024 : S1024x1.ShapeCasts S1024
  inb_S1024_S1024_0 : ∀ a, (![0] : Fin 1 → Nat) a + S1024.size a ≤ S1024.size a
  h_S1024 : 0 < S1024.numel
  slices_S1024x2_o0_1_S1024x1 : S1024x2.Slices ![0, 1] S1024x1
  shapeCasts_S16384x16_S262144 : S16384x16.ShapeCasts S262144
  iota_S16_d0_w32_scVector : S16.Iotas .scVector 32 [0]
  h_S8192 : 0 < S8192.numel
  dot_S1024x2048_S2048x18_S1024x18_1_0_0_1_n_n_wf : DotDims.WF S1024x2048 S2048x18 S1024x18 [1] [0] [0] [1] [] []
  hcc1_scoped0 : 13 + S_.numel ≤ 17
  hcc1_scoped1 : 14 + S_.numel ≤ 17
  hcc1_scoped2 : 15 + S_.numel ≤ 17
  hcc1_scoped3 : 16 + S_.numel ≤ 17
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x18.size a ≤ S2048x18.size a
  hwx0_1 : ∀ i : grid0.Coords, EltTy.bits .f32 = 32 ∨ (Rect.block (s := S2048x18) S2048x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2.size a ≤ S2.size a
  hwx0_3 : ∀ i : grid0.Coords, EltTy.bits .f32 = 32 ∨ (Rect.block (s := S2) S2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S16384x2048.size a
  hwx0_4 : ∀ i : grid0.Coords, EltTy.bits .f32 = 32 ∨ (Rect.block (s := S16384x2048) S1024x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S16384.size a
  hwx0_5 : ∀ i : grid0.Coords, EltTy.bits .f32 = 32 ∨ (Rect.block (s := S16384) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S16384.size a
  hwx0_6 : ∀ i : grid0.Coords, EltTy.bits .f32 = 32 ∨ (Rect.block (s := S16384) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x16.size a ≤ S16384x16.size a
  hwx0_7 : ∀ i : grid0.Coords, EltTy.bits .f32 = 32 ∨ (Rect.block (s := S16384x16) S1024x16.size (cc0_transform_7 i) (hinb0_7 i)).WholeWords (EltTy.packing .f32)
  hcore1 : grid1.bound 0 ≤ τ.nSC
  hsub1 : grid1.bound 1 ≤ τ.nSub
  k1_off1_inb : ∀ i : grid1.Coords, ∀ a, (k1_off1 i) a + S8192.size a ≤ S262144.size a
  k1_off2_inb : ∀ i : grid1.Coords, ∀ a, (k1_off2 i) a + S512.size a ≤ S16384.size a
  k1_t1_ok : k1_t1_loop.OK
  k1_off3_inb : ∀ k1_t1 : Fin k1_t1_loop.trips, ∀ a, (k1_off3 k1_t1) a + S16.size a ≤ S512.size a
  k1_off4_inb : ∀ k1_t1 : Fin k1_t1_loop.trips, ∀ a, (k1_off4 k1_t1) a + S16.size a ≤ S512.size a
  k1_off5_inb : ∀ k1_t1 : Fin k1_t1_loop.trips, ∀ a, (k1_off5 k1_t1) a + S16.size a ≤ S512.size a

variable [Facts₀]

abbrev cc1_scoped0 : DmaSems sig S_ := SemArray.consecutive 13 S_ hcc1_scoped0
abbrev cc1_scoped1 : DmaSems sig S_ := SemArray.consecutive 14 S_ hcc1_scoped1
abbrev cc1_scoped2 : DmaSems sig S_ := SemArray.consecutive 15 S_ hcc1_scoped2
abbrev cc1_scoped3 : DmaSems sig S_ := SemArray.consecutive 16 S_ hcc1_scoped3
def dot_S1024x2048_S2048x18_S1024x18_1_0_0_1_n_n : DotDims S1024x2048 S2048x18 S1024x18 where
  lhsContracting := [1]
  rhsContracting := [0]
  lhsNonContracting := [0]
  rhsNonContracting := [1]
  lhsBatch := []
  rhsBatch := []
  wf := dot_S1024x2048_S2048x18_S1024x18_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x18.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S1024x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S2048x2 : Shape := ⟨2, ![2048, 2]⟩
abbrev S2 : Shape := ⟨1, ![2]⟩
abbrev S8x2048x2 : Shape := ⟨3, ![8, 2048, 2]⟩
abbrev S8x2 : Shape := ⟨2, ![8, 2]⟩
abbrev S16384x2 : Shape := ⟨2, ![16384, 2]⟩
abbrev S1x2 : Shape := ⟨2, ![1, 2]⟩
abbrev S16384x1 : Shape := ⟨2, ![16384, 1]⟩
abbrev S_ : Shape := ⟨0, ![]⟩
abbrev S16384x8x2 : Shape := ⟨3, ![16384, 8, 2]⟩
abbrev S1x8x2 : Shape := ⟨3, ![1, 8, 2]⟩
abbrev S16384x1x1 : Shape := ⟨3, ![16384, 1, 1]⟩
abbrev S1 : Shape := ⟨1, ![1]⟩
abbrev S1x1x1 : Shape := ⟨3, ![1, 1, 1]⟩
abbrev S16384x1x2 : Shape := ⟨3, ![16384, 1, 2]⟩

abbrev nBuf : Space → Nat
  | .hbm => 80
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S2048x2, .f32⟩
  | .hbm, ⟨3, _⟩ => ⟨S2, .f32⟩
  | .hbm, ⟨4, _⟩ => ⟨S8x2048x2, .f32⟩
  | .hbm, ⟨5, _⟩ => ⟨S8x2, .f32⟩
  | .hbm, ⟨6, _⟩ => ⟨S16384x2, .f32⟩
  | .hbm, ⟨7, _⟩ => ⟨S1x2, .f32⟩
  | .hbm, ⟨8, _⟩ => ⟨S16384x2, .f32⟩
  | .hbm, ⟨9, _⟩ => ⟨S16384x2, .f32⟩
  | .hbm, ⟨10, _⟩ => ⟨S16384x1, .f32⟩
  | .hbm, ⟨11, _⟩ => ⟨S16384, .f32⟩
  | .hbm, ⟨12, _⟩ => ⟨S16384x1, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S16384, .i1⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x8x2, .f32⟩
  | .hbm, ⟨32, _⟩ => ⟨S1x8x2, .f32⟩
  | .hbm, ⟨33, _⟩ => ⟨S16384x8x2, .f32⟩
  | .hbm, ⟨34, _⟩ => ⟨S16384x8x2, .f32⟩
  | .hbm, ⟨35, _⟩ => ⟨S16384x1x1, .i32⟩
  | .hbm, ⟨36, _⟩ => ⟨S_, .i32⟩
  | .hbm, ⟨37, _⟩ => ⟨S16384x1x1, .i32⟩
  | .hbm, ⟨38, _⟩ => ⟨S16384x1x1, .i1⟩
  | .hbm, ⟨39, _⟩ => ⟨S_, .i32⟩
  | .hbm, ⟨40, _⟩ => ⟨S16384x1x1, .i32⟩
  | .hbm, ⟨41, _⟩ => ⟨S16384x1x1, .i32⟩
  | .hbm, ⟨42, _⟩ => ⟨S16384x1x1, .i32⟩
  | .hbm, ⟨43, _⟩ => ⟨S1, .i32⟩
  | .hbm, ⟨44, _⟩ => ⟨S_, .i32⟩
  | .hbm, ⟨45, _⟩ => ⟨S16384x1x1, .i32⟩
  | .hbm, ⟨46, _⟩ => ⟨S16384x1x1, .i1⟩
  | .hbm, ⟨47, _⟩ => ⟨S1x1x1, .i32⟩
  | .hbm, ⟨48, _⟩ => ⟨S16384x1x1, .i32⟩
  | .hbm, ⟨49, _⟩ => ⟨S16384x1x1, .i1⟩
  | .hbm, ⟨50, _⟩ => ⟨S16384x1x1, .i1⟩
  | .hbm, ⟨51, _⟩ => ⟨S_, .i1⟩
  | .hbm, ⟨52, _⟩ => ⟨S16384x1, .i1⟩
  | .hbm, ⟨53, _⟩ => ⟨S16384x1x2, .f32⟩
  | .hbm, ⟨54, _⟩ => ⟨S16384x1x2, .i1⟩
  | .hbm, ⟨55, _⟩ => ⟨S_, .f32⟩
  | .hbm, ⟨56, _⟩ => ⟨S16384x1x2, .f32⟩
  | .hbm, ⟨57, _⟩ => ⟨S16384x1x2, .f32⟩
  | .hbm, ⟨58, _⟩ => ⟨S16384x2, .f32⟩
  | .hbm, ⟨59, _⟩ => ⟨S16384x1, .f32⟩
  | .hbm, ⟨60, _⟩ => ⟨S16384, .f32⟩
  | .hbm, ⟨61, _⟩ => ⟨S16384x1, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S16384, .f32⟩
  | .hbm, ⟨67, _⟩ => ⟨S16384, .f32⟩
  | .hbm, ⟨68, _⟩ => ⟨S16384, .i1⟩
  | .hbm, ⟨69, _⟩ => ⟨S16384, .f32⟩
  | .hbm, ⟨70, _⟩ => ⟨S16384, .f32⟩
  | .hbm, ⟨71, _⟩ => ⟨S16384, .f32⟩
  | .hbm, ⟨72, _⟩ => ⟨S16384, .f32⟩
  | .hbm, ⟨73, _⟩ => ⟨S16384, .f32⟩
  | .hbm, ⟨74, _⟩ => ⟨S16384, .f32⟩
  | .hbm, ⟨75, _⟩ => ⟨S16384, .f32⟩
  | .hbm, ⟨76, _⟩ => ⟨S16384, .f32⟩
  | .hbm, ⟨77, _⟩ => ⟨S_, .f32⟩
  | .hbm, ⟨78, _⟩ => ⟨S16384, .f32⟩
  | .hbm, ⟨79, _⟩ => ⟨S16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_c_2 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c_3 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_v22 : Ref sig .tc := ⟨.hbm, 76, rfl⟩
abbrev main_cst_0 : Ref sig .tc := ⟨.hbm, 77, rfl⟩
abbrev main_v23 : Ref sig .tc := ⟨.hbm, 78, rfl⟩
abbrev main_v24 : Ref sig .tc := ⟨.hbm, 79, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S8x2_S1x8x2_1_2 : S8x2.BroadcastsInDim S1x8x2 (![1, 2] : Fin 2 → Fin S1x8x2.rank)
  bcast_S1x8x2_S16384x8x2_0_1_2 : S1x8x2.BroadcastsInDim S16384x8x2 (![0, 1, 2] : Fin 3 → Fin S16384x8x2.rank)
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x2_0_1 : S16384x1.BroadcastsInDim S16384x1x2 (![0, 1] : Fin 2 → Fin S16384x1x2.rank)
  bcast_S_S16384x1x2 : S_.BroadcastsInDim S16384x1x2 (![] : Fin 0 → Fin S16384x1x2.rank)
  shapeCasts_S16384x1x2_S16384x2 : S16384x1x2.ShapeCasts S16384x2
  dot_S16384x2048_S2048x2_S16384x2_1_0_0_1_n_n_wf : DotDims.WF S16384x2048 S2048x2 S16384x2 [1] [0] [0] [1] [] []
  dot_S16384x2048_S8x2048x2_S16384x8x2_1_1_0_02_n_n_wf : DotDims.WF S16384x2048 S8x2048x2 S16384x8x2 [1] [1] [0] [0, 2] [] []
  gather_S16384x8x2_S16384x1x1_S16384x1x2_2_1_0_0_1_2_112_wf : GatherDims.WF S16384x8x2 S16384x1x1 S16384x1x2 [2] [1] [0] [1] [0] 2 ![1, 1, 2]

variable [Facts₀]

def dot_S16384x2048_S2048x2_S16384x2_1_0_0_1_n_n : DotDims S16384x2048 S2048x2 S16384x2 where
  lhsContracting := [1]
  rhsContracting := [0]
  lhsNonContracting := [0]
  rhsNonContracting := [1]
  lhsBatch := []
  rhsBatch := []
  wf := dot_S16384x2048_S2048x2_S16384x2_1_0_0_1_n_n_wf
def dot_S16384x2048_S8x2048x2_S16384x8x2_1_1_0_02_n_n : DotDims S16384x2048 S8x2048x2 S16384x8x2 where
  lhsContracting := [1]
  rhsContracting := [1]
  lhsNonContracting := [0]
  rhsNonContracting := [0, 2]
  lhsBatch := []
  rhsBatch := []
  wf := dot_S16384x2048_S8x2048x2_S16384x8x2_1_1_0_02_n_n_wf
def gather_S16384x8x2_S16384x1x1_S16384x1x2_2_1_0_0_1_2_112 : GatherDims S16384x8x2 S16384x1x1 S16384x1x2 where
  offsetDims := [2]
  collapsedSliceDims := [1]
  operandBatchingDims := [0]
  startIndicesBatchingDims := [0]
  startIndexMap := [1]
  indexVectorDim := 2
  sliceSizes := ![1, 1, 2]
  wf := gather_S16384x8x2_S16384x1x1_S16384x1x2_2_1_0_0_1_2_112_wf

class Facts : Prop extends Facts₀ where

variable [Facts]
-- ==== Proof.KForm.lean ====
/-
  The kernel's result arrays as whole-array functions of its operands, built from the body's own arithmetic.

  The dense stage works on blocks of 1024 tokens: token n lies in block n / 1024 at row n % 1024. From a block of the
  embedding, the widened weight matrix w (2048 × 18: sixteen per-source columns, column 2s + o for source s output o, then
  the two pooled columns) and the two bias vectors it produces the block of the pooled mean, of the pooled scale and of the
  16-column table (even columns the per-source means, odd columns the per-source scales). The routing stage then reads,
  for token n with source id s, entries 16·n + 2·s and 16·n + 2·s + 1 of the table laid out flat.
-/
import proofs.«211727_g52312701665785_cont_9to1_m_854_46_alg».proof.Proof.Gen.KernelIdeal.Skeleton
import Idealize.ShloMosaic.Lib.ValueIdx

noncomputable section

namespace Cert.KernelIdeal.KForm

open Idealize.ShloMosaic Idealize.ShloMosaic.ValueIdx Cert.KernelIdeal Cert.KernelIdeal.Gen

variable {F : FTy → Type} [FloatOps F] [Cert.KernelIdeal.Facts]

/-- Token number of row r of block t. -/
def rowOf (t : Fin 16) (r : Fin 1024) : Fin 16384 := ⟨1024 * t.val + r.val, by omega⟩
/-- The block a token lies in, and its row there. -/
def blockOf (n : Fin 16384) : Fin 16 := ⟨n.val / 1024, by omega⟩
def inBlock (n : Fin 16384) : Fin 1024 := ⟨n.val % 1024, Nat.mod_lt _ (by decide)⟩

/-- Block t of the embedding: rows 1024·t … 1024·t + 1023, all 2048 columns. -/
def xBlock {α : Type} (x : S16384x2048.Idx → α) (t : Fin 16) : S1024x2048.Idx → α :=
  fun y => x (ix2 (rowOf t (y 0)) (y 1))

/-- The pooled mean of every token: the body's value for the token's block, at the token's row. -/
def Gpm (x : FVec F S16384x2048 .f32) (w : FVec F S2048x18 .f32) (b2 : FVec F S2 .f32) : FVec F S16384 .f32 :=
  fun j => k0_pay3 (k0_pay5 (xBlock x (blockOf (j 0))) w) b2 (ix1 (inBlock (j 0)))

/-- The pooled scale of every token. -/
def Gps (x : FVec F S16384x2048 .f32) (w : FVec F S2048x18 .f32) (b2 : FVec F S2 .f32) : FVec F S16384 .f32 :=
  fun j => k0_pay4 (k0_pay5 (xBlock x (blockOf (j 0))) w) b2 (ix1 (inBlock (j 0)))

/-- The 16-column table of every token: per-source means in the even columns, per-source scales in the odd ones. -/
def Gtbl (x : FVec F S16384x2048 .f32) (w : FVec F S2048x18 .f32) (b16 : FVec F S16 .f32) : FVec F S16384x16 .f32 :=
  fun j => k0_pay1 (k0_pay6 (xBlock x (blockOf (j 0))) w b16) k0_pay7 (k0_pay8 (xBlock x (blockOf (j 0))) w b16) (ix2 (inBlock (j 0)) (j 1))

/-- Where the routing stage reads the flat table for token n with source-id word s: 16·n + 2·(s mod 8) + o. -/
def flatIdx (n : Fin 16384) (s : BitVec 32) (o : Fin 2) : Fin 262144 :=
  ⟨16 * n.val + 2 * (s.toNat % 8) + o.val, by have := Nat.mod_lt s.toNat (show 0 < 8 by decide); omega⟩

/-- The routed per-source mean (o = 0) or scale (o = 1) of every token, from the flat table and the source ids. -/
def Groute (o : Fin 2) (flat : FVec F S262144 .f32) (sid : IVec S16384 32) : FVec F S16384 .f32 :=
  fun j => flat (ix1 (flatIdx (j 0) (sid j) o))

end Cert.KernelIdeal.KForm

end
-- ==== Proof.ICommon.lean ====
/-
  The setting of the launch: the program as the SparseCore launch theorem sees it, the ghost state (the launch's
  handshakes, the dense stage's staging cells, the transfers' counters), and what the one routing call hands each
  vector subcore and gets back.

  The routing stage splits the 16384 tokens into 32 chunks of 512; subcore i of SparseCore c works on chunk 2·i + c.
  It is handed chunk 2·i + c of the flat table (8192 entries), of the source ids and of the two result arrays, and hands
  them back with the two result chunks holding, at every token of the chunk, the table entry its source id names.
-/
import proofs.«211727_g52312701665785_cont_9to1_m_854_46_alg».proof.Defs
import proofs.«211727_g52312701665785_cont_9to1_m_854_46_alg».proof.Proof.KForm
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«211727_g52312701665785_cont_9to1_m_854_46_alg».proof.Proof.Gen.KernelIdeal
import proofs.«211727_g52312701665785_cont_9to1_m_854_46_alg».proof.Proof.Gen.KernelIdeal.Skeleton
import proofs.«211727_g52312701665785_cont_9to1_m_854_46_alg».proof.Proof.Gen.KernelIdeal.Launch
import proofs.«211727_g52312701665785_cont_9to1_m_854_46_alg».proof.Proof.Gen.KernelIdeal.Points

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the dense stage's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays of the routing call -/

abbrev flatLoc (d : Dev nD) : Loc nD τ sig := (SparseCore.T d).loc main_v5
abbrev sidLoc (d : Dev nD) : Loc nD τ sig := (SparseCore.T d).loc main_arg1
abbrev meanLoc (d : Dev nD) : Loc nD τ sig := (SparseCore.T d).loc main_v6_0
abbrev scaleLoc (d : Dev nD) : Loc nD τ sig := (SparseCore.T d).loc main_v6_1

theorem hdivFlat : 32 ∣ S262144.size 0 := ⟨8192, rfl⟩
theorem hdivTok : 32 ∣ S16384.size 0 := ⟨512, rfl⟩
/-- Chunk w of the flat table (entries 8192·w … 8192·w + 8191) and of a per-token array (tokens 512·w … 512·w + 511). -/
abbrev flatChunk (w : Fin 32) : Finset S262144.Idx := (Rect.part (s := S262144) (a₀ := 0) hdivFlat w).set
abbrev tokChunk (w : Fin 32) : Finset S16384.Idx := (Rect.part (s := S16384) (a₀ := 0) hdivTok w).set
/-- The chunk of subcore i of SparseCore c. -/
def widOf (c : Fin 2) (i : Fin 16) : Fin 32 := ⟨2 * i.val + c.val, by omega⟩

variable [FloatOps F]

/-- What a task is handed: its chunk of the flat table at `flat`, of the source ids at `sid`, of the two result arrays at
    whatever they hold. -/
def goRes (flat : FVec F S262144 .f32) (sid : IVec S16384 32) (f0 f1 : FVec F S16384 .f32) (d : Dev nD) (w : Fin 32) : sProp 𝕄 :=
  iprop((flatLoc d ↦[flatChunk w]{fullShare} flat) ∗ (sidLoc d ↦[tokChunk w]{fullShare} sid)
    ∗ (meanLoc d ↦[tokChunk w]{fullShare} f0) ∗ (scaleLoc d ↦[tokChunk w]{fullShare} f1))
/-- What it hands back: the same, the result chunks at the routed entries. -/
def tdRes (flat : FVec F S262144 .f32) (sid : IVec S16384 32) (d : Dev nD) (w : Fin 32) : sProp 𝕄 :=
  iprop((flatLoc d ↦[flatChunk w]{fullShare} flat) ∗ (sidLoc d ↦[tokChunk w]{fullShare} sid)
    ∗ (meanLoc d ↦[tokChunk w]{fullShare} KForm.Groute 0 flat sid) ∗ (scaleLoc d ↦[tokChunk w]{fullShare} KForm.Groute 1 flat sid))

/-- The one call's payloads: a SparseCore is handed its sixteen tasks' shares together and hands them back together. -/
def P (flat : FVec F S262144 .f32) (sid : IVec S16384 32) (f0 f1 : FVec F S16384 .f32) : (K (F := F)).Pay (nD := nD) (Val := Elt F) (Name := ℕ) (U := UU) where
  st := fun q d c => match q with | 0 => bigSep Finset.univ fun i : Fin 16 => goRes flat sid f0 f1 d (widOf (Fin.cast nCore_zero c) i)
  dn := fun q d c => match q with | 0 => bigSep Finset.univ fun i : Fin 16 => tdRes flat sid d (widOf (Fin.cast nCore_zero c) i)
  go := fun q d c i => match q with | 0 => goRes flat sid f0 f1 d (widOf (Fin.cast nCore_zero c) (Fin.cast nSub_zero i))
  td := fun q d c i => match q with | 0 => tdRes flat sid d (widOf (Fin.cast nCore_zero c) (Fin.cast nSub_zero i))
  x := fun _ _ => iprop(emp)

instance P_storable (flat : FVec F S262144 .f32) (sid : IVec S16384 32) (f0 f1 : FVec F S16384 .f32) : (P flat sid f0 f1).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

end Cert.KernelIdeal.SC

end
-- ==== Proof.IHeads.lean ====
/-
  The dense stage (the pooled and per-source heads on blocks of 1024 tokens) as a pipeline region: what its body leaves
  in each output buffer as a function of the input blocks, the body's run, and the region's proof data — each input
  buffer at its block at every grid point, each output buffer at the body's function of the input blocks.
-/
import proofs.«211727_g52312701665785_cont_9to1_m_854_46_alg».proof.Proof.ICommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-! ## The body's accesses: every load and store of the dense stage is of a whole staging buffer -/

abbrev rX : Rect S1024x2048 := Rect.unit (s := S1024x2048) ![0, 0] S1024x2048.size inb_S1024x2048_S1024x2048_0_0
abbrev rW : Rect S2048x18 := Rect.unit (s := S2048x18) ![0, 0] S2048x18.size inb_S2048x18_S2048x18_0_0
abbrev rB16 : Rect S16 := Rect.unit (s := S16) ![0] S16.size inb_S16_S16_0
abbrev rB2 : Rect S2 := Rect.unit (s := S2) ![0] S2.size inb_S2_S2_0
abbrev rN : Rect S1024 := Rect.unit (s := S1024) ![0] S1024.size inb_S1024_S1024_0
abbrev rT : Rect S1024x16 := Rect.unit (s := S1024x16) ![0, 0] S1024x16.size inb_S1024x16_S1024x16_0_0

/-! ## What the body leaves in each output buffer, from the input blocks -/

/-- The embedding block is copied. -/
def out4 (x0 : Vec F S1024x2048 .f32) : Vec F S1024x2048 .f32 :=
  View.canon [⟨rX, View.ld x0 rX⟩]
/-- The pooled mean of the block's 1024 tokens. -/
def out5 (x0 : Vec F S1024x2048 .f32) (x1 : Vec F S2048x18 .f32) (x3 : Vec F S2 .f32) : Vec F S1024 .f32 :=
  View.canon [⟨rN, k0_pay3 (k0_pay5 (View.ld x0 rX) (View.ld x1 rW)) (View.ld x3 rB2)⟩]
/-- The pooled scale of the block's tokens. -/
def out6 (x0 : Vec F S1024x2048 .f32) (x1 : Vec F S2048x18 .f32) (x3 : Vec F S2 .f32) : Vec F S1024 .f32 :=
  View.canon [⟨rN, k0_pay4 (k0_pay5 (View.ld x0 rX) (View.ld x1 rW)) (View.ld x3 rB2)⟩]
/-- The 16-column table of the block's tokens. -/
def out7 (x0 : Vec F S1024x2048 .f32) (x1 : Vec F S2048x18 .f32) (x2 : Vec F S16 .f32) : Vec F S1024x16 .f32 :=
  View.canon [⟨rT, k0_pay1 (k0_pay6 (View.ld x0 rX) (View.ld x1 rW) (View.ld x2 rB16)) k0_pay7 (k0_pay8 (View.ld x0 rX) (View.ld x1 rW) (View.ld x2 rB16))⟩]

theorem cover4 (p0 : Vec F S1024x2048 .f32) (y : S1024x2048.Idx) :
    ∃ pc ∈ ([⟨rX, p0⟩] : List (View.Piece (Elt F) S1024x2048 .f32)), y ∈ pc.1.set :=
  View.cover_of_tiled [⟨rX, p0⟩] S1024x2048.size (by rfl) y
theorem coverN (p0 : Vec F S1024 .f32) (y : S1024.Idx) :
    ∃ pc ∈ ([⟨rN, p0⟩] : List (View.Piece (Elt F) S1024 .f32)), y ∈ pc.1.set :=
  View.cover_of_tiled [⟨rN, p0⟩] S1024.size (by rfl) y
theorem coverT (p0 : Vec F S1024x16 .f32) (y : S1024x16.Idx) :
    ∃ pc ∈ ([⟨rT, p0⟩] : List (View.Piece (Elt F) S1024x16 .f32)), y ∈ pc.1.set :=
  View.cover_of_tiled [⟨rT, p0⟩] S1024x16.size (by rfl) y

/-! ## The body's triple -/

set_option maxHeartbeats 4000000 in
/-- The dense stage's body on whole staging buffers, the four inputs' at read contents and the four outputs' at anything,
    runs to the continuation holding the inputs as they were and each output at its function of the inputs. -/
theorem sound_kernel (c : Dev nD) (E : Set ℕ) (i : grid0.Coords) (arg1 : Memref sig .tc .vmem S1024x2048 .f32) (harg1 : arg1.IsWhole) (arg2 : Memref sig .tc .vmem S2048x18 .f32) (harg2 : arg2.IsWhole) (arg3 : Memref sig .tc .vmem S16 .f32) (harg3 : arg3.IsWhole) (arg4 : Memref sig .tc .vmem S2 .f32) (harg4 : arg4.IsWhole) (arg5 : Memref sig .tc .vmem S1024x2048 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x16 .f32) (harg8 : arg8.IsWhole)
    (x0 : Vec F S1024x2048 .f32) (x1 : Vec F S2048x18 .f32) (x2 : Vec F S16 .f32) (x3 : Vec F S2 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4 x0) ∗ owns (c : Thread nD τ) arg6 fullShare (out5 x0 x1 x3) ∗ owns (c : Thread nD τ) arg7 fullShare (out6 x0 x1 x3) ∗ owns (c : Thread nD τ) arg8 fullShare (out7 x0 x1 x2)) -∗ Kont ⟨⟩))
      ⊢ wp frame (wpE (defs₀ (F := F)) Variants.none c none) E (cc0__heads_body i arg1 harg1 arg2 harg2 arg3 harg3 arg4 harg4 arg5 harg5 arg6 harg6 arg7 harg7 arg8 harg8) Kont := by
  simp only [cc0__heads_body_eq_skeleton]; unfold cc0__heads_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  isplitl [H5]
  · iexists _; isplitr
    swap; · iexact H5
    ipureintro
    exact View.read_writes_eq_canon _ _ _ (coverN _)
  isplitl [H6]
  · iexists _; isplitr
    swap; · iexact H6
    ipureintro
    exact View.read_writes_eq_canon _ _ _ (coverN _)
  iexists _; isplitr
  swap; · iexact H7
  ipureintro
  exact View.read_writes_eq_canon _ _ _ (coverT _)

/-! ## The proof data of the dense stage, at the contents `V` the region is entered with and the tallies `O` the core owes throughout -/

section Data

variable (V : (c : Dev nD) → (b : Ref sig .tc) → Buf (Elt F) ((c : Thread nD τ).loc b)) (O : Dev nD → CellTallies nD τ sig (HIx 1))
  (Rc : Dev nD → Set (SemLoc sig × HIx 1))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point t each input buffer holds its block and each output buffer its function of the input blocks; the
    invariant is the scoped buffers no window stages; the core owes `O c` throughout. -/
def dat0 (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t)
    | ⟨5, _⟩ => out5 (iblk V c 0 t) (iblk V c 1 t) (iblk V c 3 t)
    | ⟨6, _⟩ => out6 (iblk V c 0 t) (iblk V c 1 t) (iblk V c 3 t)
    | ⟨7, _⟩ => out7 (iblk V c 0 t) (iblk V c 1 t) (iblk V c 2 t)
  Φ _ := Pipeline.scopedRest (Ix := HIx 1) (Name := ℕ) (U := UU) (Lvl := ℕ) (Val := Elt F) spec0 c
  q _ := fullShare
  owed _ := O c
  recorded _ := Rc c

theorem A_eq (c : Dev nD) (w : Fin cfg0.W) : (dat0 V O Rc c).A w = V c (Pipeline.arrRef spec0 w) := by dsimp only [dat0]
theorem after_0 (c : Dev nD) (t : Fin cfg0.N) : (dat0 V O Rc c).after 0 t = iblk V c 0 t := by dsimp only [dat0]
theorem after_1 (c : Dev nD) (t : Fin cfg0.N) : (dat0 V O Rc c).after 1 t = iblk V c 1 t := by dsimp only [dat0]
theorem after_2 (c : Dev nD) (t : Fin cfg0.N) : (dat0 V O Rc c).after 2 t = iblk V c 2 t := by dsimp only [dat0]
theorem after_3 (c : Dev nD) (t : Fin cfg0.N) : (dat0 V O Rc c).after 3 t = iblk V c 3 t := by dsimp only [dat0]
theorem after_4 (c : Dev nD) (t : Fin cfg0.N) : (dat0 V O Rc c).after 4 t = out4 (iblk V c 0 t) := by dsimp only [dat0]
theorem after_5 (c : Dev nD) (t : Fin cfg0.N) : (dat0 V O Rc c).after 5 t = out5 (iblk V c 0 t) (iblk V c 1 t) (iblk V c 3 t) := by dsimp only [dat0]
theorem after_6 (c : Dev nD) (t : Fin cfg0.N) : (dat0 V O Rc c).after 6 t = out6 (iblk V c 0 t) (iblk V c 1 t) (iblk V c 3 t) := by dsimp only [dat0]
theorem after_7 (c : Dev nD) (t : Fin cfg0.N) : (dat0 V O Rc c).after 7 t = out7 (iblk V c 0 t) (iblk V c 1 t) (iblk V c 2 t) := by dsimp only [dat0]

/-- Each input's current staging buffer holds its block at every point, fetched there or not. -/
theorem before_0 (c : Dev nD) (t : Fin cfg0.N) (d) : (dat0 V O Rc c).before 0 t d = iblk V c 0 t :=
  ((dat0 V O Rc c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V O Rc c).before 1 t d = iblk V c 1 t :=
  ((dat0 V O Rc c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V O Rc c).before 2 t d = iblk V c 2 t :=
  ((dat0 V O Rc c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V O Rc c).before 3 t d = iblk V c 3 t :=
  ((dat0 V O Rc c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat0 V O Rc c).Φ t.castSucc ∗ (dat0 V O Rc c).owesAt none t.castSucc
    ∗ (∃ d, owns (c : Thread nD τ) (st0_0 t) fullShare ((dat0 V O Rc c).before 0 t d))
    ∗ (∃ d, owns (c : Thread nD τ) (st0_1 t) fullShare ((dat0 V O Rc c).before 1 t d))
    ∗ (∃ d, owns (c : Thread nD τ) (st0_2 t) fullShare ((dat0 V O Rc c).before 2 t d))
    ∗ (∃ d, owns (c : Thread nD τ) (st0_3 t) fullShare ((dat0 V O Rc c).before 3 t d))
    ∗ (∃ d, owns (c : Thread nD τ) (st0_4 t) fullShare ((dat0 V O Rc c).before 4 t d))
    ∗ (∃ d, owns (c : Thread nD τ) (st0_5 t) fullShare ((dat0 V O Rc c).before 5 t d))
    ∗ (∃ d, owns (c : Thread nD τ) (st0_6 t) fullShare ((dat0 V O Rc c).before 6 t d))
    ∗ (∃ d, owns (c : Thread nD τ) (st0_7 t) fullShare ((dat0 V O Rc c).before 7 t d)))

def bodyPost (c : Dev nD) (t : Fin cfg0.N) : sProp 𝕄 :=
  iprop((dat0 V O Rc c).Φ t.succ ∗ (dat0 V O Rc c).owesAt none t.succ
    ∗ owns (c : Thread nD τ) (st0_0 t) fullShare ((dat0 V O Rc c).after 0 t)
    ∗ owns (c : Thread nD τ) (st0_1 t) fullShare ((dat0 V O Rc c).after 1 t)
    ∗ owns (c : Thread nD τ) (st0_2 t) fullShare ((dat0 V O Rc c).after 2 t)
    ∗ owns (c : Thread nD τ) (st0_3 t) fullShare ((dat0 V O Rc c).after 3 t)
    ∗ owns (c : Thread nD τ) (st0_4 t) fullShare ((dat0 V O Rc c).after 4 t)
    ∗ owns (c : Thread nD τ) (st0_5 t) fullShare ((dat0 V O Rc c).after 5 t)
    ∗ owns (c : Thread nD τ) (st0_6 t) fullShare ((dat0 V O Rc c).after 6 t)
    ∗ owns (c : Thread nD τ) (st0_7 t) fullShare ((dat0 V O Rc c).after 7 t))

theorem sound_body (c : Dev nD) (t : Fin cfg0.N) :
    bodyPre V O Rc c t ⊢ wp frame (wpE (defs₀ (F := F)) Variants.none c none) Set.univ (bodyAt0 t) (fun _ => bodyPost V O Rc c t) := by
  unfold bodyPre bodyPost bodyAt0
  simp only [before_0, before_1, before_2, before_3]
  rw [show (dat0 V O Rc c).Φ t.succ = (dat0 V O Rc c).Φ t.castSucc from rfl,
    show (dat0 V O Rc c).owesAt none t.succ = (dat0 V O Rc c).owesAt none t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat0 V O Rc c) (defs₀ (F := F)) Variants.none (none : HIx 1) Set.univ := fun t => by
  rw [bigSep_W0, bigSep_W0]
  exact sound_body V O Rc c t

end Data

end Cert.KernelIdeal.SC

end
-- ==== Proof.IRegion.lean ====
/-
  The dense stage as a segment of the TensorCore's program: entered holding every unscoped buffer at the contents `W1`,
  left holding them at `W2` — the stage's four result arrays at what its write-backs leave, everything else as it was.
  Throughout, the TensorCore owes the routing call's start signals (the tallies `O`), which sit above the staging cells'
  waits in level, so the stage's own waits are admissible.
-/
import proofs.«211727_g52312701665785_cont_9to1_m_854_46_alg».proof.Proof.IHeads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

section Region

variable (W1 : Dev nD → Valuation τ sig (Elt F)) (O : Dev nD → CellTallies nD τ sig (HIx 1)) (Rc : Dev nD → Set (SemLoc sig × HIx 1))

/-- The entry contents read at the TensorCore's references. -/
abbrev V1 : (c : Dev nD) → (b : Ref sig .tc) → Buf (Elt F) ((c : Thread nD τ).loc b) := fun c b => W1 c b

/-- No pipeline has a prefetched table. -/
abbrev adm : (p : Fin 1) → (pcfgs (F := F) p).Adm := fun p => (cfgs p).toPCfg_adm

/-- The one pipeline's proof data, a literal match so that the pinned configuration reduces to the printed one. -/
def pdats : (p : Fin 1) → (c : Dev nD) → Dat τ (Elt F) (HIx 1) ℕ UU ℕ (Pipeline.pin (pcfgs (F := F)) adm p) c
  | ⟨0, _⟩ => fun c => dat0 (V1 W1) O Rc c

/-- At the stage's exit: its arrays at what the pipeline leaves, every other buffer as entered. -/
def W2 (c : Dev nD) : Valuation τ sig (Elt F) :=
  Pipeline.withArrays spec0 c (W1 c) fun w => (dat0 (V1 W1) O Rc c).arrAt w cfg0.N
theorem W2_arr (c : Dev nD) (w : Fin cfg0.W) :
    W2 W1 O Rc c (Proc.devRef .tc (Pipeline.arrRef spec0 w)) = (dat0 (V1 W1) O Rc c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 W1 O Rc c (Proc.devRef .tc b) = W1 c (Proc.devRef .tc b) := by
  unfold W2; exact Pipeline.withArrays_of_ne spec0 c _ _ b hb
abbrev V2 : (c : Dev nD) → (b : Ref sig .tc) → Buf (Elt F) ((c : Thread nD τ).loc b) := fun c b => W2 W1 O Rc c b
theorem hF0 (c : Dev nD) (w : Fin cfg0.W) : (dat0 (V1 W1) O Rc c).arrAt w cfg0.N = V2 W1 O Rc c (Pipeline.arrRef spec0 w) :=
  (W2_arr W1 O Rc c w).symm
theorem hrest0 (c : Dev nD) : ∀ b, b ∉ Finset.univ.image (Pipeline.arrRef spec0) → V2 W1 O Rc c b = V1 W1 c b :=
  fun b hb => W2_of_ne W1 O Rc c b fun w e => hb (Finset.mem_image.mpr ⟨w, Finset.mem_univ _, e⟩)

set_option backward.isDefEq.respectTransparency.types false in
/-- The dense stage over the thread state "every unscoped buffer at the boundary's contents, the core owing `O` with its
    recorded pairs bounded". -/
def reg0 (hO : ∀ c g, O c g none = 0) :
    Pipeline.RegionSeg (pcfgs (F := F)) adm (pdats W1 O Rc) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation (V1 W1) O Rc c).loose
  hwaits c := Pipeline.cellsWaits_intro (Pipeline.pin (pcfgs (F := F)) adm) (pdats W1 O Rc) (none : HIx 1) 0 c
    fun w s t => (K (F := F)).mayWait_none (SemLoc.dma ((cfg0.win w).sem s)) (hO c)
  pre c := iprop(StableHlo.held (c : Thread nD τ) (Pipeline.ucRefs τ sig) (W1 c) ∗ Pipeline.owesWithin c (O c) (Rc c))
  post c := iprop(StableHlo.held (c : Thread nD τ) (Pipeline.ucRefs τ sig) (W2 W1 O Rc c) ∗ Pipeline.owesWithin c (O c) (Rc c ∪ cfg0.waitPairs none))
  X c := iprop(emp)
  Y c := iprop(emp)
  Z c := Pipeline.unscopedRest (Ix := HIx 1) (Name := ℕ) (U := UU) (Lvl := ℕ) spec0 c (V1 W1 c)
  hentry c := by
    rw [Pipeline.ownSems0_none]
    have hsplit := Pipeline.arrays_of_unscopedBufs (p := 0) (pcfgs (F := F)) adm (pdats W1 O Rc) launch0.win launch0.arr_whole c
      ((pdats W1 O Rc 0 c).share_full fun _ => rfl) (V1 W1 c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O c) (show Rc c ⊆ Rc c ∪ cfg0.waitPairs none from Set.subset_union_left)); iexact HO
    isplitr; · iempintro
    iexact Hrest
  hin c := by
    rw [show (pdats W1 O Rc 0 c).Φ 0 = Pipeline.scopedRest (Ix := HIx 1) (Name := ℕ) (U := UU) (Lvl := ℕ) (Val := Elt F) spec0 c from rfl]
    iintro ⟨-, -, Hr⟩
    iexact Hr
  hout c := by
    rw [Pipeline.ownSems0_none, show (pdats W1 O Rc 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats W1 O Rc) ((pdats W1 O Rc 0 c).share_full fun _ => rfl)
      (V1 W1 c) (V2 W1 O Rc c) ((pdats W1 O Rc 0 c).arrAt · cfg0.N) (hF0 W1 O Rc c) (hrest0 W1 O Rc c)
    rw [Pipeline.unscopedBufs_held] at hjoin
    iintro ⟨Ha, HO, -, Hrest⟩
    imodintro
    isplitl [Ha Hrest]
    · iapply hjoin; isplitl [Ha] <;> iassumption
    iexact HO

end Region

end Cert.KernelIdeal.SC

end
-- ==== Proof.ISplit.lean ====
/-
  A whole per-token array (or the flat table) is its 32 chunks, grouped as the routing call deals them: SparseCore c gets the
  sixteen chunks 2·i + c of its subcores i. The chunks are pairwise disjoint and cover the array, and (c, i) ↦ 2·i + c is a
  bijection onto the 32 chunk numbers, so the call's operands are the arrays and its results rejoin to them.
-/
import proofs.«211727_g52312701665785_cont_9to1_m_854_46_alg».proof.Proof.ICommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

theorem widOf_inj : Function.Injective (fun ci : Fin 2 × Fin 16 => widOf ci.1 ci.2) := by decide
theorem widOf_image : (Finset.univ : Finset (Fin 2 × Fin 16)).image (fun ci => widOf ci.1 ci.2) = Finset.univ := by decide

/-- A family over the 32 chunk numbers, regrouped by SparseCore and subcore. -/
theorem bigSep_wid (Φ : Fin 32 → sProp 𝕄) :
    bigSep Finset.univ Φ = bigSep Finset.univ fun c : Fin 2 => bigSep Finset.univ fun i : Fin 16 => Φ (widOf c i) := by
  rw [← widOf_image, SparseCore.bigSep_image_of_injOn (widOf_inj.injOn) Φ, ← Finset.univ_product_univ, SparseCore.bigSep_product]

theorem flat_disjoint : ∀ i ∈ (Finset.univ : Finset (Fin 32)), ∀ j ∈ (Finset.univ : Finset (Fin 32)), i ≠ j → Disjoint (flatChunk i) (flatChunk j) :=
  fun i _ j _ h => Rect.part_disjoint hdivFlat h
theorem flat_cover : (Finset.univ : Finset (Fin 32)).biUnion flatChunk = Finset.univ := Rect.biUnion_part hdivFlat
theorem tok_disjoint : ∀ i ∈ (Finset.univ : Finset (Fin 32)), ∀ j ∈ (Finset.univ : Finset (Fin 32)), i ≠ j → Disjoint (tokChunk i) (tokChunk j) :=
  fun i _ j _ h => Rect.part_disjoint hdivTok h
theorem tok_cover : (Finset.univ : Finset (Fin 32)).biUnion tokChunk = Finset.univ := Rect.biUnion_part hdivTok

theorem flat_chunks (d : Dev nD) (f : Buf (Elt F) (flatLoc d)) :
    (flatLoc d ↦{fullShare} f : sProp 𝕄) = bigSep Finset.univ fun c : Fin 2 => bigSep Finset.univ fun i : Fin 16 => flatLoc d ↦[flatChunk (widOf c i)]{fullShare} f := by
  rw [← bigSep_wid (fun w => (flatLoc d ↦[flatChunk w]{fullShare} f : sProp 𝕄)), ← pointsTo_biUnion Finset.univ (ℓ := flatLoc d) flatChunk flat_disjoint, flat_cover]; try rfl
theorem sid_chunks (d : Dev nD) (f : Buf (Elt F) (sidLoc d)) :
    (sidLoc d ↦{fullShare} f : sProp 𝕄) = bigSep Finset.univ fun c : Fin 2 => bigSep Finset.univ fun i : Fin 16 => sidLoc d ↦[tokChunk (widOf c i)]{fullShare} f := by
  rw [← bigSep_wid (fun w => (sidLoc d ↦[tokChunk w]{fullShare} f : sProp 𝕄)), ← pointsTo_biUnion Finset.univ (ℓ := sidLoc d) tokChunk tok_disjoint, tok_cover]; try rfl
theorem mean_chunks (d : Dev nD) (f : Buf (Elt F) (meanLoc d)) :
    (meanLoc d ↦{fullShare} f : sProp 𝕄) = bigSep Finset.univ fun c : Fin 2 => bigSep Finset.univ fun i : Fin 16 => meanLoc d ↦[tokChunk (widOf c i)]{fullShare} f := by
  rw [← bigSep_wid (fun w => (meanLoc d ↦[tokChunk w]{fullShare} f : sProp 𝕄)), ← pointsTo_biUnion Finset.univ (ℓ := meanLoc d) tokChunk tok_disjoint, tok_cover]; try rfl
theorem scale_chunks (d : Dev nD) (f : Buf (Elt F) (scaleLoc d)) :
    (scaleLoc d ↦{fullShare} f : sProp 𝕄) = bigSep Finset.univ fun c : Fin 2 => bigSep Finset.univ fun i : Fin 16 => scaleLoc d ↦[tokChunk (widOf c i)]{fullShare} f := by
  rw [← bigSep_wid (fun w => (scaleLoc d ↦[tokChunk w]{fullShare} f : sProp 𝕄)), ← pointsTo_biUnion Finset.univ (ℓ := scaleLoc d) tokChunk tok_disjoint, tok_cover]; try rfl

variable (flat : FVec F S262144 .f32) (sid : IVec S16384 32) (f0 f1 : FVec F S16384 .f32)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The call's operands: the four arrays whole. -/
theorem st_eq (d : Dev nD) :
    (bigSep Finset.univ fun c : Fin ((K (F := F)).nCore 0) => (P flat sid f0 f1).st 0 d c)
      = iprop((flatLoc d ↦{fullShare} flat) ∗ (sidLoc d ↦{fullShare} sid) ∗ (meanLoc d ↦{fullShare} f0) ∗ (scaleLoc d ↦{fullShare} f1)) := by
  show (bigSep Finset.univ fun c : Fin ((K (F := F)).nCore 0) => bigSep Finset.univ fun i : Fin 16 => goRes flat sid f0 f1 d (widOf (Fin.cast nCore_zero c) i)) = _
  rw [bigSep_cores (F := F) (fun c => bigSep Finset.univ fun i : Fin 16 => goRes flat sid f0 f1 d (widOf c i))]
  unfold goRes
  simp only [bigSep_sep']
  rw [flat_chunks, sid_chunks, mean_chunks, scale_chunks]

/-- The call's results: the table and the source ids as they were, the two result arrays at the routed entries. -/
theorem dn_eq (d : Dev nD) :
    (bigSep Finset.univ fun c : Fin ((K (F := F)).nCore 0) => (P flat sid f0 f1).dn 0 d c)
      = iprop((flatLoc d ↦{fullShare} flat) ∗ (sidLoc d ↦{fullShare} sid) ∗ (meanLoc d ↦{fullShare} KForm.Groute 0 flat sid) ∗ (scaleLoc d ↦{fullShare} KForm.Groute 1 flat sid)) := by
  show (bigSep Finset.univ fun c : Fin ((K (F := F)).nCore 0) => bigSep Finset.univ fun i : Fin 16 => tdRes flat sid d (widOf (Fin.cast nCore_zero c) i)) = _
  rw [bigSep_cores (F := F) (fun c => bigSep Finset.univ fun i : Fin 16 => tdRes flat sid d (widOf c i))]
  unfold tdRes
  simp only [bigSep_sep']
  rw [flat_chunks, sid_chunks, mean_chunks, scale_chunks]

/-- A SparseCore's operands are its tasks' shares together, and its results theirs together. -/
theorem vecSplit : (K (F := F)).VecSplit' (P flat sid f0 f1) 0 := by
  intro d c
  show (bigSep Finset.univ fun i : Fin 16 => goRes flat sid f0 f1 d (widOf (Fin.cast nCore_zero c) i)) ⊢ |={Set.univ}=> iprop(
      (bigSep Finset.univ fun i : Fin ((K (F := F)).nSub 0) => goRes flat sid f0 f1 d (widOf (Fin.cast nCore_zero c) (Fin.cast nSub_zero i)))
      ∗ ((bigSep Finset.univ fun i : Fin ((K (F := F)).nSub 0) => tdRes flat sid d (widOf (Fin.cast nCore_zero c) (Fin.cast nSub_zero i)))
          -∗ bigSep Finset.univ fun i : Fin 16 => tdRes flat sid d (widOf (Fin.cast nCore_zero c) i)))
  rw [show (bigSep Finset.univ fun i : Fin ((K (F := F)).nSub 0) => goRes flat sid f0 f1 d (widOf (Fin.cast nCore_zero c) (Fin.cast nSub_zero i)))
      = bigSep Finset.univ fun i : Fin 16 => goRes flat sid f0 f1 d (widOf (Fin.cast nCore_zero c) i) from
        bigSep_congr fun _ _ => congrArg (fun i => goRes flat sid f0 f1 d (widOf (Fin.cast nCore_zero c) i)) (Fin.ext rfl),
    show (bigSep Finset.univ fun i : Fin ((K (F := F)).nSub 0) => tdRes flat sid d (widOf (Fin.cast nCore_zero c) (Fin.cast nSub_zero i)))
      = bigSep Finset.univ fun i : Fin 16 => tdRes flat sid d (widOf (Fin.cast nCore_zero c) i) from
        bigSep_congr fun _ _ => congrArg (fun i => tdRes flat sid d (widOf (Fin.cast nCore_zero c) i)) (Fin.ext rfl)]
  iintro H; imodintro
  isplitl [H]; · iexact H
  iintro H; iexact H

end Cert.KernelIdeal.SC

end
-- ==== Proof.IMain.lean ====
/-
  The TensorCore's program: the widened weight matrix and the flat bias are built by four host operations, the dense stage
  runs as a pipeline region, its table is laid out flat, and the routing call is started and waited for. What it leaves:
  every buffer the routing call does not touch at the last boundary's contents, the call's two inputs as they were and its
  two results at the routed table entries.
-/
import proofs.«211727_g52312701665785_cont_9to1_m_854_46_alg».proof.Proof.IRegion
import proofs.«211727_g52312701665785_cont_9to1_m_854_46_alg».proof.Proof.ISplit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

/-! ## The host operations of the TensorCore's program, as printed -/

abbrev op1 : HloOp τ sig (Elt F) := StableHlo.unary main_arg4 main_v0 ((transpose S2048x8x2 [1, 0, 2] · transposes_S8x2048x2_S2048x8x2_1_0_2) : (⟨S8x2048x2, .f32⟩ : BufTy).Contents (Elt F) → (⟨S2048x8x2, .f32⟩ : BufTy).Contents (Elt F))
abbrev op2 : HloOp τ sig (Elt F) := StableHlo.reshape main_v0 main_v1 rfl shapeCasts_S2048x8x2_S2048x16
abbrev op3 : HloOp τ sig (Elt F) := StableHlo.binary main_v1 main_arg2 main_v2 ((fun a b => concatenate S2048x18 1 [⟨S2048x16, a⟩, ⟨S2048x2, b⟩] concatenates_S2048x16_S2048x2_S2048x18_d1) : (⟨S2048x16, .f32⟩ : BufTy).Contents (Elt F) → (⟨S2048x2, .f32⟩ : BufTy).Contents (Elt F) → (⟨S2048x18, .f32⟩ : BufTy).Contents (Elt F))
abbrev op4 : HloOp τ sig (Elt F) := StableHlo.reshape main_arg5 main_v3 rfl shapeCasts_S8x2_S16
abbrev op5 : HloOp τ sig (Elt F) := StableHlo.reshape main_v4_3 main_v5 rfl shapeCasts_S16384x16_S262144

abbrev UC : Finset (DevRef τ sig) := Pipeline.ucRefs τ sig

theorem hop1 : (op1 (F := F)).bufs ⊆ UC := by rw [StableHlo.unary_bufs]; decide
theorem hop2 : (op2 (F := F)).bufs ⊆ UC := by rw [StableHlo.reshape_bufs]; decide
theorem hop3 : (op3 (F := F)).bufs ⊆ UC := by rw [StableHlo.binary_bufs]; decide
theorem hop4 : (op4 (F := F)).bufs ⊆ UC := by rw [StableHlo.reshape_bufs]; decide
theorem hop5 : (op5 (F := F)).bufs ⊆ UC := by rw [StableHlo.reshape_bufs]; decide

section Main

variable (m : (ℓ : Loc nD τ sig) → Buf (Elt F) ℓ) (ρ : Dev nD → PrngReg)

/-- The buffer contents at each boundary of the TensorCore's program: as launched; after the four operations that build
    the widened weights and the flat bias; after the dense stage; after the table is laid out flat. -/
abbrev Wa (d : Dev nD) : Valuation τ sig (Elt F) := StableHlo.launchContents m d
abbrev Wb (d : Dev nD) : Valuation τ sig (Elt F) := (op4 (F := F)).result ((op3 (F := F)).result ((op2 (F := F)).result ((op1 (F := F)).result (Wa m d))))
/-- What the TensorCore owes throughout: the routing call's start signals. -/
abbrev Otc (d : Dev nD) : CellTallies nD τ sig (HIx 1) := (K (F := F)).Otc d 0
/-- The pairs its waits may have recorded before the dense stage: those at level 0. -/
def Rtc (d : Dev nD) : Set (SemLoc sig × HIx 1) := {p | (K (F := F)).lev (SparseCore.T d, p.1) p.2 ≤ 0}
abbrev Wc (d : Dev nD) : Valuation τ sig (Elt F) := W2 (Wb m) (Otc (F := F)) (Rtc (F := F)) d
abbrev Wd (d : Dev nD) : Valuation τ sig (Elt F) := (op5 (F := F)).result (Wc m d)

/-- The dense stage's share of the ghost state on device d. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

theorem hOtc (d : Dev nD) (g : GSem nD τ sig) : Otc (F := F) d g none = 0 := by
  by_contra h
  have := (K (F := F)).lev_of_Otc_pos (Nat.pos_of_ne_zero h)
  rw [SparseCore.Cfg.lev_none] at this; omega

end Main

section Main2

variable (m : (ℓ : Loc nD τ sig) → Buf (Elt F) ℓ) (ρ : Dev nD → PrngReg)

theorem reg0_pre (W1 : Dev nD → Valuation τ sig (Elt F)) (O : Dev nD → CellTallies nD τ sig (HIx 1)) (Rc : Dev nD → Set (SemLoc sig × HIx 1))
    (hO : ∀ c g, O c g none = 0) (c : Dev nD) :
    (reg0 W1 O Rc hO).pre c = iprop(held (c : Thread nD τ) UC (W1 c) ∗ Pipeline.owesWithin c (O c) (Rc c)) := rfl
theorem reg0_post (W1 : Dev nD → Valuation τ sig (Elt F)) (O : Dev nD → CellTallies nD τ sig (HIx 1)) (Rc : Dev nD → Set (SemLoc sig × HIx 1))
    (hO : ∀ c g, O c g none = 0) (c : Dev nD) :
    (reg0 W1 O Rc hO).post c = iprop(held (c : Thread nD τ) UC (W2 W1 O Rc c) ∗ Pipeline.owesWithin c (O c) (Rc c ∪ cfg0.waitPairs none)) := rfl

/-- The TensorCore's handshake state apart from what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest d n) := rfl

abbrev d0 : Dev nD := 0
/-- What the routing call works on: the flat table, the source ids, and the two result arrays as they stand before it. -/
abbrev flatV : FVec F S262144 .f32 := Wd m d0 (Proc.devRef .tc main_v5)
abbrev sidV : IVec S16384 32 := Wd m d0 (Proc.devRef .tc main_arg1)
abbrev f0V : FVec F S16384 .f32 := Wd m d0 (Proc.devRef .tc main_v6_0)
abbrev f1V : FVec F S16384 .f32 := Wd m d0 (Proc.devRef .tc main_v6_1)
abbrev P0 : (K (F := F)).Pay (nD := nD) (Val := Elt F) (Name := ℕ) (U := UU) := P (flatV m) (sidV m) (f0V m) (f1V m)

abbrev R4 : Finset (DevRef τ sig) := {Proc.devRef .tc main_v5, Proc.devRef .tc main_arg1, Proc.devRef .tc main_v6_0, Proc.devRef .tc main_v6_1}
theorem hR4 : (R4 : Finset (DevRef τ sig)) ⊆ UC := by decide
theorem held_R4 (d : Dev nD) (W : Valuation τ sig (Elt F)) :
    (held (SparseCore.T d) R4 W : sProp 𝕄)
      = iprop((flatLoc d ↦{fullShare} W (Proc.devRef .tc main_v5)) ∗ (sidLoc d ↦{fullShare} W (Proc.devRef .tc main_arg1))
          ∗ (meanLoc d ↦{fullShare} W (Proc.devRef .tc main_v6_0)) ∗ scaleLoc d ↦{fullShare} W (Proc.devRef .tc main_v6_1)) := by
  unfold held R4
  rw [SparseCore.bigSep_insert' (by decide), SparseCore.bigSep_insert' (by decide), SparseCore.bigSep_insert' (by decide), bigSep_singleton]

/-- What the TensorCore's program leaves the claim: every unscoped buffer but the routing call's four at the last boundary's
    contents, and those four as the call returned them. -/
def FIN (d : Dev nD) : sProp 𝕄 :=
  iprop(held (SparseCore.T d) (UC \ R4) (Wd m d) ∗ (flatLoc d ↦{fullShare} flatV m) ∗ (sidLoc d ↦{fullShare} sidV m)
    ∗ (meanLoc d ↦{fullShare} KForm.Groute 0 (flatV m) (sidV m)) ∗ (scaleLoc d ↦{fullShare} KForm.Groute 1 (flatV m) (sidV m)))

set_option backward.isDefEq.respectTransparency.types false in
set_option maxHeartbeats 4000000 in
/-- The TensorCore's program on device d: four host operations, the dense stage, the flat layout, the routing call. -/
theorem hmain (κ : GSem nD τ sig → ℕ) (d : Dev nD) :
    iprop((K (F := F)).ctx EH (P0 m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  obtain rfl : d = d0 := Subsingleton.elim _ _
  unfold SparseCore.Cfg.tcRes
  rw [show (fun b : Ref sig .tc => m ((SparseCore.T d0).loc b)) = (fun b : Ref sig .tc => Wa m d0 b) from rfl, Pipeline.unscopedBufs_held]
  simp only [main, wp_bind, wp_pure]
  iintro ⟨#Hctx, Hst, ⟨Hb, Hheld, -, -⟩, HG⟩
  iapply (wp_hlo_within 𝒱 (SparseCore.T d0) none Set.univ (op := op1) (S := UC) hop1 (V := Wa m d0)) $$ [Hb Hheld]
  · isplitl [Hb]; · iexact Hb
    iexact Hheld
  iintro ⟨Hb, Hheld⟩
  rw [wp_ret]; imodintro
  iapply (wp_hlo_within 𝒱 (SparseCore.T d0) none Set.univ (op := op2) (S := UC) hop2) $$ [Hb Hheld]
  · isplitl [Hb]; · iexact Hb
    iexact Hheld
  iintro ⟨Hb, Hheld⟩
  rw [wp_ret]; imodintro
  iapply (wp_hlo_within 𝒱 (SparseCore.T d0) none Set.univ (op := op3) (S := UC) hop3) $$ [Hb Hheld]
  · isplitl [Hb]; · iexact Hb
    iexact Hheld
  iintro ⟨Hb, Hheld⟩
  rw [wp_ret]; imodintro
  iapply (wp_hlo_within 𝒱 (SparseCore.T d0) none Set.univ (op := op4) (S := UC) hop4) $$ [Hb Hheld]
  · isplitl [Hb]; · iexact Hb
    iexact Hheld
  iintro ⟨Hb, Hheld⟩
  rw [wp_ret]; imodintro
  ihave Hst2 := (Entails.of_eq (tcSt_eq (F := F) d0 0)) $$ Hst
  icases Hst2 with ⟨⟨%W, %hW, HO⟩, Hst'⟩
  icases HG with ⟨Hcg, Htk⟩
  ihave Hlev := ((K (F := F)).ctx_levAts κ) $$ Hctx
  iapply ((K (F := F)).wp_liftProg (D (F := F)) 𝒱 (SparseCore.T d0) Set.univ none (Prog.op (TpuEff.customCall (Pipeline.entry (0 : Fin 1)) ()) Prog.ret) _)
  iapply (Pipeline.RegionSeg.wp (pcfgs (F := F)) adm (pdats (Wb m) (Otc (F := F)) (Rtc (F := F))) (none : HIx 1) cellOf_inj EP defs₀ 𝒱₀ (K (F := F)).L (K (F := F)).lev
      (reg0 (Wb m) (Otc (F := F)) (Rtc (F := F)) (hOtc (F := F))) d0 none (fun _ h => nomatch h) Prog.ret _)
  isplitr [Hb Hheld HO Hcg Htk]
  swap
  · isplitl [Hb]; · iexact Hb
    isplitl [Hheld HO]
    · rw [reg0_pre]
      isplitl [Hheld]; · iexact Hheld
      iexists W; isplitr
      · ipureintro; intro p hp; exact hW p hp
      iexact HO
    isplitr; · iexact Hlev
    isplitl [Hcg]; · iexact Hcg
    iexact Htk
  iintro ⟨Hb, Hpost⟩
  rw [wp_ret]; imodintro
  ihave Hpost' := (Entails.of_eq (reg0_post (F := F) (Wb m) (Otc (F := F)) (Rtc (F := F)) (hOtc (F := F)) d0)) $$ [Hpost]
  · iexact Hpost
  icases Hpost' with ⟨Hheld, ⟨%W', %hW', HO⟩⟩
  iapply (wp_hlo_within 𝒱 (SparseCore.T d0) none Set.univ (op := op5) (S := UC) hop5 (V := Wc m d0)) $$ [Hb Hheld]
  · isplitl [Hb]; · iexact Hb
    iexact Hheld
  iintro ⟨Hb, Hheld⟩
  rw [wp_ret]; imodintro
  ihave Hh := (Entails.of_eq (StableHlo.held_sub_split (SparseCore.T d0) hR4 (Wd m d0))) $$ [Hheld]
  · iexact Hheld
  icases Hh with ⟨H4, Hrest⟩
  ihave H4' := (Entails.of_eq (held_R4 (F := F) d0 (Wd m d0))) $$ [H4]
  · iexact H4
  icases H4' with ⟨Hf, Hs, Hm, Hsc⟩
  iapply ((K (F := F)).wp_run (D (F := F)) 𝒱 (EH := EH) (P := P0 m) κ d0 0) $$ [Hst' HO Hf Hs Hm Hsc Hrest]
  isplitr; · iexact Hctx
  isplitl [Hst' HO]
  · rw [tcSt_eq]
    isplitl [HO]
    · iexists W'; isplitr
      · ipureintro; intro p hp
        rcases hW' hp with h | ⟨w, s, rfl⟩
        · exact h
        · rw [SparseCore.Cfg.lev_none]; exact Nat.zero_le _
      iexact HO
    iexact Hst'
  isplitl [Hf Hs Hm Hsc]
  · rw [st_eq]
    isplitl [Hf]; · iexact Hf
    isplitl [Hs]; · iexact Hs
    isplitl [Hm]; · iexact Hm
    iexact Hsc
  iintro ⟨Hst, Hdn⟩
  ihave Hdn' := (Entails.of_eq (dn_eq (F := F) (flatV m) (sidV m) (f0V m) (f1V m) d0)) $$ [Hdn]
  · iexact Hdn
  icases Hdn' with ⟨Hf, Hs, Hm, Hsc⟩
  imodintro
  isplitl [Hst]; · iexact Hst
  unfold FIN
  isplitl [Hrest]; · iexact Hrest
  isplitl [Hf]; · iexact Hf
  isplitl [Hs]; · iexact Hs
  isplitl [Hm]; · iexact Hm
  iexact Hsc

end Main2

end Cert.KernelIdeal.SC

end
-- ==== Proof.ILaunchA.lean ====
/-
  The launch: the ghost state's launch element (the handshakes' rounds, the dense stage's staging cells, no transfer in
  flight), and how the TensorCore's final assertion reads the final memory: every unscoped buffer the routing call does not touch at
  the last boundary's contents, the call's inputs as they were and its results at the routed table entries.
-/
import proofs.«211727_g52312701665785_cont_9to1_m_854_46_alg».proof.Proof.IMain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

/-! ## The launch element -/

/-- The handshakes' cells and tokens; the dense stage's staging cells and its loop's transfer tokens; no counter. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem ownU_split (a : UH) (b : UP) (c : Counters) : (ownU ((a, (b, c)) : UU) : sProp 𝕄) ⊢ iprop(BI.own (EH a) ∗ BI.own (EP b)) := by
  have h1 : (ownU ((a, (b, c)) : UU) : sProp 𝕄) ⊢ iprop(BI.own ((uEmb (nD := nD) (sig := sig) (Ix := HIx 1) (Val := Elt F) (Name := ℕ) (U := UU) (Lvl := ℕ)).toEmb ((a, 1) : UU))
      ∗ BI.own ((uEmb (nD := nD) (sig := sig) (Ix := HIx 1) (Val := Elt F) (Name := ℕ) (U := UU) (Lvl := ℕ)).toEmb ((1, (b, c)) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own ((uEmb (nD := nD) (sig := sig) (Ix := HIx 1) (Val := Elt F) (Name := ℕ) (U := UU) (Lvl := ℕ)).toEmb ((1, (b, c)) : UU)) : sProp 𝕄)
      ⊢ iprop(BI.own ((uEmb (nD := nD) (sig := sig) (Ix := HIx 1) (Val := Elt F) (Name := ℕ) (U := UU) (Lvl := ℕ)).toEmb ((1, (b, 1)) : UU))
      ∗ BI.own ((uEmb (nD := nD) (sig := sig) (Ix := HIx 1) (Val := Elt F) (Name := ℕ) (U := UU) (Lvl := ℕ)).toEmb ((1, (1, c)) : UU))) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H' := h1 $$ H
  icases H' with ⟨Ha, Hbc⟩
  ihave H'' := h2 $$ Hbc
  icases H'' with ⟨Hb, -⟩
  isplitl [Ha]
  · iexact Ha
  · iexact Hb

theorem bigSep_emp' {I : Type} (s : Finset I) : (bigSep s fun _ => iprop(emp)) = (iprop(emp) : sProp 𝕄) := bigSep_emp_const s

variable (flat : FVec F S262144 .f32) (sid : IVec S16384 32) (f0 f1 : FVec F S16384 .f32)

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P flat sid f0 f1).x q thr) := by
  unfold u₀
  iintro Hu
  ihave H := (ownU_split (F := F) _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold Gd
    rw [bigSep_sep']
    isplitl [Hg]
    · iapply (Entails.of_eq (bigSep_congr fun d _ => (bigSep_univ_of_subsingleton (0 : Fin 1) (Φ := fun p => Pipeline.cellsGhost (Pipeline.pin (pcfgs (F := F)) adm) EP p d)))); iexact Hg
    · iapply (Entails.of_eq (bigSep_congr fun d _ => (bigSep_univ_of_subsingleton (0 : Fin 1) (Φ := fun p => Pipeline.toksInit (Pipeline.pin (pcfgs (F := F)) adm) EP p d)))); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

section Fin

variable (m : (ℓ : Loc nD τ sig) → Buf (Elt F) ℓ) (ρ : Dev nD → PrngReg)

/-- What a final memory holds on device d. -/
def fqM (d : Dev nD) (μ : MemSt nD τ sig (Elt F)) : Prop :=
  (∀ b ∈ (UC \ R4 : Finset (DevRef τ sig)), μ.mem (d, b) = Wd m d b)
    ∧ μ.mem (flatLoc d) = flatV m ∧ μ.mem (sidLoc d) = sidV m
    ∧ μ.mem (meanLoc d) = KForm.Groute 0 (flatV m) (sidV m) ∧ μ.mem (scaleLoc d) = KForm.Groute 1 (flatV m) (sidV m)

def fq (d : Dev nD) (s' : Phys nD τ sig (Elt F)) : Prop := fqM m d s'.mem

theorem hfin (d : Dev nD) (s' : Phys nD τ sig (Elt F)) : iprop(FIN m d ∗ SI s') ⊢ (⌜fq m d s'⌝ : sProp 𝕄) := by
  unfold FIN held
  iintro ⟨⟨Hrest, Hf, Hs, Hm, Hsc⟩, HSI⟩
  ihave H := (pointsTo_read_all (UC \ R4 : Finset (DevRef τ sig)) (fun b => ((d, b) : Loc nD τ sig)) (fun b => Wd m d b) s') $$ [Hrest HSI]
  · isplitl [Hrest] <;> iassumption
  icases H with ⟨%h0, HSI⟩
  ihave H := (persistent_entails_right (SI_pointsTo_agree (st := s') (ℓ := flatLoc d) (I := Finset.univ) (q := fullShare) (f := flatV m))) $$ [HSI Hf]
  · isplitl [HSI] <;> iassumption
  icases H with ⟨%h1, HSI, -⟩
  ihave H := (persistent_entails_right (SI_pointsTo_agree (st := s') (ℓ := sidLoc d) (I := Finset.univ) (q := fullShare) (f := sidV m))) $$ [HSI Hs]
  · isplitl [HSI] <;> iassumption
  icases H with ⟨%h2, HSI, -⟩
  ihave H := (persistent_entails_right (SI_pointsTo_agree (st := s') (ℓ := meanLoc d) (I := Finset.univ) (q := fullShare) (f := KForm.Groute 0 (flatV m) (sidV m)))) $$ [HSI Hm]
  · isplitl [HSI] <;> iassumption
  icases H with ⟨%h3, HSI, -⟩
  ihave H := (SI_pointsTo_agree (st := s') (ℓ := scaleLoc d) (I := Finset.univ) (q := fullShare) (f := KForm.Groute 1 (flatV m) (sidV m))) $$ [HSI Hsc]
  · isplitl [HSI] <;> iassumption
  icases H with %h4
  ipureintro
  exact ⟨h0, funext fun i => h1 i (Finset.mem_univ i), funext fun i => h2 i (Finset.mem_univ i), funext fun i => h3 i (Finset.mem_univ i),
    funext fun i => h4 i (Finset.mem_univ i)⟩

end Fin

end Cert.KernelIdeal.SC

end
-- ==== Proof.ITileA.lean ====
/-
  The routing task's geometry: the four arrays and the four scratch buffers as the body addresses them, the chunk of each
  array a task slices, and that those slices are the chunks the launch hands out (chunk 2·i + c for subcore i of SparseCore c).
-/
import proofs.«211727_g52312701665785_cont_9to1_m_854_46_alg».proof.Proof.ICommon

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and scratch buffers as a vector subcore addresses them -/

abbrev tblW : Memref sig .scVector .hbm S262144 .f32 := Memref.whole main_v5_scv
abbrev sidW : Memref sig .scVector .hbm S16384 .i32 := Memref.whole main_arg1_scv
abbrev meanW : Memref sig .scVector .hbm S16384 .f32 := Memref.whole main_v6_0_scv
abbrev scaleW : Memref sig .scVector .hbm S16384 .f32 := Memref.whole main_v6_1_scv
/-- A task's scratch: its chunk of the table, of the source ids, the routed means, the routed scales. -/
abbrev sT : Memref sig .scVector .vmem S8192 .f32 := Memref.whole cc1_scratch0
abbrev sS : Memref sig .scVector .vmem S512 .i32 := Memref.whole cc1_scratch1
abbrev sM : Memref sig .scVector .vmem S512 .f32 := Memref.whole cc1_scratch2
abbrev sC : Memref sig .scVector .vmem S512 .f32 := Memref.whole cc1_scratch3

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The chunk of the task at grid point L. -/
theorem widL_lt (L : grid1.Coords) : 2 * (L 1).val + (L 0).val < 32 := by
  have h1 : (L 1).val < 16 := (L 1).isLt
  have h0 : (L 0).val < 2 := (L 0).isLt
  omega
abbrev widL (L : grid1.Coords) : Fin 32 := ⟨2 * (L 1).val + (L 0).val, widL_lt L⟩

abbrev rectT (L : grid1.Coords) : Rect S262144 := Rect.unit (s := S262144) (k1_off1 L) S8192.size (k1_off1_inb L)
abbrev rectK (L : grid1.Coords) : Rect S16384 := Rect.unit (s := S16384) (k1_off2 L) S512.size (k1_off2_inb L)
abbrev tblK (L : grid1.Coords) : Memref sig .scVector .hbm S8192 .f32 := (tblW : Memref sig .scVector .hbm S262144 .f32).slice (rectT L) (fun _ => rfl)
abbrev sidK (L : grid1.Coords) : Memref sig .scVector .hbm S512 .i32 := (sidW : Memref sig .scVector .hbm S16384 .i32).slice (rectK L) (fun _ => rfl)
abbrev meanK (L : grid1.Coords) : Memref sig .scVector .hbm S512 .f32 := (meanW : Memref sig .scVector .hbm S16384 .f32).slice (rectK L) (fun _ => rfl)
abbrev scaleK (L : grid1.Coords) : Memref sig .scVector .hbm S512 .f32 := (scaleW : Memref sig .scVector .hbm S16384 .f32).slice (rectK L) (fun _ => rfl)

/-- The table slice of the task is chunk 2·i + c of the flat table: its offset is 8192·(2·i + c). -/
theorem rectT_eq : rectT L = Rect.part (s := S262144) (a₀ := 0) hdivFlat (widL L) := by
  unfold rectT Rect.part Rect.block
  congr 1 <;> funext a
  · rw [k1_off1_eq]
    match a with
    | 0 => simp [Shape.partIx, Shape.partSize]; omega
  · match a with
    | 0 => simp [Shape.partSize]
/-- The per-token slices of the task are chunk 2·i + c: their offset is 512·(2·i + c). -/
theorem rectK_eq : rectK L = Rect.part (s := S16384) (a₀ := 0) hdivTok (widL L) := by
  unfold rectK Rect.part Rect.block
  congr 1 <;> funext a
  · rw [k1_off2_eq]
    match a with
    | 0 => simp [Shape.partIx, Shape.partSize]; omega
  · match a with
    | 0 => simp [Shape.partSize]

theorem set_tblK : (tblK L).view.set = flatChunk (widL L) := by
  show ((View.whole (main_v5_scv : Ref sig .scVector)).slice (rectT L)).set = _
  rw [View.set_slice_whole]; exact rectT_eq L ▸ rfl
theorem set_sidK : (sidK L).view.set = tokChunk (widL L) := by
  show ((View.whole (main_arg1_scv : Ref sig .scVector)).slice (rectK L)).set = _
  rw [View.set_slice_whole]; exact rectK_eq L ▸ rfl
theorem set_meanK : (meanK L).view.set = tokChunk (widL L) := by
  show ((View.whole (main_v6_0_scv : Ref sig .scVector)).slice (rectK L)).set = _
  rw [View.set_slice_whole]; exact rectK_eq L ▸ rfl
theorem set_scaleK : (scaleK L).view.set = tokChunk (widL L) := by
  show ((View.whole (main_v6_1_scv : Ref sig .scVector)).slice (rectK L)).set = _
  rw [View.set_slice_whole]; exact rectK_eq L ▸ rfl

/-! The arrays' chunks as the task's slices hold them are the chunks at the TensorCore's locations. -/
theorem pts_tblK (f : Buf (Elt F) (flatLoc d)) :
    ((tblK L).view.loc (V d (cV L) (jV L)) ↦[(tblK L).view.set]{fullShare} f : sProp 𝕄) = flatLoc d ↦[flatChunk (widL L)]{fullShare} f := by
  rw [set_tblK]
theorem pts_sidK (f : Buf (Elt F) (sidLoc d)) :
    ((sidK L).view.loc (V d (cV L) (jV L)) ↦[(sidK L).view.set]{fullShare} f : sProp 𝕄) = sidLoc d ↦[tokChunk (widL L)]{fullShare} f := by
  rw [set_sidK]
theorem pts_meanK (f : Buf (Elt F) (meanLoc d)) :
    ((meanK L).view.loc (V d (cV L) (jV L)) ↦[(meanK L).view.set]{fullShare} f : sProp 𝕄) = meanLoc d ↦[tokChunk (widL L)]{fullShare} f := by
  rw [set_meanK]
theorem pts_scaleK (f : Buf (Elt F) (scaleLoc d)) :
    ((scaleK L).view.loc (V d (cV L) (jV L)) ↦[(scaleK L).view.set]{fullShare} f : sProp 𝕄) = scaleLoc d ↦[tokChunk (widL L)]{fullShare} f := by
  rw [set_scaleK]

/-! A scratch buffer held whole, in the spellings the body's steps read it by. -/
theorem pts_sT (f : Buf (Elt F) ((V d (cV L) (jV L)).loc cc1_scratch0)) :
    ((sT : Memref sig .scVector .vmem S8192 .f32).view.loc (V d (cV L) (jV L)) ↦[(sT : Memref sig .scVector .vmem S8192 .f32).view.set]{fullShare} f : sProp 𝕄)
      = (V d (cV L) (jV L)).loc cc1_scratch0 ↦{fullShare} f := by
  simp only [Memref.view_whole, View.set_whole]
theorem pts_sS (f : Buf (Elt F) ((V d (cV L) (jV L)).loc cc1_scratch1)) :
    ((sS : Memref sig .scVector .vmem S512 .i32).view.loc (V d (cV L) (jV L)) ↦[(sS : Memref sig .scVector .vmem S512 .i32).view.set]{fullShare} f : sProp 𝕄)
      = (V d (cV L) (jV L)).loc cc1_scratch1 ↦{fullShare} f := by
  simp only [Memref.view_whole, View.set_whole]
theorem pts_sM (f : Buf (Elt F) ((V d (cV L) (jV L)).loc cc1_scratch2)) :
    ((sM : Memref sig .scVector .vmem S512 .f32).view.loc (V d (cV L) (jV L)) ↦[(sM : Memref sig .scVector .vmem S512 .f32).view.set]{fullShare} f : sProp 𝕄)
      = (V d (cV L) (jV L)).loc cc1_scratch2 ↦{fullShare} f := by
  simp only [Memref.view_whole, View.set_whole]
theorem pts_sC (f : Buf (Elt F) ((V d (cV L) (jV L)).loc cc1_scratch3)) :
    ((sC : Memref sig .scVector .vmem S512 .f32).view.loc (V d (cV L) (jV L)) ↦[(sC : Memref sig .scVector .vmem S512 .f32).view.set]{fullShare} f : sProp 𝕄)
      = (V d (cV L) (jV L)).loc cc1_scratch3 ↦{fullShare} f := by
  simp only [Memref.view_whole, View.set_whole]
theorem pts_sT_access (f : Buf (Elt F) ((V d (cV L) (jV L)).loc cc1_scratch0)) :
    (((sT : Memref sig .scVector .vmem S8192 .f32).access (.whole S8192)).loc (V d (cV L) (jV L)) ↦{fullShare} f : sProp 𝕄) = (V d (cV L) (jV L)).loc cc1_scratch0 ↦{fullShare} f := rfl

/-! ## The subcore's own semaphores and buffers: the kernel's four of each, and the rest -/

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)
abbrev cell3 (d : Dev nD) (c : Fin τ.nSC) (i : Fin τ.nSub) : GSem nD τ sig := (V d c i, .dma cc1_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc1_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc1_scoped3.sem : SemLoc sig).isScoped .scVector = true; decide⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

end Tile

end Cert.KernelIdeal.SC

end
-- ==== Proof.Spec.lean ====
/-
  What both programs compute, as functions of the six argument arrays, index by index, on the extended reals.

  Token n has an embedding row x[n, ·] of 2048 numbers. A head is a pair of linear functionals of that row plus a
  bias: output 0 is a mean, output 1 goes through softplus and a floor to give a scale. There is one pooled head
  (weights Wp[d, o], bias bp[o]) and eight per-source heads (weights Ws[s, d, o], bias bs[s, o]); token n uses the
  per-source head named by its source id. The embedding itself is returned unchanged.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![16384, 2048]⟩
abbrev SN : Shape := ⟨1, ![16384]⟩
abbrev SWp : Shape := ⟨2, ![2048, 2]⟩
abbrev Sb : Shape := ⟨1, ![2]⟩
abbrev SWs : Shape := ⟨3, ![8, 2048, 2]⟩
abbrev Sbs : Shape := ⟨2, ![8, 2]⟩

/-- The floor, one thousandth as the 32-bit float word both programs carry (never evaluated: the same word on both sides). -/
def floorC : EReal := Ideal.ofBits .f32 0x3A83126F#32

/-- softplus with the floor: max(v, 0) + log(1 + e^(−|v|)) + floor, where |v| = max(v, −v). -/
def sp (v : EReal) : EReal := max v 0 + Ideal.log1p (Ideal.exp (0 - max v (-v))) + floorC

/-- A source id read as a head number: the word's value reduced below 8 (a source id in range is its own value). -/
def head (s : BitVec 32) : Fin 8 := ⟨s.toNat % 8, Nat.mod_lt _ (by decide)⟩

/-- The pooled head before its bias: output o of token n is the sum over d of x[n, d] · Wp[d, o]. -/
def rawP (x : SX.Idx → EReal) (Wp : SWp.Idx → EReal) (n : Fin 16384) (o : Fin 2) : EReal :=
  ∑ d : Fin 2048, x (ix2 n d) * Wp (ix2 d o)

/-- Source head s before its bias: output o of token n is the sum over d of x[n, d] · Ws[s, d, o]. -/
def rawS (x : SX.Idx → EReal) (Ws : SWs.Idx → EReal) (n : Fin 16384) (s : Fin 8) (o : Fin 2) : EReal :=
  ∑ d : Fin 2048, x (ix2 n d) * Ws (ix3 s d o)

def pooledMeanAt (x : SX.Idx → EReal) (Wp : SWp.Idx → EReal) (bp : Sb.Idx → EReal) (n : Fin 16384) : EReal :=
  rawP x Wp n 0 + bp (ix1 0)
def pooledScaleAt (x : SX.Idx → EReal) (Wp : SWp.Idx → EReal) (bp : Sb.Idx → EReal) (n : Fin 16384) : EReal :=
  sp (rawP x Wp n 1 + bp (ix1 1))
def sourceMeanAt (x : SX.Idx → EReal) (Ws : SWs.Idx → EReal) (bs : Sbs.Idx → EReal) (n : Fin 16384) (s : Fin 8) : EReal :=
  rawS x Ws n s 0 + bs (ix2 s 0)
def sourceScaleAt (x : SX.Idx → EReal) (Ws : SWs.Idx → EReal) (bs : Sbs.Idx → EReal) (n : Fin 16384) (s : Fin 8) : EReal :=
  sp (rawS x Ws n s 1 + bs (ix2 s 1))

/-- The four computed result arrays (the fifth result, the embedding, is x itself). -/
def pooledMean (x : SX.Idx → EReal) (Wp : SWp.Idx → EReal) (bp : Sb.Idx → EReal) : SN.Idx → EReal :=
  fun j => pooledMeanAt x Wp bp (j 0)
def pooledScale (x : SX.Idx → EReal) (Wp : SWp.Idx → EReal) (bp : Sb.Idx → EReal) : SN.Idx → EReal :=
  fun j => pooledScaleAt x Wp bp (j 0)
def sourceMean (x : SX.Idx → EReal) (sid : SN.Idx → BitVec 32) (Ws : SWs.Idx → EReal) (bs : Sbs.Idx → EReal) : SN.Idx → EReal :=
  fun j => sourceMeanAt x Ws bs (j 0) (head (sid j))
def sourceScale (x : SX.Idx → EReal) (sid : SN.Idx → BitVec 32) (Ws : SWs.Idx → EReal) (bs : Sbs.Idx → EReal) : SN.Idx → EReal :=
  fun j => sourceScaleAt x Ws bs (j 0) (head (sid j))

end Cert.Spec

end
-- ==== Proof.KValD.lean ====
/-
  The routing stage's index arithmetic. In trip k of its loop a worker handles sixteen tokens, lanes l = 0 … 15: local row
  16·k + l of its chunk. With the row's source id s (at most 7) it reads the flat table at (16·k + l)·16 + 2·s for the mean
  and one further for the scale. All of this is 32-bit word arithmetic far below 2^32, so nothing wraps.
-/
import proofs.«211727_g52312701665785_cont_9to1_m_854_46_alg».proof.Proof.KForm
import proofs.«211727_g52312701665785_cont_9to1_m_854_46_alg».proof.Proof.Spec
import Idealize.ShloMosaic.Lib.Pipeline.Value
import Idealize.ShloMosaic.Lib.ValueLayout

noncomputable section

namespace Cert.KVal

open Idealize.ShloMosaic Idealize.ShloMosaic.ValueIdx Cert.KernelIdeal Cert.KernelIdeal.Gen
open scoped BigOperators

variable {F : FTy → Type} [FloatOps F] [Cert.KernelIdeal.Facts]

/-- The loop has at most 32 trips. -/
theorem trip_lt (k : Fin k1_t1_loop.trips) : k.val < 32 := by
  have h1 := k.isLt
  have h2 : k1_t1_loop.trips ≤ 32 := k1_t1_abs.2.1
  omega

/-- The word arithmetic of the first index, on one lane: nothing wraps. -/
theorem idx_word (k l : Nat) (s : BitVec 32) (hk : k < 32) (hl : l < 16) (hs : s.toNat ≤ 7) :
    (IntOp.addi (IntOp.muli (IntOp.addi (BitVec.ofNat 32 l) (Scalar.muli (Scf.iv 0#32 1#32 k) 16#32)) 16#32)
      (IntOp.muli 2#32 s)).toNat = (16 * k + l) * 16 + 2 * s.toNat := by
  simp only [IntOp.addi, IntOp.muli, Scalar.muli, Scf.iv, BitVec.toNat_add, BitVec.toNat_mul, BitVec.toNat_ofNat]
  omega

theorem idx1_val (k : Fin k1_t1_loop.trips) (v12 : Vec F S16 .i32) (l : Fin 16) (h : (v12 (ix1 l)).toNat ≤ 7) :
    (k1_pay1 (F := F) k v12 (ix1 l)).toNat = (16 * k.val + l.val) * 16 + 2 * (v12 (ix1 l)).toNat := by
  have hi : iota .scVector S16 32 [0] iota_S16_d0_w32_scVector (ix1 l) = BitVec.ofNat 32 l.val :=
    (iota_single_apply .scVector S16 32 0 iota_S16_d0_w32_scVector (ix1 l))
  show (IntOp.addi (IntOp.muli (IntOp.addi (iota .scVector S16 32 [0] iota_S16_d0_w32_scVector (ix1 l))
      (Scalar.muli (Scf.iv 0#32 1#32 k.val) 16#32)) 16#32) (IntOp.muli 2#32 (v12 (ix1 l)))).toNat = _
  rw [hi]
  exact idx_word k.val l.val (v12 (ix1 l)) (trip_lt k) l.isLt h

theorem idx2_val (k : Fin k1_t1_loop.trips) (v12 : Vec F S16 .i32) (l : Fin 16) (h : (v12 (ix1 l)).toNat ≤ 7) :
    (k1_pay2 (k1_pay1 (F := F) k v12) (ix1 l)).toNat = (16 * k.val + l.val) * 16 + 2 * (v12 (ix1 l)).toNat + 1 := by
  have h1 := idx1_val k v12 l h
  have hk := trip_lt k
  have hl := l.isLt
  show (IntOp.addi (k1_pay1 (F := F) k v12 (ix1 l)) 1#32).toNat = _
  simp only [IntOp.addi, BitVec.toNat_add, BitVec.toNat_ofNat]
  omega

end Cert.KVal

end
-- ==== Proof.ITileV.lean ====
/-
  What the routing task's scratch buffers hold, as pure statements, and one trip's arithmetic.

  The table scratch and the id scratch hold the task's chunk of the flat table and of the source ids. In trip k, lane l handles row
  r = 16·k + l of the chunk, token n = 512·w + r: with the row's source id s (at most 7) it reads the table scratch at r·16 + 2·s + o,
  which is entry 8192·w + r·16 + 2·s + o = 16·n + 2·s + o of the flat table: the routed entry of token n. After trip k the first
  16·(k+1) entries of a result scratch hold the routed entries of the chunk's first 16·(k+1) tokens.
-/
import proofs.«211727_g52312701665785_cont_9to1_m_854_46_alg».proof.Proof.ITileA
import proofs.«211727_g52312701665785_cont_9to1_m_854_46_alg».proof.Proof.KValD

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-- Rank-one indices with the same coordinate are equal. -/
theorem idx1_ext {n : Nat} {x y : (⟨1, ![n]⟩ : Shape).Idx} (h : (x 0).val = (y 0).val) : x = y := by
  funext a; match a with | ⟨0, _⟩ => exact Fin.ext h

section Tile
variable (L : grid1.Coords)

/-- The table scratch holds the task's chunk of the flat table. -/
def TblHolds (flat : FVec F S262144 .f32) (tc : S8192.Idx → Elt F .f32) : Prop := ∀ j, tc j = flat ((rectT L).emb j)
/-- The id scratch holds the task's chunk of the source ids. -/
def SidHolds (sid : IVec S16384 32) (sc : S512.Idx → BitVec 32) : Prop := ∀ j, sc j = sid ((rectK L).emb j)
/-- Entries below 16·k of a result scratch hold the routed entries (output o) of the chunk's tokens. -/
def Done (flat : FVec F S262144 .f32) (sid : IVec S16384 32) (o : Fin 2) (k : Nat) (fm : S512.Idx → Elt F .f32) : Prop :=
  ∀ j : S512.Idx, (j 0).val < 16 * k → fm j = KForm.Groute o flat sid ((rectK L).emb j)

/-- The sixteen entries trip k reads of the id scratch, and writes of the two result scratches. -/
abbrev rect3 (k : Fin k1_t1_loop.trips) : Rect S512 := Rect.unit (s := S512) (k1_off3 k) S16.size (k1_off3_inb k)
abbrev rect4 (k : Fin k1_t1_loop.trips) : Rect S512 := Rect.unit (s := S512) (k1_off4 k) S16.size (k1_off4_inb k)
abbrev rect5 (k : Fin k1_t1_loop.trips) : Rect S512 := Rect.unit (s := S512) (k1_off5 k) S16.size (k1_off5_inb k)

theorem embT_val (j : S8192.Idx) : (((rectT L).emb j) 0).val = 16384 * (L 1).val + 8192 * (L 0).val + (j 0).val := by
  simp [Rect.emb_apply, k1_off1_eq]
theorem embK_val (j : S512.Idx) : (((rectK L).emb j) 0).val = 1024 * (L 1).val + 512 * (L 0).val + (j 0).val := by
  simp [Rect.emb_apply, k1_off2_eq]
theorem emb3_val (k : Fin k1_t1_loop.trips) (x : S16.Idx) : (((rect3 k).emb x) 0).val = 16 * k.val + (x 0).val := by
  simp [Rect.emb_apply, k1_off3_eq]
theorem emb4_val (k : Fin k1_t1_loop.trips) (x : S16.Idx) : (((rect4 k).emb x) 0).val = 16 * k.val + (x 0).val := by
  simp [Rect.emb_apply, k1_off4_eq]
theorem emb5_val (k : Fin k1_t1_loop.trips) (x : S16.Idx) : (((rect5 k).emb x) 0).val = 16 * k.val + (x 0).val := by
  simp [Rect.emb_apply, k1_off5_eq]
theorem emb34 (k : Fin k1_t1_loop.trips) (x : S16.Idx) : (rect4 k).emb x = (rect3 k).emb x :=
  idx1_ext (by rw [emb3_val, emb4_val])
theorem emb35 (k : Fin k1_t1_loop.trips) (x : S16.Idx) : (rect5 k).emb x = (rect3 k).emb x :=
  idx1_ext (by rw [emb3_val, emb5_val])

variable {L}

/-- What a load of the id scratch's trip-k entries reads: the source ids of the chunk's rows 16·k … 16·k + 15. -/
theorem sid_read {sid : IVec S16384 32} {sc : S512.Idx → BitVec 32} (hsc : SidHolds L sid sc) (k : Fin k1_t1_loop.trips) (x : S16.Idx) :
    (sS : Memref sig .scVector .vmem S512 .i32).view.readAt (Elt F) (rect3 k).toLoadRect sc x = sid ((rectK L).emb ((rect3 k).emb x)) := by
  rw [View.readAt_apply]
  simp only [Memref.view_whole, View.read_whole]
  exact hsc _

/-- What the indexed load reads of the whole table scratch is what the scratch holds. -/
theorem tbl_read {flat : FVec F S262144 .f32} {tc : S8192.Idx → Elt F .f32} (htc : TblHolds L flat tc) :
    TblHolds L flat ((sT : Memref sig .scVector .vmem S8192 .f32).view.readAt (Elt F) (LoadRect.whole S8192) tc) := by
  intro j
  rw [View.readAt_apply]
  simp only [Memref.view_whole, View.read_whole]
  rw [show (LoadRect.whole S8192).idx j = j from Rect.emb_whole_apply S8192 j]
  exact htc j

/-- The gather at indices r·16 + 2·s + o (r the trip's rows, s their source ids) reads the routed entries of the trip's tokens. -/
theorem gather_val {flat : FVec F S262144 .f32} {sid : IVec S16384 32} (hsid : ∀ j, (sid j).toNat ≤ 7) (o : Fin 2)
    {tr : S8192.Idx → Elt F .f32} (htr : TblHolds L flat tr) (k : Fin k1_t1_loop.trips)
    (idx : IVec S16 32) (h : ∀ a x, ((![idx] : Fin 1 → IVec S16 32) a x).toNat < S8192.size a)
    (hidx : ∀ l : Fin 16, (idx (ix1 l)).toNat = (16 * k.val + l.val) * 16 + 2 * (sid ((rectK L).emb ((rect3 k).emb (ix1 l)))).toNat + o.val)
    (x : S16.Idx) :
    loadIdx (F := F) tr ![idx] h x = KForm.Groute o flat sid ((rectK L).emb ((rect3 k).emb x)) := by
  rw [eq_ix1 x]
  show tr (idxAt ![idx] h (ix1 (x 0))) = flat (ix1 (KForm.flatIdx _ _ o))
  rw [htr]
  congr 1
  apply idx1_ext
  rw [embT_val]
  have h1 := hidx (x 0)
  have h2 := hsid ((rectK L).emb ((rect3 k).emb (ix1 (x 0))))
  have h3 := embK_val L ((rect3 k).emb (ix1 (x 0)))
  have h4 := emb3_val k (ix1 (x 0))
  show _ + (idx (ix1 (x 0))).toNat = 16 * (((rectK L).emb ((rect3 k).emb (ix1 (x 0)))) 0).val + 2 * ((sid ((rectK L).emb ((rect3 k).emb (ix1 (x 0))))).toNat % 8) + o.val
  rw [h1, h3, h4]
  show _ = 16 * (1024 * (L 1).val + 512 * (L 0).val + (16 * k.val + (x 0).val)) + _ + _
  omega

/-- The first gather's indices are inside the table scratch: (16·k + l)·16 + 2·s ≤ 511·16 + 14. -/
theorem chk1_of (k : Fin k1_t1_loop.trips) (v12 : Vec F S16 .i32) (h : ∀ l : Fin 16, (v12 (ix1 l)).toNat ≤ 7) : k1_chk1 (k1_pay1 (F := F) k v12) := by
  intro a x
  obtain rfl : a = 0 := Subsingleton.elim _ _
  rw [eq_ix1 x]
  show (k1_pay1 (F := F) k v12 (ix1 (x 0))).toNat < 8192
  rw [Cert.KVal.idx1_val k v12 (x 0) (h _)]
  have h1 := Cert.KVal.trip_lt k
  have h2 := h (x 0)
  have h3 : (x 0).val < 16 := (x 0).isLt
  omega
/-- The second gather's, one further. -/
theorem chk2_of (k : Fin k1_t1_loop.trips) (v12 : Vec F S16 .i32) (h : ∀ l : Fin 16, (v12 (ix1 l)).toNat ≤ 7) : k1_chk2 (k1_pay2 (k1_pay1 (F := F) k v12)) := by
  intro a x
  obtain rfl : a = 0 := Subsingleton.elim _ _
  rw [eq_ix1 x]
  show (k1_pay2 (k1_pay1 (F := F) k v12) (ix1 (x 0))).toNat < 8192
  rw [Cert.KVal.idx2_val k v12 (x 0) (h _)]
  have h1 := Cert.KVal.trip_lt k
  have h2 := h (x 0)
  have h3 : (x 0).val < 16 := (x 0).isLt
  omega

/-- The ids a trip loads are at most 7. -/
theorem v12_le {sid : IVec S16384 32} (hsid : ∀ j, (sid j).toNat ≤ 7) {sc : S512.Idx → BitVec 32} (hsc : SidHolds L sid sc) (k : Fin k1_t1_loop.trips) (l : Fin 16) :
    ((sS : Memref sig .scVector .vmem S512 .i32).view.readAt (Elt F) (rect3 k).toLoadRect sc (ix1 l)).toNat ≤ 7 := by
  rw [sid_read (F := F) hsc]; exact hsid _

/-- Trip k's first gather reads the routed means of its sixteen tokens. -/
theorem trip_val0 {flat : FVec F S262144 .f32} {sid : IVec S16384 32} (hsid : ∀ j, (sid j).toNat ≤ 7)
    {tr : S8192.Idx → Elt F .f32} (htr : TblHolds L flat tr) {sc : S512.Idx → BitVec 32} (hsc : SidHolds L sid sc) (k : Fin k1_t1_loop.trips)
    (h : ∀ a x, ((![k1_pay1 (F := F) k ((sS : Memref sig .scVector .vmem S512 .i32).view.readAt (Elt F) (rect3 k).toLoadRect sc)] : Fin 1 → IVec S16 32) a x).toNat < S8192.size a)
    (x : S16.Idx) :
    loadIdx (F := F) tr ![k1_pay1 (F := F) k ((sS : Memref sig .scVector .vmem S512 .i32).view.readAt (Elt F) (rect3 k).toLoadRect sc)] h x
      = KForm.Groute 0 flat sid ((rectK L).emb ((rect4 k).emb x)) := by
  rw [emb34]
  refine gather_val hsid 0 htr k _ h (fun l => ?_) x
  rw [Cert.KVal.idx1_val k _ l (v12_le (F := F) hsid hsc k l), sid_read (F := F) hsc]; rfl
/-- Its second gather reads their routed scales. -/
theorem trip_val1 {flat : FVec F S262144 .f32} {sid : IVec S16384 32} (hsid : ∀ j, (sid j).toNat ≤ 7)
    {tr : S8192.Idx → Elt F .f32} (htr : TblHolds L flat tr) {sc : S512.Idx → BitVec 32} (hsc : SidHolds L sid sc) (k : Fin k1_t1_loop.trips)
    (h : ∀ a x, ((![k1_pay2 (k1_pay1 (F := F) k ((sS : Memref sig .scVector .vmem S512 .i32).view.readAt (Elt F) (rect3 k).toLoadRect sc))] : Fin 1 → IVec S16 32) a x).toNat < S8192.size a)
    (x : S16.Idx) :
    loadIdx (F := F) tr ![k1_pay2 (k1_pay1 (F := F) k ((sS : Memref sig .scVector .vmem S512 .i32).view.readAt (Elt F) (rect3 k).toLoadRect sc))] h x
      = KForm.Groute 1 flat sid ((rectK L).emb ((rect5 k).emb x)) := by
  rw [emb35]
  refine gather_val hsid 1 htr k _ h (fun l => ?_) x
  rw [Cert.KVal.idx2_val k _ l (v12_le (F := F) hsid hsc k l), sid_read (F := F) hsc]; rfl

/-! ## The result scratches across a trip, and at the loop's two ends -/

theorem mem4 (k : Fin k1_t1_loop.trips) (j : S512.Idx) : j ∈ (rect4 k).set ↔ 16 * k.val ≤ (j 0).val ∧ (j 0).val < 16 * k.val + 16 := by
  rw [Rect.mem_set_unit, k1_off4_eq]
  constructor
  · intro h; simpa using h 0
  · intro h a; obtain rfl : a = 0 := Subsingleton.elim _ _; simpa using h
theorem mem5 (k : Fin k1_t1_loop.trips) (j : S512.Idx) : j ∈ (rect5 k).set ↔ 16 * k.val ≤ (j 0).val ∧ (j 0).val < 16 * k.val + 16 := by
  rw [Rect.mem_set_unit, k1_off5_eq]
  constructor
  · intro h; simpa using h 0
  · intro h a; obtain rfl : a = 0 := Subsingleton.elim _ _; simpa using h

/-- A store of the trip's sixteen routed entries at rows 16·k … 16·k + 15 extends the done rows by sixteen. -/
theorem done_step {flat : FVec F S262144 .f32} {sid : IVec S16384 32} (o : Fin 2) (k : Fin k1_t1_loop.trips) (r : Rect S512)
    (hmem : ∀ j : S512.Idx, j ∈ r.set ↔ 16 * k.val ≤ (j 0).val ∧ (j 0).val < 16 * k.val + 16)
    {fm g' : S512.Idx → Elt F .f32} (hfm : Done L flat sid o k.val fm) (w : r.shape.Idx → Elt F .f32)
    (hw : ∀ x, w x = KForm.Groute o flat sid ((rectK L).emb (r.emb x)))
    (hout : ∀ j, j ∉ r.set → g' j = fm j) (hin : ∀ x, g' (r.emb x) = w x) : Done L flat sid o (k.val + 1) g' := by
  intro j hj
  by_cases hm : j ∈ r.set
  · obtain ⟨x, rfl⟩ := r.exists_idx_of_mem hm
    exact (hin x).trans (hw x)
  · rw [hout j hm]
    apply hfm
    have := (hmem j).not.mp hm
    omega

theorem done_stepM {flat : FVec F S262144 .f32} {sid : IVec S16384 32} (k : Fin k1_t1_loop.trips) {fm : S512.Idx → Elt F .f32}
    (hfm : Done L flat sid 0 k.val fm) (w : S16.Idx → Elt F .f32) (hw : ∀ x, w x = KForm.Groute 0 flat sid ((rectK L).emb ((rect4 k).emb x))) :
    Done L flat sid 0 (k.val + 1) ((sM : Memref sig .scVector .vmem S512 .f32).view.writes (Elt F) fm [⟨rect4 k, w⟩]) :=
  done_step 0 k (rect4 k) (mem4 k) hfm w hw
    (fun j hj => View.read_writes_apply_of_forall_not_mem (sM : Memref sig .scVector .vmem S512 .f32).view fm j [⟨rect4 k, w⟩] (by simpa using hj))
    (fun x => View.read_writes_cons_emb (sM : Memref sig .scVector .vmem S512 .f32).view fm (rect4 k) w [] x)
theorem done_stepC {flat : FVec F S262144 .f32} {sid : IVec S16384 32} (k : Fin k1_t1_loop.trips) {fc : S512.Idx → Elt F .f32}
    (hfc : Done L flat sid 1 k.val fc) (w : S16.Idx → Elt F .f32) (hw : ∀ x, w x = KForm.Groute 1 flat sid ((rectK L).emb ((rect5 k).emb x))) :
    Done L flat sid 1 (k.val + 1) ((sC : Memref sig .scVector .vmem S512 .f32).view.writes (Elt F) fc [⟨rect5 k, w⟩]) :=
  done_step 1 k (rect5 k) (mem5 k) hfc w hw
    (fun j hj => View.read_writes_apply_of_forall_not_mem (sC : Memref sig .scVector .vmem S512 .f32).view fc j [⟨rect5 k, w⟩] (by simpa using hj))
    (fun x => View.read_writes_cons_emb (sC : Memref sig .scVector .vmem S512 .f32).view fc (rect5 k) w [] x)

/-- Before the first trip nothing is asked of the result scratches. -/
theorem done_zero {flat : FVec F S262144 .f32} {sid : IVec S16384 32} (o : Fin 2) (fm : S512.Idx → Elt F .f32) : Done L flat sid o 0 fm :=
  fun j hj => absurd hj (by omega)
theorem trips_eq : k1_t1_loop.trips = 32 := by decide
/-- After the last trip a result scratch holds the routed entries of the whole chunk. -/
theorem done_all {flat : FVec F S262144 .f32} {sid : IVec S16384 32} {o : Fin 2} {fm : S512.Idx → Elt F .f32} (h : Done L flat sid o k1_t1_loop.trips fm)
    (j : S512.Idx) : fm j = KForm.Groute o flat sid ((rectK L).emb j) := by
  apply h
  rw [trips_eq]
  have : (j 0).val < 512 := (j 0).isLt
  omega

end Tile
end Cert.KernelIdeal.SC
end
-- ==== Proof.ITileR.lean ====
/-
  The routing task's loop: its invariant and one trip.

  Before trip k the table scratch and the id scratch hold the task's chunk of the flat table and of the source ids, and the first 16·k
  entries of the two result scratches hold the routed means and scales of the chunk's first 16·k tokens. A trip loads sixteen source
  ids, gathers the table scratch at rows·16 + 2·id and one further, and stores the two gathered vectors at entries 16·k … 16·k + 15 of
  the result scratches: the indexed loads are loads of the whole table scratch, and what they read is the routed entries by the trip's
  arithmetic.
-/
import proofs.«211727_g52312701665785_cont_9to1_m_854_46_alg».proof.Proof.ITileV

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

/-- The loop's invariant before trip k. -/
def inv (flat : FVec F S262144 .f32) (sid : IVec S16384 32) (k : Nat) (_ : PUnit) : sProp 𝕄 :=
  iprop((∃ tc, ⌜TblHolds L flat tc⌝ ∗ (sT : Memref sig .scVector .vmem S8192 .f32).view.loc (V d (cV L) (jV L)) ↦[(sT : Memref sig .scVector .vmem S8192 .f32).view.set]{fullShare} tc)
    ∗ (∃ sc, ⌜SidHolds L sid sc⌝ ∗ (sS : Memref sig .scVector .vmem S512 .i32).view.loc (V d (cV L) (jV L)) ↦[(sS : Memref sig .scVector .vmem S512 .i32).view.set]{fullShare} sc)
    ∗ (∃ fm, ⌜Done L flat sid 0 k fm⌝ ∗ (sM : Memref sig .scVector .vmem S512 .f32).view.loc (V d (cV L) (jV L)) ↦[(sM : Memref sig .scVector .vmem S512 .f32).view.set]{fullShare} fm)
    ∗ (∃ fc, ⌜Done L flat sid 1 k fc⌝ ∗ (sC : Memref sig .scVector .vmem S512 .f32).view.loc (V d (cV L) (jV L)) ↦[(sC : Memref sig .scVector .vmem S512 .f32).view.set]{fullShare} fc))

/-- One trip, from the invariant at k to the invariant at k + 1. -/
theorem tile_region (flat : FVec F S262144 .f32) (sid : IVec S16384 32) (hsid : ∀ j, (sid j).toNat ≤ 7) (k : Fin k1_t1_loop.trips) (u : PUnit) :
    inv (F := F) d L flat sid k.val u ⊢ wp frame (wpE (defs₀ (F := F)) 𝒱₀ (V d (cV L) (jV L)) none) Set.univ
      (k1_t1_body L tblW (Memref.isWhole_whole _) sidW (Memref.isWhole_whole _) meanW (Memref.isWhole_whole _) scaleW (Memref.isWhole_whole _)
            sT (Memref.isWhole_whole _) sS (Memref.isWhole_whole _) sM (Memref.isWhole_whole _) sC (Memref.isWhole_whole _) cc1_scoped0 cc1_scoped1 cc1_scoped2 cc1_scoped3 k u)
      (inv (F := F) d L flat sid (k.val + 1)) := by
  unfold k1_t1_body inv
  iintro ⟨⟨%tc, %htc, HT⟩, ⟨%sc, %hsc, HS⟩, ⟨%fm, %hfm, HM⟩, ⟨%fc, %hfc, HC⟩⟩
  -- the ids loaded; the first gather's indices in range; the gather is a load of the whole table scratch
  sl_exec (disch := exact chk1_of k _ (v12_le (F := F) hsid hsc k))
  rw [SparseCore.vectorLoadIdx_bind (d, Proc.scVector (cV L) (jV L))]
  -- the means stored; the second gather's indices in range; the second gather
  sl_exec (disch := exact chk2_of k _ (v12_le (F := F) hsid hsc k))
  rw [SparseCore.vectorLoadIdx_bind (d, Proc.scVector (cV L) (jV L))]
  sl_exec
  sl_step
  isplitl [HT]
  · iexists _; isplitr; swap
    · iexact HT
    · ipureintro; exact htc
  isplitl [HS]
  · iexists _; isplitr; swap
    · iexact HS
    · ipureintro; exact hsc
  isplitl [HM]
  · iexists _; isplitr; swap
    · iexact HM
    · ipureintro; exact done_stepM k hfm _ (trip_val0 hsid (tbl_read htc) hsc k _)
  · iexists _; isplitr; swap
    · iexact HC
    · ipureintro; exact done_stepC k hfc _ (trip_val1 hsid (tbl_read htc) hsc k _)

end Tile
end Cert.KernelIdeal.SC
end
-- ==== Proof.ITileW.lean ====
/-
  The routing task's copies: what the two copies in leave in the table scratch and the id scratch, and what the two copies out leave
  on the task's chunk of the result arrays.
-/
import proofs.«211727_g52312701665785_cont_9to1_m_854_46_alg».proof.Proof.ITileV

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (L : grid1.Coords)

/-- A copy of the chunk into the whole table scratch leaves it holding the chunk. -/
theorem tbl_init (flat : FVec F S262144 .f32) (g : S8192.Idx → Elt F .f32) (w : S8192.Idx → Elt F .f32)
    (hw : ∀ j, w j = flat ((rectT L).emb j)) :
    TblHolds L flat ((sT : Memref sig .scVector .vmem S8192 .f32).view.writes (Elt F) g [⟨Rect.whole S8192, w⟩]) := by
  intro j
  have h := View.read_writes_cons_emb (Val := Elt F) (sT : Memref sig .scVector .vmem S8192 .f32).view g (Rect.whole S8192) w [] j
  have e : (Rect.whole S8192).emb j = j := Rect.emb_whole_apply S8192 j
  have hr : ∀ g' : S8192.Idx → Elt F .f32, (sT : Memref sig .scVector .vmem S8192 .f32).view.read (Elt F) g' = g' := fun _ => rfl
  rw [e, hr] at h
  exact h.trans (hw j)
/-- The same for the id chunk and the id scratch. -/
theorem sid_init (sid : IVec S16384 32) (g : S512.Idx → BitVec 32) (w : S512.Idx → BitVec 32)
    (hw : ∀ j, w j = sid ((rectK L).emb j)) :
    SidHolds L sid ((sS : Memref sig .scVector .vmem S512 .i32).view.writes (Elt F) g [⟨Rect.whole S512, w⟩]) := by
  intro j
  have h := View.read_writes_cons_emb (Val := Elt F) (sS : Memref sig .scVector .vmem S512 .i32).view g (Rect.whole S512) w [] j
  have e : (Rect.whole S512).emb j = j := Rect.emb_whole_apply S512 j
  have hr : ∀ g' : S512.Idx → BitVec 32, (sS : Memref sig .scVector .vmem S512 .i32).view.read (Elt F) g' = g' := fun _ => rfl
  rw [e, hr] at h
  exact h.trans (hw j)

/-- What the task's table slice reads of the flat table, and its id slice of the source ids. -/
theorem tblK_read (flat : FVec F S262144 .f32) (j : S8192.Idx) : (tblK L).view.read (Elt F) flat j = flat ((rectT L).emb j) :=
  (View.read_apply _ _).trans (cast_eq _ _)
theorem sidK_read (sid : IVec S16384 32) (j : S512.Idx) : (sidK L).view.read (Elt F) sid j = sid ((rectK L).emb j) :=
  (View.read_apply _ _).trans (cast_eq _ _)

/-- The copies in, at the payloads the transfers carry: what the slices read. -/
theorem tbl_init' (flat : FVec F S262144 .f32) (g : S8192.Idx → Elt F .f32) :
    TblHolds L flat ((sT : Memref sig .scVector .vmem S8192 .f32).view.writes (Elt F) g
      [⟨Rect.whole S8192, ReadAs.same.apply ((tblK L).view.read (Elt F) flat)⟩]) :=
  tbl_init L flat g _ (tblK_read L flat)
theorem sid_init' (sid : IVec S16384 32) (g : S512.Idx → BitVec 32) :
    SidHolds L sid ((sS : Memref sig .scVector .vmem S512 .i32).view.writes (Elt F) g
      [⟨Rect.whole S512, ReadAs.same.apply ((sidK L).view.read (Elt F) sid)⟩]) :=
  sid_init (F := F) L sid g _ (sidK_read (F := F) L sid)

variable {L}

/-- A copy of a result scratch holding the chunk's routed entries onto the task's slice of the result array leaves that slice at the
    routed entries of every token of the chunk: on the slice, the array agrees with the whole-array function. -/
theorem out_valM {flat : FVec F S262144 .f32} {sid : IVec S16384 32} (f0 : FVec F S16384 .f32) (w : S512.Idx → Elt F .f32)
    (hw : ∀ x, w x = KForm.Groute 0 flat sid ((rectK L).emb x)) :
    ∀ i ∈ (meanK L).view.set, (meanK L).view.writes (Elt F) f0 [⟨Rect.whole S512, w⟩] i = KForm.Groute 0 flat sid i := by
  intro i hi
  obtain ⟨x, -, rfl⟩ := Finset.mem_map.mp hi
  have h := View.read_writes_cons_emb (Val := Elt F) (meanK L).view f0 (Rect.whole S512) w [] x
  have e : (Rect.whole S512).emb x = x := Rect.emb_whole_apply S512 x
  rw [e, View.read_apply] at h
  exact (cast_eq _ _).symm.trans (h.trans (hw x))
theorem out_valC {flat : FVec F S262144 .f32} {sid : IVec S16384 32} (f1 : FVec F S16384 .f32) (w : S512.Idx → Elt F .f32)
    (hw : ∀ x, w x = KForm.Groute 1 flat sid ((rectK L).emb x)) :
    ∀ i ∈ (scaleK L).view.set, (scaleK L).view.writes (Elt F) f1 [⟨Rect.whole S512, w⟩] i = KForm.Groute 1 flat sid i := by
  intro i hi
  obtain ⟨x, -, rfl⟩ := Finset.mem_map.mp hi
  have h := View.read_writes_cons_emb (Val := Elt F) (scaleK L).view f1 (Rect.whole S512) w [] x
  have e : (Rect.whole S512).emb x = x := Rect.emb_whole_apply S512 x
  rw [e, View.read_apply] at h
  exact (cast_eq _ _).symm.trans (h.trans (hw x))

/-- The copies out, at the payloads the transfers carry: what the whole result scratches read after the last trip. -/
theorem out_valM' {flat : FVec F S262144 .f32} {sid : IVec S16384 32} (f0 : FVec F S16384 .f32) {fm : S512.Idx → Elt F .f32}
    (hfm : Done L flat sid 0 k1_t1_loop.trips fm) :
    ∀ i ∈ (meanK L).view.set, (meanK L).view.writes (Elt F) f0
      [⟨Rect.whole S512, ReadAs.same.apply ((sM : Memref sig .scVector .vmem S512 .f32).view.read (Elt F) fm)⟩] i = KForm.Groute 0 flat sid i :=
  out_valM f0 _ (fun x => done_all hfm x)
theorem out_valC' {flat : FVec F S262144 .f32} {sid : IVec S16384 32} (f1 : FVec F S16384 .f32) {fc : S512.Idx → Elt F .f32}
    (hfc : Done L flat sid 1 k1_t1_loop.trips fc) :
    ∀ i ∈ (scaleK L).view.set, (scaleK L).view.writes (Elt F) f1
      [⟨Rect.whole S512, ReadAs.same.apply ((sC : Memref sig .scVector .vmem S512 .f32).view.read (Elt F) fc)⟩] i = KForm.Groute 1 flat sid i :=
  out_valC f1 _ (fun x => done_all hfc x)

end Tile
end Cert.KernelIdeal.SC
end
-- ==== Proof.ITile.lean ====
/-
  The routing task's body obligation.

  The task on subcore i of SparseCore c works on chunk w = 2·i + c. It copies its chunk of the flat table (8192 entries) and of the
  source ids (512) into two scratch buffers, runs the loop (32 trips of sixteen tokens: the loop's invariant carries the values), and
  copies the two result scratches onto its chunk of the two result arrays. On the chunk the result arrays then agree with the
  whole-array functions that read, for token n with source id s, entries 16·n + 2·s and 16·n + 2·s + 1 of the flat table.
-/
import proofs.«211727_g52312701665785_cont_9to1_m_854_46_alg».proof.Proof.ITileR
import proofs.«211727_g52312701665785_cont_9to1_m_854_46_alg».proof.Proof.ITileW

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

/-- The task on vector subcore (L 0, L 1) of device d. -/
theorem tile_body (hF : (K (F := F)).Facts) (flat : FVec F S262144 .f32) (sid : IVec S16384 32) (f0 f1 : FVec F S16384 .f32) (hsid : ∀ j, (sid j).toNat ≤ 7)
    (O : CellTallies nD τ sig (HIx 1)) (W : Waits sig (HIx 1)) (hO : ∀ g, O g none = 0) :
    iprop(levAts (K (F := F)).L (K (F := F)).lev ∗ emp ∗ goRes flat sid f0 f1 d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__route_body L tblW (Memref.isWhole_whole _) sidW (Memref.isWhole_whole _) meanW (Memref.isWhole_whole _) scaleW (Memref.isWhole_whole _)
            sT (Memref.isWhole_whole _) sS (Memref.isWhole_whole _) sM (Memref.isWhole_whole _) sC (Memref.isWhole_whole _) cc1_scoped0 cc1_scoped1 cc1_scoped2 cc1_scoped3)
          fun _ => iprop(tdRes flat sid d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__route_body_eq_skeleton]; unfold cc1__route_body_skel
  rw [(K (F := F)).scopedBufs_V hF d (cV L) (jV L), SparseCore.Cfg.scopedSems0_V (Val := Elt F) d (cV L) (jV L), ownSems0_V, ownBufs_V]
  unfold goRes
  iintro ⟨#Hlv, -, ⟨Hfl, Hsi, Hme, Hsc⟩, ⟨⟨%fT, HT⟩, ⟨%fS, HS⟩, ⟨%fM, HM⟩, ⟨%fC, HC⟩, Hbufs⟩, ⟨Hs0, Hs1, Hs2, Hs3, Hsems⟩, HO⟩
  ihave Hmw := ((K (F := F)).mayWaits_none (thr := V d (cV L) (jV L)) hO) $$ Hlv
  -- the arrays' chunks and the scratch buffers, as the task's memrefs address them
  ihave Hfl' := (Entails.of_eq (pts_tblK (F := F) d L _).symm) $$ Hfl
  ihave Hsi' := (Entails.of_eq (pts_sidK (F := F) d L _).symm) $$ Hsi
  ihave Hme' := (Entails.of_eq (pts_meanK (F := F) d L _).symm) $$ Hme
  ihave Hsc' := (Entails.of_eq (pts_scaleK (F := F) d L _).symm) $$ Hsc
  ihave HT' := (Entails.of_eq (pts_sT (F := F) d L _).symm) $$ HT
  ihave HS' := (Entails.of_eq (pts_sS (F := F) d L _).symm) $$ HS
  ihave HM' := (Entails.of_eq (pts_sM (F := F) d L _).symm) $$ HM
  ihave HC' := (Entails.of_eq (pts_sC (F := F) d L _).symm) $$ HC
  -- the two copies in, each waited for
  sl_exec
  sl_for (inv (F := F) d L flat sid) $$ [HT' HS' HM' HC']
  case region => intro k u; exact tile_region d L flat sid hsid k u
  · unfold inv
    isplitl [HT']
    · iexists _; isplitr; swap
      · iexact HT'
      · ipureintro; exact tbl_init' L flat _
    isplitl [HS']
    · iexists _; isplitr; swap
      · iexact HS'
      · ipureintro; exact sid_init' (F := F) L sid _
    isplitl [HM']
    · iexists _; isplitr; swap
      · iexact HM'
      · ipureintro; exact done_zero 0 _
    · iexists _; isplitr; swap
      · iexact HC'
      · ipureintro; exact done_zero 1 _
  iintro %u HI
  unfold inv
  icases HI with ⟨⟨%tc, %htc, HT⟩, ⟨%sc, %hsc, HS⟩, ⟨%fm, %hfm, HM⟩, ⟨%fc, %hfc, HC⟩⟩
  -- the two copies out, each waited for
  sl_exec
  sl_step
  -- on the chunk the result arrays agree with the whole-array functions
  unfold tdRes
  isplitl [Hfl' Hsi' Hme' Hsc']
  · isplitl [Hfl']; · iapply (Entails.of_eq (pts_tblK (F := F) d L _)); iexact Hfl'
    isplitl [Hsi']; · iapply (Entails.of_eq (pts_sidK (F := F) d L _)); iexact Hsi'
    isplitl [Hme']
    · iapply (Entails.of_eq ((pointsTo_congr (out_valM' (L := L) f0 hfm)).trans (pts_meanK (F := F) d L _))); iexact Hme'
    · iapply (Entails.of_eq ((pointsTo_congr (out_valC' (L := L) f1 hfc)).trans (pts_scaleK (F := F) d L _))); iexact Hsc'
  isplitl [HT HS HM HC Hbufs]
  · isplitl [HT]; · iexists _; iapply (Entails.of_eq (pts_sT (F := F) d L _)); iexact HT
    isplitl [HS]; · iexists _; iapply (Entails.of_eq (pts_sS (F := F) d L _)); iexact HS
    isplitl [HM]; · iexists _; iapply (Entails.of_eq (pts_sM (F := F) d L _)); iexact HM
    isplitl [HC]; · iexists _; iapply (Entails.of_eq (pts_sC (F := F) d L _)); iexact HC
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr; swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__route_body (coordsV c s)
          tblW (Memref.isWhole_whole _) sidW (Memref.isWhole_whole _) meanW (Memref.isWhole_whole _) scaleW (Memref.isWhole_whole _)
          sT (Memref.isWhole_whole _) sS (Memref.isWhole_whole _) sM (Memref.isWhole_whole _) sC (Memref.isWhole_whole _)
          cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The routing call's task obligation: from its chunk of the four arrays to the same with the two result chunks at the routed entries. -/
theorem tileObl (flat : FVec F S262144 .f32) (sid : IVec S16384 32) (f0 f1 : FVec F S16384 .f32) (hsid : ∀ j, (sid j).toNat ≤ 7) :
    (K (F := F)).TileObl (D (F := F)) 𝒱 (P flat sid f0 f1) v₀ 0 := by
  intro d c i O W hO _ _
  -- this kernel owes nothing for a protocol of its own
  simp only [show (P flat sid f0 f1).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) facts flat sid f0 f1 hsid O W hO).trans (wp_mono frame _ _ fun _ => obl_post)

end Cert.KernelIdeal.SC

end
-- ==== Proof.ILaunch.lean ====
/-
  The program's run: every weakly fair execution of the device's 35 threads terminates, nothing faulting, in a memory that
  holds every unscoped buffer the routing call does not touch at the last boundary's contents, the call's inputs as they
  were and its results at the routed table entries — the launch theorem at the routing task's obligation, the operand
  split, the TensorCore's program, the launch element and the reading of the final memory.
-/
import proofs.«211727_g52312701665785_cont_9to1_m_854_46_alg».proof.Proof.ILaunchA
import proofs.«211727_g52312701665785_cont_9to1_m_854_46_alg».proof.Proof.ITile
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

section Run

variable (m : (ℓ : Loc nD τ sig) → Buf (Elt F) ℓ) (ρ : Dev nD → PrngReg)

def QC : PUnit × MemSt nD τ sig (Elt F) → Prop := fun r => ∀ d : Dev nD, fqM m d r.2

theorem run_main [∀ e, Nonempty (Elt F e)] (hsid : ∀ j, ((sidV m) j).toNat ≤ 7) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P0 m) facts v₀
    (fun q hq => match q with | 0 => nomatch hq)
    (fun q _ => match q with | 0 => tileObl (flatV m) (sidV m) (f0V m) (f1V m) hsid)
    (fun q _ => match q with | 0 => SparseCore.Cfg.VecSplit.of_plain (vecSplit (flatV m) (sidV m) (f0V m) (f1V m)))
    m ρ main (Gd (F := F)) (FIN m) (u₀ (F := F)) (sep_elim_left.trans (hu₀ (flatV m) (sidV m) (f0V m) (f1V m))) (hmain m ρ) (fq m) (hfin m) (QC m) (fun _ h => h)

end Run

end Cert.KernelIdeal.SC

end
-- ==== Proof.BKForm.lean ====
/-
  The kernel's result arrays as whole-array functions of its operands, built from the body's own arithmetic.

  The dense stage works on blocks of 1024 tokens: token n lies in block n / 1024 at row n % 1024. From a block of the
  embedding, the widened weight matrix w (2048 × 18: sixteen per-source columns, column 2s + o for source s output o, then
  the two pooled columns) and the two bias vectors it produces the block of the pooled mean, of the pooled scale and of the
  16-column table (even columns the per-source means, odd columns the per-source scales). The routing stage then reads,
  for token n with source id s, entries 16·n + 2·s and 16·n + 2·s + 1 of the table laid out flat.
-/
import proofs.«211727_g52312701665785_cont_9to1_m_854_46_alg».proof.Proof.Gen.Kernel.Skeleton
import Idealize.ShloMosaic.Lib.ValueIdx

noncomputable section

namespace Cert.Kernel.KForm

open Idealize.ShloMosaic Idealize.ShloMosaic.ValueIdx Cert.Kernel Cert.Kernel.Gen

variable {F : FTy → Type} [FloatOps F] [Cert.Kernel.Facts]

/-- Token number of row r of block t. -/
def rowOf (t : Fin 16) (r : Fin 1024) : Fin 16384 := ⟨1024 * t.val + r.val, by omega⟩
/-- The block a token lies in, and its row there. -/
def blockOf (n : Fin 16384) : Fin 16 := ⟨n.val / 1024, by omega⟩
def inBlock (n : Fin 16384) : Fin 1024 := ⟨n.val % 1024, Nat.mod_lt _ (by decide)⟩

/-- Block t of the embedding: rows 1024·t … 1024·t + 1023, all 2048 columns. -/
def xBlock {α : Type} (x : S16384x2048.Idx → α) (t : Fin 16) : S1024x2048.Idx → α :=
  fun y => x (ix2 (rowOf t (y 0)) (y 1))

/-- The pooled mean of every token: the body's value for the token's block, at the token's row. -/
def Gpm (x : FVec F S16384x2048 .f32) (w : FVec F S2048x18 .f32) (b2 : FVec F S2 .f32) : FVec F S16384 .f32 :=
  fun j => k0_pay3 (k0_pay5 (xBlock x (blockOf (j 0))) w) b2 (ix1 (inBlock (j 0)))

/-- The pooled scale of every token. -/
def Gps (x : FVec F S16384x2048 .f32) (w : FVec F S2048x18 .f32) (b2 : FVec F S2 .f32) : FVec F S16384 .f32 :=
  fun j => k0_pay4 (k0_pay5 (xBlock x (blockOf (j 0))) w) b2 (ix1 (inBlock (j 0)))

/-- The 16-column table of every token: per-source means in the even columns, per-source scales in the odd ones. -/
def Gtbl (x : FVec F S16384x2048 .f32) (w : FVec F S2048x18 .f32) (b16 : FVec F S16 .f32) : FVec F S16384x16 .f32 :=
  fun j => k0_pay1 (k0_pay6 (xBlock x (blockOf (j 0))) w b16) k0_pay7 (k0_pay8 (xBlock x (blockOf (j 0))) w b16) (ix2 (inBlock (j 0)) (j 1))

/-- Where the routing stage reads the flat table for token n with source-id word s: 16·n + 2·(s mod 8) + o. -/
def flatIdx (n : Fin 16384) (s : BitVec 32) (o : Fin 2) : Fin 262144 :=
  ⟨16 * n.val + 2 * (s.toNat % 8) + o.val, by have := Nat.mod_lt s.toNat (show 0 < 8 by decide); omega⟩

/-- The routed per-source mean (o = 0) or scale (o = 1) of every token, from the flat table and the source ids. -/
def Groute (o : Fin 2) (flat : FVec F S262144 .f32) (sid : IVec S16384 32) : FVec F S16384 .f32 :=
  fun j => flat (ix1 (flatIdx (j 0) (sid j) o))

end Cert.Kernel.KForm

end
-- ==== Proof.BCommon.lean ====
/-
  The setting of the launch: the program as the SparseCore launch theorem sees it, the ghost state (the launch's
  handshakes, the dense stage's staging cells, the transfers' counters), and what the one routing call hands each
  vector subcore and gets back.

  The routing stage splits the 16384 tokens into 32 chunks of 512; subcore i of SparseCore c works on chunk 2·i + c.
  It is handed chunk 2·i + c of the flat table (8192 entries), of the source ids and of the two result arrays, and hands
  them back with the two result chunks holding, at every token of the chunk, the table entry its source id names.
-/
import proofs.«211727_g52312701665785_cont_9to1_m_854_46_alg».proof.Defs
import proofs.«211727_g52312701665785_cont_9to1_m_854_46_alg».proof.Proof.BKForm
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«211727_g52312701665785_cont_9to1_m_854_46_alg».proof.Proof.Gen.Kernel
import proofs.«211727_g52312701665785_cont_9to1_m_854_46_alg».proof.Proof.Gen.Kernel.Skeleton
import proofs.«211727_g52312701665785_cont_9to1_m_854_46_alg».proof.Proof.Gen.Kernel.Launch
import proofs.«211727_g52312701665785_cont_9to1_m_854_46_alg».proof.Proof.Gen.Kernel.Points

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the dense stage's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays of the routing call -/

abbrev flatLoc (d : Dev nD) : Loc nD τ sig := (SparseCore.T d).loc main_v5
abbrev sidLoc (d : Dev nD) : Loc nD τ sig := (SparseCore.T d).loc main_arg1
abbrev meanLoc (d : Dev nD) : Loc nD τ sig := (SparseCore.T d).loc main_v6_0
abbrev scaleLoc (d : Dev nD) : Loc nD τ sig := (SparseCore.T d).loc main_v6_1

theorem hdivFlat : 32 ∣ S262144.size 0 := ⟨8192, rfl⟩
theorem hdivTok : 32 ∣ S16384.size 0 := ⟨512, rfl⟩
/-- Chunk w of the flat table (entries 8192·w … 8192·w + 8191) and of a per-token array (tokens 512·w … 512·w + 511). -/
abbrev flatChunk (w : Fin 32) : Finset S262144.Idx := (Rect.part (s := S262144) (a₀ := 0) hdivFlat w).set
abbrev tokChunk (w : Fin 32) : Finset S16384.Idx := (Rect.part (s := S16384) (a₀ := 0) hdivTok w).set
/-- The chunk of subcore i of SparseCore c. -/
def widOf (c : Fin 2) (i : Fin 16) : Fin 32 := ⟨2 * i.val + c.val, by omega⟩

variable [FloatOps F]

/-- What a task is handed: its chunk of the flat table at `flat`, of the source ids at `sid`, of the two result arrays at
    whatever they hold. -/
def goRes (flat : FVec F S262144 .f32) (sid : IVec S16384 32) (f0 f1 : FVec F S16384 .f32) (d : Dev nD) (w : Fin 32) : sProp 𝕄 :=
  iprop((flatLoc d ↦[flatChunk w]{fullShare} flat) ∗ (sidLoc d ↦[tokChunk w]{fullShare} sid)
    ∗ (meanLoc d ↦[tokChunk w]{fullShare} f0) ∗ (scaleLoc d ↦[tokChunk w]{fullShare} f1))
/-- What it hands back: the same, the result chunks at the routed entries. -/
def tdRes (flat : FVec F S262144 .f32) (sid : IVec S16384 32) (d : Dev nD) (w : Fin 32) : sProp 𝕄 :=
  iprop((flatLoc d ↦[flatChunk w]{fullShare} flat) ∗ (sidLoc d ↦[tokChunk w]{fullShare} sid)
    ∗ (meanLoc d ↦[tokChunk w]{fullShare} KForm.Groute 0 flat sid) ∗ (scaleLoc d ↦[tokChunk w]{fullShare} KForm.Groute 1 flat sid))

/-- The one call's payloads: a SparseCore is handed its sixteen tasks' shares together and hands them back together. -/
def P (flat : FVec F S262144 .f32) (sid : IVec S16384 32) (f0 f1 : FVec F S16384 .f32) : (K (F := F)).Pay (nD := nD) (Val := Elt F) (Name := ℕ) (U := UU) where
  st := fun q d c => match q with | 0 => bigSep Finset.univ fun i : Fin 16 => goRes flat sid f0 f1 d (widOf (Fin.cast nCore_zero c) i)
  dn := fun q d c => match q with | 0 => bigSep Finset.univ fun i : Fin 16 => tdRes flat sid d (widOf (Fin.cast nCore_zero c) i)
  go := fun q d c i => match q with | 0 => goRes flat sid f0 f1 d (widOf (Fin.cast nCore_zero c) (Fin.cast nSub_zero i))
  td := fun q d c i => match q with | 0 => tdRes flat sid d (widOf (Fin.cast nCore_zero c) (Fin.cast nSub_zero i))
  x := fun _ _ => iprop(emp)

instance P_storable (flat : FVec F S262144 .f32) (sid : IVec S16384 32) (f0 f1 : FVec F S16384 .f32) : (P flat sid f0 f1).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

end Cert.Kernel.SC

end
-- ==== Proof.BHeads.lean ====
/-
  The dense stage (the pooled and per-source heads on blocks of 1024 tokens) as a pipeline region: what its body leaves
  in each output buffer as a function of the input blocks, the body's run, and the region's proof data — each input
  buffer at its block at every grid point, each output buffer at the body's function of the input blocks.
-/
import proofs.«211727_g52312701665785_cont_9to1_m_854_46_alg».proof.Proof.BCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-! ## The body's accesses: every load and store of the dense stage is of a whole staging buffer -/

abbrev rX : Rect S1024x2048 := Rect.unit (s := S1024x2048) ![0, 0] S1024x2048.size inb_S1024x2048_S1024x2048_0_0
abbrev rW : Rect S2048x18 := Rect.unit (s := S2048x18) ![0, 0] S2048x18.size inb_S2048x18_S2048x18_0_0
abbrev rB16 : Rect S16 := Rect.unit (s := S16) ![0] S16.size inb_S16_S16_0
abbrev rB2 : Rect S2 := Rect.unit (s := S2) ![0] S2.size inb_S2_S2_0
abbrev rN : Rect S1024 := Rect.unit (s := S1024) ![0] S1024.size inb_S1024_S1024_0
abbrev rT : Rect S1024x16 := Rect.unit (s := S1024x16) ![0, 0] S1024x16.size inb_S1024x16_S1024x16_0_0

/-! ## What the body leaves in each output buffer, from the input blocks -/

/-- The embedding block is copied. -/
def out4 (x0 : Vec F S1024x2048 .f32) : Vec F S1024x2048 .f32 :=
  View.canon [⟨rX, View.ld x0 rX⟩]
/-- The pooled mean of the block's 1024 tokens. -/
def out5 (x0 : Vec F S1024x2048 .f32) (x1 : Vec F S2048x18 .f32) (x3 : Vec F S2 .f32) : Vec F S1024 .f32 :=
  View.canon [⟨rN, k0_pay3 (k0_pay5 (View.ld x0 rX) (View.ld x1 rW)) (View.ld x3 rB2)⟩]
/-- The pooled scale of the block's tokens. -/
def out6 (x0 : Vec F S1024x2048 .f32) (x1 : Vec F S2048x18 .f32) (x3 : Vec F S2 .f32) : Vec F S1024 .f32 :=
  View.canon [⟨rN, k0_pay4 (k0_pay5 (View.ld x0 rX) (View.ld x1 rW)) (View.ld x3 rB2)⟩]
/-- The 16-column table of the block's tokens. -/
def out7 (x0 : Vec F S1024x2048 .f32) (x1 : Vec F S2048x18 .f32) (x2 : Vec F S16 .f32) : Vec F S1024x16 .f32 :=
  View.canon [⟨rT, k0_pay1 (k0_pay6 (View.ld x0 rX) (View.ld x1 rW) (View.ld x2 rB16)) k0_pay7 (k0_pay8 (View.ld x0 rX) (View.ld x1 rW) (View.ld x2 rB16))⟩]

theorem cover4 (p0 : Vec F S1024x2048 .f32) (y : S1024x2048.Idx) :
    ∃ pc ∈ ([⟨rX, p0⟩] : List (View.Piece (Elt F) S1024x2048 .f32)), y ∈ pc.1.set :=
  View.cover_of_tiled [⟨rX, p0⟩] S1024x2048.size (by rfl) y
theorem coverN (p0 : Vec F S1024 .f32) (y : S1024.Idx) :
    ∃ pc ∈ ([⟨rN, p0⟩] : List (View.Piece (Elt F) S1024 .f32)), y ∈ pc.1.set :=
  View.cover_of_tiled [⟨rN, p0⟩] S1024.size (by rfl) y
theorem coverT (p0 : Vec F S1024x16 .f32) (y : S1024x16.Idx) :
    ∃ pc ∈ ([⟨rT, p0⟩] : List (View.Piece (Elt F) S1024x16 .f32)), y ∈ pc.1.set :=
  View.cover_of_tiled [⟨rT, p0⟩] S1024x16.size (by rfl) y

/-! ## The body's triple -/

set_option maxHeartbeats 4000000 in
/-- The dense stage's body on whole staging buffers, the four inputs' at read contents and the four outputs' at anything,
    runs to the continuation holding the inputs as they were and each output at its function of the inputs. -/
theorem sound_kernel (c : Dev nD) (E : Set ℕ) (i : grid0.Coords) (arg1 : Memref sig .tc .vmem S1024x2048 .f32) (harg1 : arg1.IsWhole) (arg2 : Memref sig .tc .vmem S2048x18 .f32) (harg2 : arg2.IsWhole) (arg3 : Memref sig .tc .vmem S16 .f32) (harg3 : arg3.IsWhole) (arg4 : Memref sig .tc .vmem S2 .f32) (harg4 : arg4.IsWhole) (arg5 : Memref sig .tc .vmem S1024x2048 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x16 .f32) (harg8 : arg8.IsWhole)
    (x0 : Vec F S1024x2048 .f32) (x1 : Vec F S2048x18 .f32) (x2 : Vec F S16 .f32) (x3 : Vec F S2 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4 x0) ∗ owns (c : Thread nD τ) arg6 fullShare (out5 x0 x1 x3) ∗ owns (c : Thread nD τ) arg7 fullShare (out6 x0 x1 x3) ∗ owns (c : Thread nD τ) arg8 fullShare (out7 x0 x1 x2)) -∗ Kont ⟨⟩))
      ⊢ wp frame (wpE (defs₀ (F := F)) Variants.none c none) E (cc0__heads_body i arg1 harg1 arg2 harg2 arg3 harg3 arg4 harg4 arg5 harg5 arg6 harg6 arg7 harg7 arg8 harg8) Kont := by
  simp only [cc0__heads_body_eq_skeleton]; unfold cc0__heads_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  isplitl [H5]
  · iexists _; isplitr
    swap; · iexact H5
    ipureintro
    exact View.read_writes_eq_canon _ _ _ (coverN _)
  isplitl [H6]
  · iexists _; isplitr
    swap; · iexact H6
    ipureintro
    exact View.read_writes_eq_canon _ _ _ (coverN _)
  iexists _; isplitr
  swap; · iexact H7
  ipureintro
  exact View.read_writes_eq_canon _ _ _ (coverT _)

/-! ## The proof data of the dense stage, at the contents `V` the region is entered with and the tallies `O` the core owes throughout -/

section Data

variable (V : (c : Dev nD) → (b : Ref sig .tc) → Buf (Elt F) ((c : Thread nD τ).loc b)) (O : Dev nD → CellTallies nD τ sig (HIx 1))
  (Rc : Dev nD → Set (SemLoc sig × HIx 1))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point t each input buffer holds its block and each output buffer its function of the input blocks; the
    invariant is the scoped buffers no window stages; the core owes `O c` throughout. -/
def dat0 (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t)
    | ⟨5, _⟩ => out5 (iblk V c 0 t) (iblk V c 1 t) (iblk V c 3 t)
    | ⟨6, _⟩ => out6 (iblk V c 0 t) (iblk V c 1 t) (iblk V c 3 t)
    | ⟨7, _⟩ => out7 (iblk V c 0 t) (iblk V c 1 t) (iblk V c 2 t)
  Φ _ := Pipeline.scopedRest (Ix := HIx 1) (Name := ℕ) (U := UU) (Lvl := ℕ) (Val := Elt F) spec0 c
  q _ := fullShare
  owed _ := O c
  recorded _ := Rc c

theorem A_eq (c : Dev nD) (w : Fin cfg0.W) : (dat0 V O Rc c).A w = V c (Pipeline.arrRef spec0 w) := by dsimp only [dat0]
theorem after_0 (c : Dev nD) (t : Fin cfg0.N) : (dat0 V O Rc c).after 0 t = iblk V c 0 t := by dsimp only [dat0]
theorem after_1 (c : Dev nD) (t : Fin cfg0.N) : (dat0 V O Rc c).after 1 t = iblk V c 1 t := by dsimp only [dat0]
theorem after_2 (c : Dev nD) (t : Fin cfg0.N) : (dat0 V O Rc c).after 2 t = iblk V c 2 t := by dsimp only [dat0]
theorem after_3 (c : Dev nD) (t : Fin cfg0.N) : (dat0 V O Rc c).after 3 t = iblk V c 3 t := by dsimp only [dat0]
theorem after_4 (c : Dev nD) (t : Fin cfg0.N) : (dat0 V O Rc c).after 4 t = out4 (iblk V c 0 t) := by dsimp only [dat0]
theorem after_5 (c : Dev nD) (t : Fin cfg0.N) : (dat0 V O Rc c).after 5 t = out5 (iblk V c 0 t) (iblk V c 1 t) (iblk V c 3 t) := by dsimp only [dat0]
theorem after_6 (c : Dev nD) (t : Fin cfg0.N) : (dat0 V O Rc c).after 6 t = out6 (iblk V c 0 t) (iblk V c 1 t) (iblk V c 3 t) := by dsimp only [dat0]
theorem after_7 (c : Dev nD) (t : Fin cfg0.N) : (dat0 V O Rc c).after 7 t = out7 (iblk V c 0 t) (iblk V c 1 t) (iblk V c 2 t) := by dsimp only [dat0]

/-- Each input's current staging buffer holds its block at every point, fetched there or not. -/
theorem before_0 (c : Dev nD) (t : Fin cfg0.N) (d) : (dat0 V O Rc c).before 0 t d = iblk V c 0 t :=
  ((dat0 V O Rc c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V O Rc c).before 1 t d = iblk V c 1 t :=
  ((dat0 V O Rc c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V O Rc c).before 2 t d = iblk V c 2 t :=
  ((dat0 V O Rc c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V O Rc c).before 3 t d = iblk V c 3 t :=
  ((dat0 V O Rc c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat0 V O Rc c).Φ t.castSucc ∗ (dat0 V O Rc c).owesAt none t.castSucc
    ∗ (∃ d, owns (c : Thread nD τ) (st0_0 t) fullShare ((dat0 V O Rc c).before 0 t d))
    ∗ (∃ d, owns (c : Thread nD τ) (st0_1 t) fullShare ((dat0 V O Rc c).before 1 t d))
    ∗ (∃ d, owns (c : Thread nD τ) (st0_2 t) fullShare ((dat0 V O Rc c).before 2 t d))
    ∗ (∃ d, owns (c : Thread nD τ) (st0_3 t) fullShare ((dat0 V O Rc c).before 3 t d))
    ∗ (∃ d, owns (c : Thread nD τ) (st0_4 t) fullShare ((dat0 V O Rc c).before 4 t d))
    ∗ (∃ d, owns (c : Thread nD τ) (st0_5 t) fullShare ((dat0 V O Rc c).before 5 t d))
    ∗ (∃ d, owns (c : Thread nD τ) (st0_6 t) fullShare ((dat0 V O Rc c).before 6 t d))
    ∗ (∃ d, owns (c : Thread nD τ) (st0_7 t) fullShare ((dat0 V O Rc c).before 7 t d)))

def bodyPost (c : Dev nD) (t : Fin cfg0.N) : sProp 𝕄 :=
  iprop((dat0 V O Rc c).Φ t.succ ∗ (dat0 V O Rc c).owesAt none t.succ
    ∗ owns (c : Thread nD τ) (st0_0 t) fullShare ((dat0 V O Rc c).after 0 t)
    ∗ owns (c : Thread nD τ) (st0_1 t) fullShare ((dat0 V O Rc c).after 1 t)
    ∗ owns (c : Thread nD τ) (st0_2 t) fullShare ((dat0 V O Rc c).after 2 t)
    ∗ owns (c : Thread nD τ) (st0_3 t) fullShare ((dat0 V O Rc c).after 3 t)
    ∗ owns (c : Thread nD τ) (st0_4 t) fullShare ((dat0 V O Rc c).after 4 t)
    ∗ owns (c : Thread nD τ) (st0_5 t) fullShare ((dat0 V O Rc c).after 5 t)
    ∗ owns (c : Thread nD τ) (st0_6 t) fullShare ((dat0 V O Rc c).after 6 t)
    ∗ owns (c : Thread nD τ) (st0_7 t) fullShare ((dat0 V O Rc c).after 7 t))

theorem sound_body (c : Dev nD) (t : Fin cfg0.N) :
    bodyPre V O Rc c t ⊢ wp frame (wpE (defs₀ (F := F)) Variants.none c none) Set.univ (bodyAt0 t) (fun _ => bodyPost V O Rc c t) := by
  unfold bodyPre bodyPost bodyAt0
  simp only [before_0, before_1, before_2, before_3]
  rw [show (dat0 V O Rc c).Φ t.succ = (dat0 V O Rc c).Φ t.castSucc from rfl,
    show (dat0 V O Rc c).owesAt none t.succ = (dat0 V O Rc c).owesAt none t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat0 V O Rc c) (defs₀ (F := F)) Variants.none (none : HIx 1) Set.univ := fun t => by
  rw [bigSep_W0, bigSep_W0]
  exact sound_body V O Rc c t

end Data

end Cert.Kernel.SC

end
-- ==== Proof.BRegion.lean ====
/-
  The dense stage as a segment of the TensorCore's program: entered holding every unscoped buffer at the contents `W1`,
  left holding them at `W2` — the stage's four result arrays at what its write-backs leave, everything else as it was.
  Throughout, the TensorCore owes the routing call's start signals (the tallies `O`), which sit above the staging cells'
  waits in level, so the stage's own waits are admissible.
-/
import proofs.«211727_g52312701665785_cont_9to1_m_854_46_alg».proof.Proof.BHeads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

section Region

variable (W1 : Dev nD → Valuation τ sig (Elt F)) (O : Dev nD → CellTallies nD τ sig (HIx 1)) (Rc : Dev nD → Set (SemLoc sig × HIx 1))

/-- The entry contents read at the TensorCore's references. -/
abbrev V1 : (c : Dev nD) → (b : Ref sig .tc) → Buf (Elt F) ((c : Thread nD τ).loc b) := fun c b => W1 c b

/-- No pipeline has a prefetched table. -/
abbrev adm : (p : Fin 1) → (pcfgs (F := F) p).Adm := fun p => (cfgs p).toPCfg_adm

/-- The one pipeline's proof data, a literal match so that the pinned configuration reduces to the printed one. -/
def pdats : (p : Fin 1) → (c : Dev nD) → Dat τ (Elt F) (HIx 1) ℕ UU ℕ (Pipeline.pin (pcfgs (F := F)) adm p) c
  | ⟨0, _⟩ => fun c => dat0 (V1 W1) O Rc c

/-- At the stage's exit: its arrays at what the pipeline leaves, every other buffer as entered. -/
def W2 (c : Dev nD) : Valuation τ sig (Elt F) :=
  Pipeline.withArrays spec0 c (W1 c) fun w => (dat0 (V1 W1) O Rc c).arrAt w cfg0.N
theorem W2_arr (c : Dev nD) (w : Fin cfg0.W) :
    W2 W1 O Rc c (Proc.devRef .tc (Pipeline.arrRef spec0 w)) = (dat0 (V1 W1) O Rc c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 W1 O Rc c (Proc.devRef .tc b) = W1 c (Proc.devRef .tc b) := by
  unfold W2; exact Pipeline.withArrays_of_ne spec0 c _ _ b hb
abbrev V2 : (c : Dev nD) → (b : Ref sig .tc) → Buf (Elt F) ((c : Thread nD τ).loc b) := fun c b => W2 W1 O Rc c b
theorem hF0 (c : Dev nD) (w : Fin cfg0.W) : (dat0 (V1 W1) O Rc c).arrAt w cfg0.N = V2 W1 O Rc c (Pipeline.arrRef spec0 w) :=
  (W2_arr W1 O Rc c w).symm
theorem hrest0 (c : Dev nD) : ∀ b, b ∉ Finset.univ.image (Pipeline.arrRef spec0) → V2 W1 O Rc c b = V1 W1 c b :=
  fun b hb => W2_of_ne W1 O Rc c b fun w e => hb (Finset.mem_image.mpr ⟨w, Finset.mem_univ _, e⟩)

set_option backward.isDefEq.respectTransparency.types false in
/-- The dense stage over the thread state "every unscoped buffer at the boundary's contents, the core owing `O` with its
    recorded pairs bounded". -/
def reg0 (hO : ∀ c g, O c g none = 0) :
    Pipeline.RegionSeg (pcfgs (F := F)) adm (pdats W1 O Rc) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation (V1 W1) O Rc c).loose
  hwaits c := Pipeline.cellsWaits_intro (Pipeline.pin (pcfgs (F := F)) adm) (pdats W1 O Rc) (none : HIx 1) 0 c
    fun w s t => (K (F := F)).mayWait_none (SemLoc.dma ((cfg0.win w).sem s)) (hO c)
  pre c := iprop(StableHlo.held (c : Thread nD τ) (Pipeline.ucRefs τ sig) (W1 c) ∗ Pipeline.owesWithin c (O c) (Rc c))
  post c := iprop(StableHlo.held (c : Thread nD τ) (Pipeline.ucRefs τ sig) (W2 W1 O Rc c) ∗ Pipeline.owesWithin c (O c) (Rc c ∪ cfg0.waitPairs none))
  X c := iprop(emp)
  Y c := iprop(emp)
  Z c := Pipeline.unscopedRest (Ix := HIx 1) (Name := ℕ) (U := UU) (Lvl := ℕ) spec0 c (V1 W1 c)
  hentry c := by
    rw [Pipeline.ownSems0_none]
    have hsplit := Pipeline.arrays_of_unscopedBufs (p := 0) (pcfgs (F := F)) adm (pdats W1 O Rc) launch0.win launch0.arr_whole c
      ((pdats W1 O Rc 0 c).share_full fun _ => rfl) (V1 W1 c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O c) (show Rc c ⊆ Rc c ∪ cfg0.waitPairs none from Set.subset_union_left)); iexact HO
    isplitr; · iempintro
    iexact Hrest
  hin c := by
    rw [show (pdats W1 O Rc 0 c).Φ 0 = Pipeline.scopedRest (Ix := HIx 1) (Name := ℕ) (U := UU) (Lvl := ℕ) (Val := Elt F) spec0 c from rfl]
    iintro ⟨-, -, Hr⟩
    iexact Hr
  hout c := by
    rw [Pipeline.ownSems0_none, show (pdats W1 O Rc 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats W1 O Rc) ((pdats W1 O Rc 0 c).share_full fun _ => rfl)
      (V1 W1 c) (V2 W1 O Rc c) ((pdats W1 O Rc 0 c).arrAt · cfg0.N) (hF0 W1 O Rc c) (hrest0 W1 O Rc c)
    rw [Pipeline.unscopedBufs_held] at hjoin
    iintro ⟨Ha, HO, -, Hrest⟩
    imodintro
    isplitl [Ha Hrest]
    · iapply hjoin; isplitl [Ha] <;> iassumption
    iexact HO

end Region

end Cert.Kernel.SC

end
-- ==== Proof.BSplit.lean ====
/-
  A whole per-token array (or the flat table) is its 32 chunks, grouped as the routing call deals them: SparseCore c gets the
  sixteen chunks 2·i + c of its subcores i. The chunks are pairwise disjoint and cover the array, and (c, i) ↦ 2·i + c is a
  bijection onto the 32 chunk numbers, so the call's operands are the arrays and its results rejoin to them.
-/
import proofs.«211727_g52312701665785_cont_9to1_m_854_46_alg».proof.Proof.BCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

theorem widOf_inj : Function.Injective (fun ci : Fin 2 × Fin 16 => widOf ci.1 ci.2) := by decide
theorem widOf_image : (Finset.univ : Finset (Fin 2 × Fin 16)).image (fun ci => widOf ci.1 ci.2) = Finset.univ := by decide

/-- A family over the 32 chunk numbers, regrouped by SparseCore and subcore. -/
theorem bigSep_wid (Φ : Fin 32 → sProp 𝕄) :
    bigSep Finset.univ Φ = bigSep Finset.univ fun c : Fin 2 => bigSep Finset.univ fun i : Fin 16 => Φ (widOf c i) := by
  rw [← widOf_image, SparseCore.bigSep_image_of_injOn (widOf_inj.injOn) Φ, ← Finset.univ_product_univ, SparseCore.bigSep_product]

theorem flat_disjoint : ∀ i ∈ (Finset.univ : Finset (Fin 32)), ∀ j ∈ (Finset.univ : Finset (Fin 32)), i ≠ j → Disjoint (flatChunk i) (flatChunk j) :=
  fun i _ j _ h => Rect.part_disjoint hdivFlat h
theorem flat_cover : (Finset.univ : Finset (Fin 32)).biUnion flatChunk = Finset.univ := Rect.biUnion_part hdivFlat
theorem tok_disjoint : ∀ i ∈ (Finset.univ : Finset (Fin 32)), ∀ j ∈ (Finset.univ : Finset (Fin 32)), i ≠ j → Disjoint (tokChunk i) (tokChunk j) :=
  fun i _ j _ h => Rect.part_disjoint hdivTok h
theorem tok_cover : (Finset.univ : Finset (Fin 32)).biUnion tokChunk = Finset.univ := Rect.biUnion_part hdivTok

theorem flat_chunks (d : Dev nD) (f : Buf (Elt F) (flatLoc d)) :
    (flatLoc d ↦{fullShare} f : sProp 𝕄) = bigSep Finset.univ fun c : Fin 2 => bigSep Finset.univ fun i : Fin 16 => flatLoc d ↦[flatChunk (widOf c i)]{fullShare} f := by
  rw [← bigSep_wid (fun w => (flatLoc d ↦[flatChunk w]{fullShare} f : sProp 𝕄)), ← pointsTo_biUnion Finset.univ (ℓ := flatLoc d) flatChunk flat_disjoint, flat_cover]; try rfl
theorem sid_chunks (d : Dev nD) (f : Buf (Elt F) (sidLoc d)) :
    (sidLoc d ↦{fullShare} f : sProp 𝕄) = bigSep Finset.univ fun c : Fin 2 => bigSep Finset.univ fun i : Fin 16 => sidLoc d ↦[tokChunk (widOf c i)]{fullShare} f := by
  rw [← bigSep_wid (fun w => (sidLoc d ↦[tokChunk w]{fullShare} f : sProp 𝕄)), ← pointsTo_biUnion Finset.univ (ℓ := sidLoc d) tokChunk tok_disjoint, tok_cover]; try rfl
theorem mean_chunks (d : Dev nD) (f : Buf (Elt F) (meanLoc d)) :
    (meanLoc d ↦{fullShare} f : sProp 𝕄) = bigSep Finset.univ fun c : Fin 2 => bigSep Finset.univ fun i : Fin 16 => meanLoc d ↦[tokChunk (widOf c i)]{fullShare} f := by
  rw [← bigSep_wid (fun w => (meanLoc d ↦[tokChunk w]{fullShare} f : sProp 𝕄)), ← pointsTo_biUnion Finset.univ (ℓ := meanLoc d) tokChunk tok_disjoint, tok_cover]; try rfl
theorem scale_chunks (d : Dev nD) (f : Buf (Elt F) (scaleLoc d)) :
    (scaleLoc d ↦{fullShare} f : sProp 𝕄) = bigSep Finset.univ fun c : Fin 2 => bigSep Finset.univ fun i : Fin 16 => scaleLoc d ↦[tokChunk (widOf c i)]{fullShare} f := by
  rw [← bigSep_wid (fun w => (scaleLoc d ↦[tokChunk w]{fullShare} f : sProp 𝕄)), ← pointsTo_biUnion Finset.univ (ℓ := scaleLoc d) tokChunk tok_disjoint, tok_cover]; try rfl

variable (flat : FVec F S262144 .f32) (sid : IVec S16384 32) (f0 f1 : FVec F S16384 .f32)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The call's operands: the four arrays whole. -/
theorem st_eq (d : Dev nD) :
    (bigSep Finset.univ fun c : Fin ((K (F := F)).nCore 0) => (P flat sid f0 f1).st 0 d c)
      = iprop((flatLoc d ↦{fullShare} flat) ∗ (sidLoc d ↦{fullShare} sid) ∗ (meanLoc d ↦{fullShare} f0) ∗ (scaleLoc d ↦{fullShare} f1)) := by
  show (bigSep Finset.univ fun c : Fin ((K (F := F)).nCore 0) => bigSep Finset.univ fun i : Fin 16 => goRes flat sid f0 f1 d (widOf (Fin.cast nCore_zero c) i)) = _
  rw [bigSep_cores (F := F) (fun c => bigSep Finset.univ fun i : Fin 16 => goRes flat sid f0 f1 d (widOf c i))]
  unfold goRes
  simp only [bigSep_sep']
  rw [flat_chunks, sid_chunks, mean_chunks, scale_chunks]

/-- The call's results: the table and the source ids as they were, the two result arrays at the routed entries. -/
theorem dn_eq (d : Dev nD) :
    (bigSep Finset.univ fun c : Fin ((K (F := F)).nCore 0) => (P flat sid f0 f1).dn 0 d c)
      = iprop((flatLoc d ↦{fullShare} flat) ∗ (sidLoc d ↦{fullShare} sid) ∗ (meanLoc d ↦{fullShare} KForm.Groute 0 flat sid) ∗ (scaleLoc d ↦{fullShare} KForm.Groute 1 flat sid)) := by
  show (bigSep Finset.univ fun c : Fin ((K (F := F)).nCore 0) => bigSep Finset.univ fun i : Fin 16 => tdRes flat sid d (widOf (Fin.cast nCore_zero c) i)) = _
  rw [bigSep_cores (F := F) (fun c => bigSep Finset.univ fun i : Fin 16 => tdRes flat sid d (widOf c i))]
  unfold tdRes
  simp only [bigSep_sep']
  rw [flat_chunks, sid_chunks, mean_chunks, scale_chunks]

/-- A SparseCore's operands are its tasks' shares together, and its results theirs together. -/
theorem vecSplit : (K (F := F)).VecSplit' (P flat sid f0 f1) 0 := by
  intro d c
  show (bigSep Finset.univ fun i : Fin 16 => goRes flat sid f0 f1 d (widOf (Fin.cast nCore_zero c) i)) ⊢ |={Set.univ}=> iprop(
      (bigSep Finset.univ fun i : Fin ((K (F := F)).nSub 0) => goRes flat sid f0 f1 d (widOf (Fin.cast nCore_zero c) (Fin.cast nSub_zero i)))
      ∗ ((bigSep Finset.univ fun i : Fin ((K (F := F)).nSub 0) => tdRes flat sid d (widOf (Fin.cast nCore_zero c) (Fin.cast nSub_zero i)))
          -∗ bigSep Finset.univ fun i : Fin 16 => tdRes flat sid d (widOf (Fin.cast nCore_zero c) i)))
  rw [show (bigSep Finset.univ fun i : Fin ((K (F := F)).nSub 0) => goRes flat sid f0 f1 d (widOf (Fin.cast nCore_zero c) (Fin.cast nSub_zero i)))
      = bigSep Finset.univ fun i : Fin 16 => goRes flat sid f0 f1 d (widOf (Fin.cast nCore_zero c) i) from
        bigSep_congr fun _ _ => congrArg (fun i => goRes flat sid f0 f1 d (widOf (Fin.cast nCore_zero c) i)) (Fin.ext rfl),
    show (bigSep Finset.univ fun i : Fin ((K (F := F)).nSub 0) => tdRes flat sid d (widOf (Fin.cast nCore_zero c) (Fin.cast nSub_zero i)))
      = bigSep Finset.univ fun i : Fin 16 => tdRes flat sid d (widOf (Fin.cast nCore_zero c) i) from
        bigSep_congr fun _ _ => congrArg (fun i => tdRes flat sid d (widOf (Fin.cast nCore_zero c) i)) (Fin.ext rfl)]
  iintro H; imodintro
  isplitl [H]; · iexact H
  iintro H; iexact H

end Cert.Kernel.SC

end
-- ==== Proof.BMain.lean ====
/-
  The TensorCore's program: the widened weight matrix and the flat bias are built by four host operations, the dense stage
  runs as a pipeline region, its table is laid out flat, and the routing call is started and waited for. What it leaves:
  every buffer the routing call does not touch at the last boundary's contents, the call's two inputs as they were and its
  two results at the routed table entries.
-/
import proofs.«211727_g52312701665785_cont_9to1_m_854_46_alg».proof.Proof.BRegion
import proofs.«211727_g52312701665785_cont_9to1_m_854_46_alg».proof.Proof.BSplit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

/-! ## The host operations of the TensorCore's program, as printed -/

abbrev op1 : HloOp τ sig (Elt F) := StableHlo.unary main_arg4 main_v0 ((transpose S2048x8x2 [1, 0, 2] · transposes_S8x2048x2_S2048x8x2_1_0_2) : (⟨S8x2048x2, .f32⟩ : BufTy).Contents (Elt F) → (⟨S2048x8x2, .f32⟩ : BufTy).Contents (Elt F))
abbrev op2 : HloOp τ sig (Elt F) := StableHlo.reshape main_v0 main_v1 rfl shapeCasts_S2048x8x2_S2048x16
abbrev op3 : HloOp τ sig (Elt F) := StableHlo.binary main_v1 main_arg2 main_v2 ((fun a b => concatenate S2048x18 1 [⟨S2048x16, a⟩, ⟨S2048x2, b⟩] concatenates_S2048x16_S2048x2_S2048x18_d1) : (⟨S2048x16, .f32⟩ : BufTy).Contents (Elt F) → (⟨S2048x2, .f32⟩ : BufTy).Contents (Elt F) → (⟨S2048x18, .f32⟩ : BufTy).Contents (Elt F))
abbrev op4 : HloOp τ sig (Elt F) := StableHlo.reshape main_arg5 main_v3 rfl shapeCasts_S8x2_S16
abbrev op5 : HloOp τ sig (Elt F) := StableHlo.reshape main_v4_3 main_v5 rfl shapeCasts_S16384x16_S262144

abbrev UC : Finset (DevRef τ sig) := Pipeline.ucRefs τ sig

theorem hop1 : (op1 (F := F)).bufs ⊆ UC := by rw [StableHlo.unary_bufs]; decide
theorem hop2 : (op2 (F := F)).bufs ⊆ UC := by rw [StableHlo.reshape_bufs]; decide
theorem hop3 : (op3 (F := F)).bufs ⊆ UC := by rw [StableHlo.binary_bufs]; decide
theorem hop4 : (op4 (F := F)).bufs ⊆ UC := by rw [StableHlo.reshape_bufs]; decide
theorem hop5 : (op5 (F := F)).bufs ⊆ UC := by rw [StableHlo.reshape_bufs]; decide

section Main

variable (m : (ℓ : Loc nD τ sig) → Buf (Elt F) ℓ) (ρ : Dev nD → PrngReg)

/-- The buffer contents at each boundary of the TensorCore's program: as launched; after the four operations that build
    the widened weights and the flat bias; after the dense stage; after the table is laid out flat. -/
abbrev Wa (d : Dev nD) : Valuation τ sig (Elt F) := StableHlo.launchContents m d
abbrev Wb (d : Dev nD) : Valuation τ sig (Elt F) := (op4 (F := F)).result ((op3 (F := F)).result ((op2 (F := F)).result ((op1 (F := F)).result (Wa m d))))
/-- What the TensorCore owes throughout: the routing call's start signals. -/
abbrev Otc (d : Dev nD) : CellTallies nD τ sig (HIx 1) := (K (F := F)).Otc d 0
/-- The pairs its waits may have recorded before the dense stage: those at level 0. -/
def Rtc (d : Dev nD) : Set (SemLoc sig × HIx 1) := {p | (K (F := F)).lev (SparseCore.T d, p.1) p.2 ≤ 0}
abbrev Wc (d : Dev nD) : Valuation τ sig (Elt F) := W2 (Wb m) (Otc (F := F)) (Rtc (F := F)) d
abbrev Wd (d : Dev nD) : Valuation τ sig (Elt F) := (op5 (F := F)).result (Wc m d)

/-- The dense stage's share of the ghost state on device d. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

theorem hOtc (d : Dev nD) (g : GSem nD τ sig) : Otc (F := F) d g none = 0 := by
  by_contra h
  have := (K (F := F)).lev_of_Otc_pos (Nat.pos_of_ne_zero h)
  rw [SparseCore.Cfg.lev_none] at this; omega

end Main

section Main2

variable (m : (ℓ : Loc nD τ sig) → Buf (Elt F) ℓ) (ρ : Dev nD → PrngReg)

theorem reg0_pre (W1 : Dev nD → Valuation τ sig (Elt F)) (O : Dev nD → CellTallies nD τ sig (HIx 1)) (Rc : Dev nD → Set (SemLoc sig × HIx 1))
    (hO : ∀ c g, O c g none = 0) (c : Dev nD) :
    (reg0 W1 O Rc hO).pre c = iprop(held (c : Thread nD τ) UC (W1 c) ∗ Pipeline.owesWithin c (O c) (Rc c)) := rfl
theorem reg0_post (W1 : Dev nD → Valuation τ sig (Elt F)) (O : Dev nD → CellTallies nD τ sig (HIx 1)) (Rc : Dev nD → Set (SemLoc sig × HIx 1))
    (hO : ∀ c g, O c g none = 0) (c : Dev nD) :
    (reg0 W1 O Rc hO).post c = iprop(held (c : Thread nD τ) UC (W2 W1 O Rc c) ∗ Pipeline.owesWithin c (O c) (Rc c ∪ cfg0.waitPairs none)) := rfl

/-- The TensorCore's handshake state apart from what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest d n) := rfl

abbrev d0 : Dev nD := 0
/-- What the routing call works on: the flat table, the source ids, and the two result arrays as they stand before it. -/
abbrev flatV : FVec F S262144 .f32 := Wd m d0 (Proc.devRef .tc main_v5)
abbrev sidV : IVec S16384 32 := Wd m d0 (Proc.devRef .tc main_arg1)
abbrev f0V : FVec F S16384 .f32 := Wd m d0 (Proc.devRef .tc main_v6_0)
abbrev f1V : FVec F S16384 .f32 := Wd m d0 (Proc.devRef .tc main_v6_1)
abbrev P0 : (K (F := F)).Pay (nD := nD) (Val := Elt F) (Name := ℕ) (U := UU) := P (flatV m) (sidV m) (f0V m) (f1V m)

abbrev R4 : Finset (DevRef τ sig) := {Proc.devRef .tc main_v5, Proc.devRef .tc main_arg1, Proc.devRef .tc main_v6_0, Proc.devRef .tc main_v6_1}
theorem hR4 : (R4 : Finset (DevRef τ sig)) ⊆ UC := by decide
theorem held_R4 (d : Dev nD) (W : Valuation τ sig (Elt F)) :
    (held (SparseCore.T d) R4 W : sProp 𝕄)
      = iprop((flatLoc d ↦{fullShare} W (Proc.devRef .tc main_v5)) ∗ (sidLoc d ↦{fullShare} W (Proc.devRef .tc main_arg1))
          ∗ (meanLoc d ↦{fullShare} W (Proc.devRef .tc main_v6_0)) ∗ scaleLoc d ↦{fullShare} W (Proc.devRef .tc main_v6_1)) := by
  unfold held R4
  rw [SparseCore.bigSep_insert' (by decide), SparseCore.bigSep_insert' (by decide), SparseCore.bigSep_insert' (by decide), bigSep_singleton]

/-- What the TensorCore's program leaves the claim: every unscoped buffer but the routing call's four at the last boundary's
    contents, and those four as the call returned them. -/
def FIN (d : Dev nD) : sProp 𝕄 :=
  iprop(held (SparseCore.T d) (UC \ R4) (Wd m d) ∗ (flatLoc d ↦{fullShare} flatV m) ∗ (sidLoc d ↦{fullShare} sidV m)
    ∗ (meanLoc d ↦{fullShare} KForm.Groute 0 (flatV m) (sidV m)) ∗ (scaleLoc d ↦{fullShare} KForm.Groute 1 (flatV m) (sidV m)))

set_option backward.isDefEq.respectTransparency.types false in
set_option maxHeartbeats 4000000 in
/-- The TensorCore's program on device d: four host operations, the dense stage, the flat layout, the routing call. -/
theorem hmain (κ : GSem nD τ sig → ℕ) (d : Dev nD) :
    iprop((K (F := F)).ctx EH (P0 m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  obtain rfl : d = d0 := Subsingleton.elim _ _
  unfold SparseCore.Cfg.tcRes
  rw [show (fun b : Ref sig .tc => m ((SparseCore.T d0).loc b)) = (fun b : Ref sig .tc => Wa m d0 b) from rfl, Pipeline.unscopedBufs_held]
  simp only [main, wp_bind, wp_pure]
  iintro ⟨#Hctx, Hst, ⟨Hb, Hheld, -, -⟩, HG⟩
  iapply (wp_hlo_within 𝒱 (SparseCore.T d0) none Set.univ (op := op1) (S := UC) hop1 (V := Wa m d0)) $$ [Hb Hheld]
  · isplitl [Hb]; · iexact Hb
    iexact Hheld
  iintro ⟨Hb, Hheld⟩
  rw [wp_ret]; imodintro
  iapply (wp_hlo_within 𝒱 (SparseCore.T d0) none Set.univ (op := op2) (S := UC) hop2) $$ [Hb Hheld]
  · isplitl [Hb]; · iexact Hb
    iexact Hheld
  iintro ⟨Hb, Hheld⟩
  rw [wp_ret]; imodintro
  iapply (wp_hlo_within 𝒱 (SparseCore.T d0) none Set.univ (op := op3) (S := UC) hop3) $$ [Hb Hheld]
  · isplitl [Hb]; · iexact Hb
    iexact Hheld
  iintro ⟨Hb, Hheld⟩
  rw [wp_ret]; imodintro
  iapply (wp_hlo_within 𝒱 (SparseCore.T d0) none Set.univ (op := op4) (S := UC) hop4) $$ [Hb Hheld]
  · isplitl [Hb]; · iexact Hb
    iexact Hheld
  iintro ⟨Hb, Hheld⟩
  rw [wp_ret]; imodintro
  ihave Hst2 := (Entails.of_eq (tcSt_eq (F := F) d0 0)) $$ Hst
  icases Hst2 with ⟨⟨%W, %hW, HO⟩, Hst'⟩
  icases HG with ⟨Hcg, Htk⟩
  ihave Hlev := ((K (F := F)).ctx_levAts κ) $$ Hctx
  iapply ((K (F := F)).wp_liftProg (D (F := F)) 𝒱 (SparseCore.T d0) Set.univ none (Prog.op (TpuEff.customCall (Pipeline.entry (0 : Fin 1)) ()) Prog.ret) _)
  iapply (Pipeline.RegionSeg.wp (pcfgs (F := F)) adm (pdats (Wb m) (Otc (F := F)) (Rtc (F := F))) (none : HIx 1) cellOf_inj EP defs₀ 𝒱₀ (K (F := F)).L (K (F := F)).lev
      (reg0 (Wb m) (Otc (F := F)) (Rtc (F := F)) (hOtc (F := F))) d0 none (fun _ h => nomatch h) Prog.ret _)
  isplitr [Hb Hheld HO Hcg Htk]
  swap
  · isplitl [Hb]; · iexact Hb
    isplitl [Hheld HO]
    · rw [reg0_pre]
      isplitl [Hheld]; · iexact Hheld
      iexists W; isplitr
      · ipureintro; intro p hp; exact hW p hp
      iexact HO
    isplitr; · iexact Hlev
    isplitl [Hcg]; · iexact Hcg
    iexact Htk
  iintro ⟨Hb, Hpost⟩
  rw [wp_ret]; imodintro
  ihave Hpost' := (Entails.of_eq (reg0_post (F := F) (Wb m) (Otc (F := F)) (Rtc (F := F)) (hOtc (F := F)) d0)) $$ [Hpost]
  · iexact Hpost
  icases Hpost' with ⟨Hheld, ⟨%W', %hW', HO⟩⟩
  iapply (wp_hlo_within 𝒱 (SparseCore.T d0) none Set.univ (op := op5) (S := UC) hop5 (V := Wc m d0)) $$ [Hb Hheld]
  · isplitl [Hb]; · iexact Hb
    iexact Hheld
  iintro ⟨Hb, Hheld⟩
  rw [wp_ret]; imodintro
  ihave Hh := (Entails.of_eq (StableHlo.held_sub_split (SparseCore.T d0) hR4 (Wd m d0))) $$ [Hheld]
  · iexact Hheld
  icases Hh with ⟨H4, Hrest⟩
  ihave H4' := (Entails.of_eq (held_R4 (F := F) d0 (Wd m d0))) $$ [H4]
  · iexact H4
  icases H4' with ⟨Hf, Hs, Hm, Hsc⟩
  iapply ((K (F := F)).wp_run (D (F := F)) 𝒱 (EH := EH) (P := P0 m) κ d0 0) $$ [Hst' HO Hf Hs Hm Hsc Hrest]
  isplitr; · iexact Hctx
  isplitl [Hst' HO]
  · rw [tcSt_eq]
    isplitl [HO]
    · iexists W'; isplitr
      · ipureintro; intro p hp
        rcases hW' hp with h | ⟨w, s, rfl⟩
        · exact h
        · rw [SparseCore.Cfg.lev_none]; exact Nat.zero_le _
      iexact HO
    iexact Hst'
  isplitl [Hf Hs Hm Hsc]
  · rw [st_eq]
    isplitl [Hf]; · iexact Hf
    isplitl [Hs]; · iexact Hs
    isplitl [Hm]; · iexact Hm
    iexact Hsc
  iintro ⟨Hst, Hdn⟩
  ihave Hdn' := (Entails.of_eq (dn_eq (F := F) (flatV m) (sidV m) (f0V m) (f1V m) d0)) $$ [Hdn]
  · iexact Hdn
  icases Hdn' with ⟨Hf, Hs, Hm, Hsc⟩
  imodintro
  isplitl [Hst]; · iexact Hst
  unfold FIN
  isplitl [Hrest]; · iexact Hrest
  isplitl [Hf]; · iexact Hf
  isplitl [Hs]; · iexact Hs
  isplitl [Hm]; · iexact Hm
  iexact Hsc

end Main2

end Cert.Kernel.SC

end
-- ==== Proof.BLaunchA.lean ====
/-
  The launch: the ghost state's launch element (the handshakes' rounds, the dense stage's staging cells, no transfer in
  flight), and how the TensorCore's final assertion reads the final memory: every unscoped buffer the routing call does not touch at
  the last boundary's contents, the call's inputs as they were and its results at the routed table entries.
-/
import proofs.«211727_g52312701665785_cont_9to1_m_854_46_alg».proof.Proof.BMain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

/-! ## The launch element -/

/-- The handshakes' cells and tokens; the dense stage's staging cells and its loop's transfer tokens; no counter. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem ownU_split (a : UH) (b : UP) (c : Counters) : (ownU ((a, (b, c)) : UU) : sProp 𝕄) ⊢ iprop(BI.own (EH a) ∗ BI.own (EP b)) := by
  have h1 : (ownU ((a, (b, c)) : UU) : sProp 𝕄) ⊢ iprop(BI.own ((uEmb (nD := nD) (sig := sig) (Ix := HIx 1) (Val := Elt F) (Name := ℕ) (U := UU) (Lvl := ℕ)).toEmb ((a, 1) : UU))
      ∗ BI.own ((uEmb (nD := nD) (sig := sig) (Ix := HIx 1) (Val := Elt F) (Name := ℕ) (U := UU) (Lvl := ℕ)).toEmb ((1, (b, c)) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own ((uEmb (nD := nD) (sig := sig) (Ix := HIx 1) (Val := Elt F) (Name := ℕ) (U := UU) (Lvl := ℕ)).toEmb ((1, (b, c)) : UU)) : sProp 𝕄)
      ⊢ iprop(BI.own ((uEmb (nD := nD) (sig := sig) (Ix := HIx 1) (Val := Elt F) (Name := ℕ) (U := UU) (Lvl := ℕ)).toEmb ((1, (b, 1)) : UU))
      ∗ BI.own ((uEmb (nD := nD) (sig := sig) (Ix := HIx 1) (Val := Elt F) (Name := ℕ) (U := UU) (Lvl := ℕ)).toEmb ((1, (1, c)) : UU))) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H' := h1 $$ H
  icases H' with ⟨Ha, Hbc⟩
  ihave H'' := h2 $$ Hbc
  icases H'' with ⟨Hb, -⟩
  isplitl [Ha]
  · iexact Ha
  · iexact Hb

theorem bigSep_emp' {I : Type} (s : Finset I) : (bigSep s fun _ => iprop(emp)) = (iprop(emp) : sProp 𝕄) := bigSep_emp_const s

variable (flat : FVec F S262144 .f32) (sid : IVec S16384 32) (f0 f1 : FVec F S16384 .f32)

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P flat sid f0 f1).x q thr) := by
  unfold u₀
  iintro Hu
  ihave H := (ownU_split (F := F) _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold Gd
    rw [bigSep_sep']
    isplitl [Hg]
    · iapply (Entails.of_eq (bigSep_congr fun d _ => (bigSep_univ_of_subsingleton (0 : Fin 1) (Φ := fun p => Pipeline.cellsGhost (Pipeline.pin (pcfgs (F := F)) adm) EP p d)))); iexact Hg
    · iapply (Entails.of_eq (bigSep_congr fun d _ => (bigSep_univ_of_subsingleton (0 : Fin 1) (Φ := fun p => Pipeline.toksInit (Pipeline.pin (pcfgs (F := F)) adm) EP p d)))); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

section Fin

variable (m : (ℓ : Loc nD τ sig) → Buf (Elt F) ℓ) (ρ : Dev nD → PrngReg)

/-- What a final memory holds on device d. -/
def fqM (d : Dev nD) (μ : MemSt nD τ sig (Elt F)) : Prop :=
  (∀ b ∈ (UC \ R4 : Finset (DevRef τ sig)), μ.mem (d, b) = Wd m d b)
    ∧ μ.mem (flatLoc d) = flatV m ∧ μ.mem (sidLoc d) = sidV m
    ∧ μ.mem (meanLoc d) = KForm.Groute 0 (flatV m) (sidV m) ∧ μ.mem (scaleLoc d) = KForm.Groute 1 (flatV m) (sidV m)

def fq (d : Dev nD) (s' : Phys nD τ sig (Elt F)) : Prop := fqM m d s'.mem

theorem hfin (d : Dev nD) (s' : Phys nD τ sig (Elt F)) : iprop(FIN m d ∗ SI s') ⊢ (⌜fq m d s'⌝ : sProp 𝕄) := by
  unfold FIN held
  iintro ⟨⟨Hrest, Hf, Hs, Hm, Hsc⟩, HSI⟩
  ihave H := (pointsTo_read_all (UC \ R4 : Finset (DevRef τ sig)) (fun b => ((d, b) : Loc nD τ sig)) (fun b => Wd m d b) s') $$ [Hrest HSI]
  · isplitl [Hrest] <;> iassumption
  icases H with ⟨%h0, HSI⟩
  ihave H := (persistent_entails_right (SI_pointsTo_agree (st := s') (ℓ := flatLoc d) (I := Finset.univ) (q := fullShare) (f := flatV m))) $$ [HSI Hf]
  · isplitl [HSI] <;> iassumption
  icases H with ⟨%h1, HSI, -⟩
  ihave H := (persistent_entails_right (SI_pointsTo_agree (st := s') (ℓ := sidLoc d) (I := Finset.univ) (q := fullShare) (f := sidV m))) $$ [HSI Hs]
  · isplitl [HSI] <;> iassumption
  icases H with ⟨%h2, HSI, -⟩
  ihave H := (persistent_entails_right (SI_pointsTo_agree (st := s') (ℓ := meanLoc d) (I := Finset.univ) (q := fullShare) (f := KForm.Groute 0 (flatV m) (sidV m)))) $$ [HSI Hm]
  · isplitl [HSI] <;> iassumption
  icases H with ⟨%h3, HSI, -⟩
  ihave H := (SI_pointsTo_agree (st := s') (ℓ := scaleLoc d) (I := Finset.univ) (q := fullShare) (f := KForm.Groute 1 (flatV m) (sidV m))) $$ [HSI Hsc]
  · isplitl [HSI] <;> iassumption
  icases H with %h4
  ipureintro
  exact ⟨h0, funext fun i => h1 i (Finset.mem_univ i), funext fun i => h2 i (Finset.mem_univ i), funext fun i => h3 i (Finset.mem_univ i),
    funext fun i => h4 i (Finset.mem_univ i)⟩

end Fin

end Cert.Kernel.SC

end
-- ==== Proof.BTileA.lean ====
/-
  The routing task's geometry: the four arrays and the four scratch buffers as the body addresses them, the chunk of each
  array a task slices, and that those slices are the chunks the launch hands out (chunk 2·i + c for subcore i of SparseCore c).
-/
import proofs.«211727_g52312701665785_cont_9to1_m_854_46_alg».proof.Proof.BCommon

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and scratch buffers as a vector subcore addresses them -/

abbrev tblW : Memref sig .scVector .hbm S262144 .f32 := Memref.whole main_v5_scv
abbrev sidW : Memref sig .scVector .hbm S16384 .i32 := Memref.whole main_arg1_scv
abbrev meanW : Memref sig .scVector .hbm S16384 .f32 := Memref.whole main_v6_0_scv
abbrev scaleW : Memref sig .scVector .hbm S16384 .f32 := Memref.whole main_v6_1_scv
/-- A task's scratch: its chunk of the table, of the source ids, the routed means, the routed scales. -/
abbrev sT : Memref sig .scVector .vmem S8192 .f32 := Memref.whole cc1_scratch0
abbrev sS : Memref sig .scVector .vmem S512 .i32 := Memref.whole cc1_scratch1
abbrev sM : Memref sig .scVector .vmem S512 .f32 := Memref.whole cc1_scratch2
abbrev sC : Memref sig .scVector .vmem S512 .f32 := Memref.whole cc1_scratch3

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The chunk of the task at grid point L. -/
theorem widL_lt (L : grid1.Coords) : 2 * (L 1).val + (L 0).val < 32 := by
  have h1 : (L 1).val < 16 := (L 1).isLt
  have h0 : (L 0).val < 2 := (L 0).isLt
  omega
abbrev widL (L : grid1.Coords) : Fin 32 := ⟨2 * (L 1).val + (L 0).val, widL_lt L⟩

abbrev rectT (L : grid1.Coords) : Rect S262144 := Rect.unit (s := S262144) (k1_off1 L) S8192.size (k1_off1_inb L)
abbrev rectK (L : grid1.Coords) : Rect S16384 := Rect.unit (s := S16384) (k1_off2 L) S512.size (k1_off2_inb L)
abbrev tblK (L : grid1.Coords) : Memref sig .scVector .hbm S8192 .f32 := (tblW : Memref sig .scVector .hbm S262144 .f32).slice (rectT L) (fun _ => rfl)
abbrev sidK (L : grid1.Coords) : Memref sig .scVector .hbm S512 .i32 := (sidW : Memref sig .scVector .hbm S16384 .i32).slice (rectK L) (fun _ => rfl)
abbrev meanK (L : grid1.Coords) : Memref sig .scVector .hbm S512 .f32 := (meanW : Memref sig .scVector .hbm S16384 .f32).slice (rectK L) (fun _ => rfl)
abbrev scaleK (L : grid1.Coords) : Memref sig .scVector .hbm S512 .f32 := (scaleW : Memref sig .scVector .hbm S16384 .f32).slice (rectK L) (fun _ => rfl)

/-- The table slice of the task is chunk 2·i + c of the flat table: its offset is 8192·(2·i + c). -/
theorem rectT_eq : rectT L = Rect.part (s := S262144) (a₀ := 0) hdivFlat (widL L) := by
  unfold rectT Rect.part Rect.block
  congr 1 <;> funext a
  · rw [k1_off1_eq]
    match a with
    | 0 => simp [Shape.partIx, Shape.partSize]; omega
  · match a with
    | 0 => simp [Shape.partSize]
/-- The per-token slices of the task are chunk 2·i + c: their offset is 512·(2·i + c). -/
theorem rectK_eq : rectK L = Rect.part (s := S16384) (a₀ := 0) hdivTok (widL L) := by
  unfold rectK Rect.part Rect.block
  congr 1 <;> funext a
  · rw [k1_off2_eq]
    match a with
    | 0 => simp [Shape.partIx, Shape.partSize]; omega
  · match a with
    | 0 => simp [Shape.partSize]

theorem set_tblK : (tblK L).view.set = flatChunk (widL L) := by
  show ((View.whole (main_v5_scv : Ref sig .scVector)).slice (rectT L)).set = _
  rw [View.set_slice_whole]; exact rectT_eq L ▸ rfl
theorem set_sidK : (sidK L).view.set = tokChunk (widL L) := by
  show ((View.whole (main_arg1_scv : Ref sig .scVector)).slice (rectK L)).set = _
  rw [View.set_slice_whole]; exact rectK_eq L ▸ rfl
theorem set_meanK : (meanK L).view.set = tokChunk (widL L) := by
  show ((View.whole (main_v6_0_scv : Ref sig .scVector)).slice (rectK L)).set = _
  rw [View.set_slice_whole]; exact rectK_eq L ▸ rfl
theorem set_scaleK : (scaleK L).view.set = tokChunk (widL L) := by
  show ((View.whole (main_v6_1_scv : Ref sig .scVector)).slice (rectK L)).set = _
  rw [View.set_slice_whole]; exact rectK_eq L ▸ rfl

/-! The arrays' chunks as the task's slices hold them are the chunks at the TensorCore's locations. -/
theorem pts_tblK (f : Buf (Elt F) (flatLoc d)) :
    ((tblK L).view.loc (V d (cV L) (jV L)) ↦[(tblK L).view.set]{fullShare} f : sProp 𝕄) = flatLoc d ↦[flatChunk (widL L)]{fullShare} f := by
  rw [set_tblK]
theorem pts_sidK (f : Buf (Elt F) (sidLoc d)) :
    ((sidK L).view.loc (V d (cV L) (jV L)) ↦[(sidK L).view.set]{fullShare} f : sProp 𝕄) = sidLoc d ↦[tokChunk (widL L)]{fullShare} f := by
  rw [set_sidK]
theorem pts_meanK (f : Buf (Elt F) (meanLoc d)) :
    ((meanK L).view.loc (V d (cV L) (jV L)) ↦[(meanK L).view.set]{fullShare} f : sProp 𝕄) = meanLoc d ↦[tokChunk (widL L)]{fullShare} f := by
  rw [set_meanK]
theorem pts_scaleK (f : Buf (Elt F) (scaleLoc d)) :
    ((scaleK L).view.loc (V d (cV L) (jV L)) ↦[(scaleK L).view.set]{fullShare} f : sProp 𝕄) = scaleLoc d ↦[tokChunk (widL L)]{fullShare} f := by
  rw [set_scaleK]

/-! A scratch buffer held whole, in the spellings the body's steps read it by. -/
theorem pts_sT (f : Buf (Elt F) ((V d (cV L) (jV L)).loc cc1_scratch0)) :
    ((sT : Memref sig .scVector .vmem S8192 .f32).view.loc (V d (cV L) (jV L)) ↦[(sT : Memref sig .scVector .vmem S8192 .f32).view.set]{fullShare} f : sProp 𝕄)
      = (V d (cV L) (jV L)).loc cc1_scratch0 ↦{fullShare} f := by
  simp only [Memref.view_whole, View.set_whole]
theorem pts_sS (f : Buf (Elt F) ((V d (cV L) (jV L)).loc cc1_scratch1)) :
    ((sS : Memref sig .scVector .vmem S512 .i32).view.loc (V d (cV L) (jV L)) ↦[(sS : Memref sig .scVector .vmem S512 .i32).view.set]{fullShare} f : sProp 𝕄)
      = (V d (cV L) (jV L)).loc cc1_scratch1 ↦{fullShare} f := by
  simp only [Memref.view_whole, View.set_whole]
theorem pts_sM (f : Buf (Elt F) ((V d (cV L) (jV L)).loc cc1_scratch2)) :
    ((sM : Memref sig .scVector .vmem S512 .f32).view.loc (V d (cV L) (jV L)) ↦[(sM : Memref sig .scVector .vmem S512 .f32).view.set]{fullShare} f : sProp 𝕄)
      = (V d (cV L) (jV L)).loc cc1_scratch2 ↦{fullShare} f := by
  simp only [Memref.view_whole, View.set_whole]
theorem pts_sC (f : Buf (Elt F) ((V d (cV L) (jV L)).loc cc1_scratch3)) :
    ((sC : Memref sig .scVector .vmem S512 .f32).view.loc (V d (cV L) (jV L)) ↦[(sC : Memref sig .scVector .vmem S512 .f32).view.set]{fullShare} f : sProp 𝕄)
      = (V d (cV L) (jV L)).loc cc1_scratch3 ↦{fullShare} f := by
  simp only [Memref.view_whole, View.set_whole]
theorem pts_sT_access (f : Buf (Elt F) ((V d (cV L) (jV L)).loc cc1_scratch0)) :
    (((sT : Memref sig .scVector .vmem S8192 .f32).access (.whole S8192)).loc (V d (cV L) (jV L)) ↦{fullShare} f : sProp 𝕄) = (V d (cV L) (jV L)).loc cc1_scratch0 ↦{fullShare} f := rfl

/-! ## The subcore's own semaphores and buffers: the kernel's four of each, and the rest -/

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)
abbrev cell3 (d : Dev nD) (c : Fin τ.nSC) (i : Fin τ.nSub) : GSem nD τ sig := (V d c i, .dma cc1_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc1_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc1_scoped3.sem : SemLoc sig).isScoped .scVector = true; decide⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

end Tile

end Cert.Kernel.SC

end
-- ==== Proof.BValD.lean ====
/-
  The routing stage's index arithmetic. In trip k of its loop a worker handles sixteen tokens, lanes l = 0 … 15: local row
  16·k + l of its chunk. With the row's source id s (at most 7) it reads the flat table at (16·k + l)·16 + 2·s for the mean
  and one further for the scale. All of this is 32-bit word arithmetic far below 2^32, so nothing wraps.
-/
import proofs.«211727_g52312701665785_cont_9to1_m_854_46_alg».proof.Proof.BKForm
import proofs.«211727_g52312701665785_cont_9to1_m_854_46_alg».proof.Proof.Spec
import Idealize.ShloMosaic.Lib.Pipeline.Value
import Idealize.ShloMosaic.Lib.ValueLayout

noncomputable section

namespace Cert.KValB

open Idealize.ShloMosaic Idealize.ShloMosaic.ValueIdx Cert.Kernel Cert.Kernel.Gen
open scoped BigOperators

variable {F : FTy → Type} [FloatOps F] [Cert.Kernel.Facts]

/-- The loop has at most 32 trips. -/
theorem trip_lt (k : Fin k1_t1_loop.trips) : k.val < 32 := by
  have h1 := k.isLt
  have h2 : k1_t1_loop.trips ≤ 32 := k1_t1_abs.2.1
  omega

/-- The word arithmetic of the first index, on one lane: nothing wraps. -/
theorem idx_word (k l : Nat) (s : BitVec 32) (hk : k < 32) (hl : l < 16) (hs : s.toNat ≤ 7) :
    (IntOp.addi (IntOp.muli (IntOp.addi (BitVec.ofNat 32 l) (Scalar.muli (Scf.iv 0#32 1#32 k) 16#32)) 16#32)
      (IntOp.muli 2#32 s)).toNat = (16 * k + l) * 16 + 2 * s.toNat := by
  simp only [IntOp.addi, IntOp.muli, Scalar.muli, Scf.iv, BitVec.toNat_add, BitVec.toNat_mul, BitVec.toNat_ofNat]
  omega

theorem idx1_val (k : Fin k1_t1_loop.trips) (v12 : Vec F S16 .i32) (l : Fin 16) (h : (v12 (ix1 l)).toNat ≤ 7) :
    (k1_pay1 (F := F) k v12 (ix1 l)).toNat = (16 * k.val + l.val) * 16 + 2 * (v12 (ix1 l)).toNat := by
  have hi : iota .scVector S16 32 [0] iota_S16_d0_w32_scVector (ix1 l) = BitVec.ofNat 32 l.val :=
    (iota_single_apply .scVector S16 32 0 iota_S16_d0_w32_scVector (ix1 l))
  show (IntOp.addi (IntOp.muli (IntOp.addi (iota .scVector S16 32 [0] iota_S16_d0_w32_scVector (ix1 l))
      (Scalar.muli (Scf.iv 0#32 1#32 k.val) 16#32)) 16#32) (IntOp.muli 2#32 (v12 (ix1 l)))).toNat = _
  rw [hi]
  exact idx_word k.val l.val (v12 (ix1 l)) (trip_lt k) l.isLt h

theorem idx2_val (k : Fin k1_t1_loop.trips) (v12 : Vec F S16 .i32) (l : Fin 16) (h : (v12 (ix1 l)).toNat ≤ 7) :
    (k1_pay2 (k1_pay1 (F := F) k v12) (ix1 l)).toNat = (16 * k.val + l.val) * 16 + 2 * (v12 (ix1 l)).toNat + 1 := by
  have h1 := idx1_val k v12 l h
  have hk := trip_lt k
  have hl := l.isLt
  show (IntOp.addi (k1_pay1 (F := F) k v12 (ix1 l)) 1#32).toNat = _
  simp only [IntOp.addi, BitVec.toNat_add, BitVec.toNat_ofNat]
  omega

end Cert.KValB

end
-- ==== Proof.BTileV.lean ====
/-
  What the routing task's scratch buffers hold, as pure statements, and one trip's arithmetic.

  The table scratch and the id scratch hold the task's chunk of the flat table and of the source ids. In trip k, lane l handles row
  r = 16·k + l of the chunk, token n = 512·w + r: with the row's source id s (at most 7) it reads the table scratch at r·16 + 2·s + o,
  which is entry 8192·w + r·16 + 2·s + o = 16·n + 2·s + o of the flat table: the routed entry of token n. After trip k the first
  16·(k+1) entries of a result scratch hold the routed entries of the chunk's first 16·(k+1) tokens.
-/
import proofs.«211727_g52312701665785_cont_9to1_m_854_46_alg».proof.Proof.BTileA
import proofs.«211727_g52312701665785_cont_9to1_m_854_46_alg».proof.Proof.BValD

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-- Rank-one indices with the same coordinate are equal. -/
theorem idx1_ext {n : Nat} {x y : (⟨1, ![n]⟩ : Shape).Idx} (h : (x 0).val = (y 0).val) : x = y := by
  funext a; match a with | ⟨0, _⟩ => exact Fin.ext h

section Tile
variable (L : grid1.Coords)

/-- The table scratch holds the task's chunk of the flat table. -/
def TblHolds (flat : FVec F S262144 .f32) (tc : S8192.Idx → Elt F .f32) : Prop := ∀ j, tc j = flat ((rectT L).emb j)
/-- The id scratch holds the task's chunk of the source ids. -/
def SidHolds (sid : IVec S16384 32) (sc : S512.Idx → BitVec 32) : Prop := ∀ j, sc j = sid ((rectK L).emb j)
/-- Entries below 16·k of a result scratch hold the routed entries (output o) of the chunk's tokens. -/
def Done (flat : FVec F S262144 .f32) (sid : IVec S16384 32) (o : Fin 2) (k : Nat) (fm : S512.Idx → Elt F .f32) : Prop :=
  ∀ j : S512.Idx, (j 0).val < 16 * k → fm j = KForm.Groute o flat sid ((rectK L).emb j)

/-- The sixteen entries trip k reads of the id scratch, and writes of the two result scratches. -/
abbrev rect3 (k : Fin k1_t1_loop.trips) : Rect S512 := Rect.unit (s := S512) (k1_off3 k) S16.size (k1_off3_inb k)
abbrev rect4 (k : Fin k1_t1_loop.trips) : Rect S512 := Rect.unit (s := S512) (k1_off4 k) S16.size (k1_off4_inb k)
abbrev rect5 (k : Fin k1_t1_loop.trips) : Rect S512 := Rect.unit (s := S512) (k1_off5 k) S16.size (k1_off5_inb k)

theorem embT_val (j : S8192.Idx) : (((rectT L).emb j) 0).val = 16384 * (L 1).val + 8192 * (L 0).val + (j 0).val := by
  simp [Rect.emb_apply, k1_off1_eq]
theorem embK_val (j : S512.Idx) : (((rectK L).emb j) 0).val = 1024 * (L 1).val + 512 * (L 0).val + (j 0).val := by
  simp [Rect.emb_apply, k1_off2_eq]
theorem emb3_val (k : Fin k1_t1_loop.trips) (x : S16.Idx) : (((rect3 k).emb x) 0).val = 16 * k.val + (x 0).val := by
  simp [Rect.emb_apply, k1_off3_eq]
theorem emb4_val (k : Fin k1_t1_loop.trips) (x : S16.Idx) : (((rect4 k).emb x) 0).val = 16 * k.val + (x 0).val := by
  simp [Rect.emb_apply, k1_off4_eq]
theorem emb5_val (k : Fin k1_t1_loop.trips) (x : S16.Idx) : (((rect5 k).emb x) 0).val = 16 * k.val + (x 0).val := by
  simp [Rect.emb_apply, k1_off5_eq]
theorem emb34 (k : Fin k1_t1_loop.trips) (x : S16.Idx) : (rect4 k).emb x = (rect3 k).emb x :=
  idx1_ext (by rw [emb3_val, emb4_val])
theorem emb35 (k : Fin k1_t1_loop.trips) (x : S16.Idx) : (rect5 k).emb x = (rect3 k).emb x :=
  idx1_ext (by rw [emb3_val, emb5_val])

variable {L}

/-- What a load of the id scratch's trip-k entries reads: the source ids of the chunk's rows 16·k … 16·k + 15. -/
theorem sid_read {sid : IVec S16384 32} {sc : S512.Idx → BitVec 32} (hsc : SidHolds L sid sc) (k : Fin k1_t1_loop.trips) (x : S16.Idx) :
    (sS : Memref sig .scVector .vmem S512 .i32).view.readAt (Elt F) (rect3 k).toLoadRect sc x = sid ((rectK L).emb ((rect3 k).emb x)) := by
  rw [View.readAt_apply]
  simp only [Memref.view_whole, View.read_whole]
  exact hsc _

/-- What the indexed load reads of the whole table scratch is what the scratch holds. -/
theorem tbl_read {flat : FVec F S262144 .f32} {tc : S8192.Idx → Elt F .f32} (htc : TblHolds L flat tc) :
    TblHolds L flat ((sT : Memref sig .scVector .vmem S8192 .f32).view.readAt (Elt F) (LoadRect.whole S8192) tc) := by
  intro j
  rw [View.readAt_apply]
  simp only [Memref.view_whole, View.read_whole]
  rw [show (LoadRect.whole S8192).idx j = j from Rect.emb_whole_apply S8192 j]
  exact htc j

/-- The gather at indices r·16 + 2·s + o (r the trip's rows, s their source ids) reads the routed entries of the trip's tokens. -/
theorem gather_val {flat : FVec F S262144 .f32} {sid : IVec S16384 32} (hsid : ∀ j, (sid j).toNat ≤ 7) (o : Fin 2)
    {tr : S8192.Idx → Elt F .f32} (htr : TblHolds L flat tr) (k : Fin k1_t1_loop.trips)
    (idx : IVec S16 32) (h : ∀ a x, ((![idx] : Fin 1 → IVec S16 32) a x).toNat < S8192.size a)
    (hidx : ∀ l : Fin 16, (idx (ix1 l)).toNat = (16 * k.val + l.val) * 16 + 2 * (sid ((rectK L).emb ((rect3 k).emb (ix1 l)))).toNat + o.val)
    (x : S16.Idx) :
    loadIdx (F := F) tr ![idx] h x = KForm.Groute o flat sid ((rectK L).emb ((rect3 k).emb x)) := by
  rw [eq_ix1 x]
  show tr (idxAt ![idx] h (ix1 (x 0))) = flat (ix1 (KForm.flatIdx _ _ o))
  rw [htr]
  congr 1
  apply idx1_ext
  rw [embT_val]
  have h1 := hidx (x 0)
  have h2 := hsid ((rectK L).emb ((rect3 k).emb (ix1 (x 0))))
  have h3 := embK_val L ((rect3 k).emb (ix1 (x 0)))
  have h4 := emb3_val k (ix1 (x 0))
  show _ + (idx (ix1 (x 0))).toNat = 16 * (((rectK L).emb ((rect3 k).emb (ix1 (x 0)))) 0).val + 2 * ((sid ((rectK L).emb ((rect3 k).emb (ix1 (x 0))))).toNat % 8) + o.val
  rw [h1, h3, h4]
  show _ = 16 * (1024 * (L 1).val + 512 * (L 0).val + (16 * k.val + (x 0).val)) + _ + _
  omega

/-- The first gather's indices are inside the table scratch: (16·k + l)·16 + 2·s ≤ 511·16 + 14. -/
theorem chk1_of (k : Fin k1_t1_loop.trips) (v12 : Vec F S16 .i32) (h : ∀ l : Fin 16, (v12 (ix1 l)).toNat ≤ 7) : k1_chk1 (k1_pay1 (F := F) k v12) := by
  intro a x
  obtain rfl : a = 0 := Subsingleton.elim _ _
  rw [eq_ix1 x]
  show (k1_pay1 (F := F) k v12 (ix1 (x 0))).toNat < 8192
  rw [Cert.KValB.idx1_val k v12 (x 0) (h _)]
  have h1 := Cert.KValB.trip_lt k
  have h2 := h (x 0)
  have h3 : (x 0).val < 16 := (x 0).isLt
  omega
/-- The second gather's, one further. -/
theorem chk2_of (k : Fin k1_t1_loop.trips) (v12 : Vec F S16 .i32) (h : ∀ l : Fin 16, (v12 (ix1 l)).toNat ≤ 7) : k1_chk2 (k1_pay2 (k1_pay1 (F := F) k v12)) := by
  intro a x
  obtain rfl : a = 0 := Subsingleton.elim _ _
  rw [eq_ix1 x]
  show (k1_pay2 (k1_pay1 (F := F) k v12) (ix1 (x 0))).toNat < 8192
  rw [Cert.KValB.idx2_val k v12 (x 0) (h _)]
  have h1 := Cert.KValB.trip_lt k
  have h2 := h (x 0)
  have h3 : (x 0).val < 16 := (x 0).isLt
  omega

/-- The ids a trip loads are at most 7. -/
theorem v12_le {sid : IVec S16384 32} (hsid : ∀ j, (sid j).toNat ≤ 7) {sc : S512.Idx → BitVec 32} (hsc : SidHolds L sid sc) (k : Fin k1_t1_loop.trips) (l : Fin 16) :
    ((sS : Memref sig .scVector .vmem S512 .i32).view.readAt (Elt F) (rect3 k).toLoadRect sc (ix1 l)).toNat ≤ 7 := by
  rw [sid_read (F := F) hsc]; exact hsid _

/-- Trip k's first gather reads the routed means of its sixteen tokens. -/
theorem trip_val0 {flat : FVec F S262144 .f32} {sid : IVec S16384 32} (hsid : ∀ j, (sid j).toNat ≤ 7)
    {tr : S8192.Idx → Elt F .f32} (htr : TblHolds L flat tr) {sc : S512.Idx → BitVec 32} (hsc : SidHolds L sid sc) (k : Fin k1_t1_loop.trips)
    (h : ∀ a x, ((![k1_pay1 (F := F) k ((sS : Memref sig .scVector .vmem S512 .i32).view.readAt (Elt F) (rect3 k).toLoadRect sc)] : Fin 1 → IVec S16 32) a x).toNat < S8192.size a)
    (x : S16.Idx) :
    loadIdx (F := F) tr ![k1_pay1 (F := F) k ((sS : Memref sig .scVector .vmem S512 .i32).view.readAt (Elt F) (rect3 k).toLoadRect sc)] h x
      = KForm.Groute 0 flat sid ((rectK L).emb ((rect4 k).emb x)) := by
  rw [emb34]
  refine gather_val hsid 0 htr k _ h (fun l => ?_) x
  rw [Cert.KValB.idx1_val k _ l (v12_le (F := F) hsid hsc k l), sid_read (F := F) hsc]; rfl
/-- Its second gather reads their routed scales. -/
theorem trip_val1 {flat : FVec F S262144 .f32} {sid : IVec S16384 32} (hsid : ∀ j, (sid j).toNat ≤ 7)
    {tr : S8192.Idx → Elt F .f32} (htr : TblHolds L flat tr) {sc : S512.Idx → BitVec 32} (hsc : SidHolds L sid sc) (k : Fin k1_t1_loop.trips)
    (h : ∀ a x, ((![k1_pay2 (k1_pay1 (F := F) k ((sS : Memref sig .scVector .vmem S512 .i32).view.readAt (Elt F) (rect3 k).toLoadRect sc))] : Fin 1 → IVec S16 32) a x).toNat < S8192.size a)
    (x : S16.Idx) :
    loadIdx (F := F) tr ![k1_pay2 (k1_pay1 (F := F) k ((sS : Memref sig .scVector .vmem S512 .i32).view.readAt (Elt F) (rect3 k).toLoadRect sc))] h x
      = KForm.Groute 1 flat sid ((rectK L).emb ((rect5 k).emb x)) := by
  rw [emb35]
  refine gather_val hsid 1 htr k _ h (fun l => ?_) x
  rw [Cert.KValB.idx2_val k _ l (v12_le (F := F) hsid hsc k l), sid_read (F := F) hsc]; rfl

/-! ## The result scratches across a trip, and at the loop's two ends -/

theorem mem4 (k : Fin k1_t1_loop.trips) (j : S512.Idx) : j ∈ (rect4 k).set ↔ 16 * k.val ≤ (j 0).val ∧ (j 0).val < 16 * k.val + 16 := by
  rw [Rect.mem_set_unit, k1_off4_eq]
  constructor
  · intro h; simpa using h 0
  · intro h a; obtain rfl : a = 0 := Subsingleton.elim _ _; simpa using h
theorem mem5 (k : Fin k1_t1_loop.trips) (j : S512.Idx) : j ∈ (rect5 k).set ↔ 16 * k.val ≤ (j 0).val ∧ (j 0).val < 16 * k.val + 16 := by
  rw [Rect.mem_set_unit, k1_off5_eq]
  constructor
  · intro h; simpa using h 0
  · intro h a; obtain rfl : a = 0 := Subsingleton.elim _ _; simpa using h

/-- A store of the trip's sixteen routed entries at rows 16·k … 16·k + 15 extends the done rows by sixteen. -/
theorem done_step {flat : FVec F S262144 .f32} {sid : IVec S16384 32} (o : Fin 2) (k : Fin k1_t1_loop.trips) (r : Rect S512)
    (hmem : ∀ j : S512.Idx, j ∈ r.set ↔ 16 * k.val ≤ (j 0).val ∧ (j 0).val < 16 * k.val + 16)
    {fm g' : S512.Idx → Elt F .f32} (hfm : Done L flat sid o k.val fm) (w : r.shape.Idx → Elt F .f32)
    (hw : ∀ x, w x = KForm.Groute o flat sid ((rectK L).emb (r.emb x)))
    (hout : ∀ j, j ∉ r.set → g' j = fm j) (hin : ∀ x, g' (r.emb x) = w x) : Done L flat sid o (k.val + 1) g' := by
  intro j hj
  by_cases hm : j ∈ r.set
  · obtain ⟨x, rfl⟩ := r.exists_idx_of_mem hm
    exact (hin x).trans (hw x)
  · rw [hout j hm]
    apply hfm
    have := (hmem j).not.mp hm
    omega

theorem done_stepM {flat : FVec F S262144 .f32} {sid : IVec S16384 32} (k : Fin k1_t1_loop.trips) {fm : S512.Idx → Elt F .f32}
    (hfm : Done L flat sid 0 k.val fm) (w : S16.Idx → Elt F .f32) (hw : ∀ x, w x = KForm.Groute 0 flat sid ((rectK L).emb ((rect4 k).emb x))) :
    Done L flat sid 0 (k.val + 1) ((sM : Memref sig .scVector .vmem S512 .f32).view.writes (Elt F) fm [⟨rect4 k, w⟩]) :=
  done_step 0 k (rect4 k) (mem4 k) hfm w hw
    (fun j hj => View.read_writes_apply_of_forall_not_mem (sM : Memref sig .scVector .vmem S512 .f32).view fm j [⟨rect4 k, w⟩] (by simpa using hj))
    (fun x => View.read_writes_cons_emb (sM : Memref sig .scVector .vmem S512 .f32).view fm (rect4 k) w [] x)
theorem done_stepC {flat : FVec F S262144 .f32} {sid : IVec S16384 32} (k : Fin k1_t1_loop.trips) {fc : S512.Idx → Elt F .f32}
    (hfc : Done L flat sid 1 k.val fc) (w : S16.Idx → Elt F .f32) (hw : ∀ x, w x = KForm.Groute 1 flat sid ((rectK L).emb ((rect5 k).emb x))) :
    Done L flat sid 1 (k.val + 1) ((sC : Memref sig .scVector .vmem S512 .f32).view.writes (Elt F) fc [⟨rect5 k, w⟩]) :=
  done_step 1 k (rect5 k) (mem5 k) hfc w hw
    (fun j hj => View.read_writes_apply_of_forall_not_mem (sC : Memref sig .scVector .vmem S512 .f32).view fc j [⟨rect5 k, w⟩] (by simpa using hj))
    (fun x => View.read_writes_cons_emb (sC : Memref sig .scVector .vmem S512 .f32).view fc (rect5 k) w [] x)

/-- Before the first trip nothing is asked of the result scratches. -/
theorem done_zero {flat : FVec F S262144 .f32} {sid : IVec S16384 32} (o : Fin 2) (fm : S512.Idx → Elt F .f32) : Done L flat sid o 0 fm :=
  fun j hj => absurd hj (by omega)
theorem trips_eq : k1_t1_loop.trips = 32 := by decide
/-- After the last trip a result scratch holds the routed entries of the whole chunk. -/
theorem done_all {flat : FVec F S262144 .f32} {sid : IVec S16384 32} {o : Fin 2} {fm : S512.Idx → Elt F .f32} (h : Done L flat sid o k1_t1_loop.trips fm)
    (j : S512.Idx) : fm j = KForm.Groute o flat sid ((rectK L).emb j) := by
  apply h
  rw [trips_eq]
  have : (j 0).val < 512 := (j 0).isLt
  omega

end Tile
end Cert.Kernel.SC
end
-- ==== Proof.BTileR.lean ====
/-
  The routing task's loop: its invariant and one trip.

  Before trip k the table scratch and the id scratch hold the task's chunk of the flat table and of the source ids, and the first 16·k
  entries of the two result scratches hold the routed means and scales of the chunk's first 16·k tokens. A trip loads sixteen source
  ids, gathers the table scratch at rows·16 + 2·id and one further, and stores the two gathered vectors at entries 16·k … 16·k + 15 of
  the result scratches: the indexed loads are loads of the whole table scratch, and what they read is the routed entries by the trip's
  arithmetic.
-/
import proofs.«211727_g52312701665785_cont_9to1_m_854_46_alg».proof.Proof.BTileV

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

/-- The loop's invariant before trip k. -/
def inv (flat : FVec F S262144 .f32) (sid : IVec S16384 32) (k : Nat) (_ : PUnit) : sProp 𝕄 :=
  iprop((∃ tc, ⌜TblHolds L flat tc⌝ ∗ (sT : Memref sig .scVector .vmem S8192 .f32).view.loc (V d (cV L) (jV L)) ↦[(sT : Memref sig .scVector .vmem S8192 .f32).view.set]{fullShare} tc)
    ∗ (∃ sc, ⌜SidHolds L sid sc⌝ ∗ (sS : Memref sig .scVector .vmem S512 .i32).view.loc (V d (cV L) (jV L)) ↦[(sS : Memref sig .scVector .vmem S512 .i32).view.set]{fullShare} sc)
    ∗ (∃ fm, ⌜Done L flat sid 0 k fm⌝ ∗ (sM : Memref sig .scVector .vmem S512 .f32).view.loc (V d (cV L) (jV L)) ↦[(sM : Memref sig .scVector .vmem S512 .f32).view.set]{fullShare} fm)
    ∗ (∃ fc, ⌜Done L flat sid 1 k fc⌝ ∗ (sC : Memref sig .scVector .vmem S512 .f32).view.loc (V d (cV L) (jV L)) ↦[(sC : Memref sig .scVector .vmem S512 .f32).view.set]{fullShare} fc))

/-- One trip, from the invariant at k to the invariant at k + 1. -/
theorem tile_region (flat : FVec F S262144 .f32) (sid : IVec S16384 32) (hsid : ∀ j, (sid j).toNat ≤ 7) (k : Fin k1_t1_loop.trips) (u : PUnit) :
    inv (F := F) d L flat sid k.val u ⊢ wp frame (wpE (defs₀ (F := F)) 𝒱₀ (V d (cV L) (jV L)) none) Set.univ
      (k1_t1_body L tblW (Memref.isWhole_whole _) sidW (Memref.isWhole_whole _) meanW (Memref.isWhole_whole _) scaleW (Memref.isWhole_whole _)
            sT (Memref.isWhole_whole _) sS (Memref.isWhole_whole _) sM (Memref.isWhole_whole _) sC (Memref.isWhole_whole _) cc1_scoped0 cc1_scoped1 cc1_scoped2 cc1_scoped3 k u)
      (inv (F := F) d L flat sid (k.val + 1)) := by
  unfold k1_t1_body inv
  iintro ⟨⟨%tc, %htc, HT⟩, ⟨%sc, %hsc, HS⟩, ⟨%fm, %hfm, HM⟩, ⟨%fc, %hfc, HC⟩⟩
  -- the ids loaded; the first gather's indices in range; the gather is a load of the whole table scratch
  sl_exec (disch := exact chk1_of k _ (v12_le (F := F) hsid hsc k))
  rw [SparseCore.vectorLoadIdx_bind (d, Proc.scVector (cV L) (jV L))]
  -- the means stored; the second gather's indices in range; the second gather
  sl_exec (disch := exact chk2_of k _ (v12_le (F := F) hsid hsc k))
  rw [SparseCore.vectorLoadIdx_bind (d, Proc.scVector (cV L) (jV L))]
  sl_exec
  sl_step
  isplitl [HT]
  · iexists _; isplitr; swap
    · iexact HT
    · ipureintro; exact htc
  isplitl [HS]
  · iexists _; isplitr; swap
    · iexact HS
    · ipureintro; exact hsc
  isplitl [HM]
  · iexists _; isplitr; swap
    · iexact HM
    · ipureintro; exact done_stepM k hfm _ (trip_val0 hsid (tbl_read htc) hsc k _)
  · iexists _; isplitr; swap
    · iexact HC
    · ipureintro; exact done_stepC k hfc _ (trip_val1 hsid (tbl_read htc) hsc k _)

end Tile
end Cert.Kernel.SC
end
-- ==== Proof.BTileW.lean ====
/-
  The routing task's copies: what the two copies in leave in the table scratch and the id scratch, and what the two copies out leave
  on the task's chunk of the result arrays.
-/
import proofs.«211727_g52312701665785_cont_9to1_m_854_46_alg».proof.Proof.BTileV

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (L : grid1.Coords)

/-- A copy of the chunk into the whole table scratch leaves it holding the chunk. -/
theorem tbl_init (flat : FVec F S262144 .f32) (g : S8192.Idx → Elt F .f32) (w : S8192.Idx → Elt F .f32)
    (hw : ∀ j, w j = flat ((rectT L).emb j)) :
    TblHolds L flat ((sT : Memref sig .scVector .vmem S8192 .f32).view.writes (Elt F) g [⟨Rect.whole S8192, w⟩]) := by
  intro j
  have h := View.read_writes_cons_emb (Val := Elt F) (sT : Memref sig .scVector .vmem S8192 .f32).view g (Rect.whole S8192) w [] j
  have e : (Rect.whole S8192).emb j = j := Rect.emb_whole_apply S8192 j
  have hr : ∀ g' : S8192.Idx → Elt F .f32, (sT : Memref sig .scVector .vmem S8192 .f32).view.read (Elt F) g' = g' := fun _ => rfl
  rw [e, hr] at h
  exact h.trans (hw j)
/-- The same for the id chunk and the id scratch. -/
theorem sid_init (sid : IVec S16384 32) (g : S512.Idx → BitVec 32) (w : S512.Idx → BitVec 32)
    (hw : ∀ j, w j = sid ((rectK L).emb j)) :
    SidHolds L sid ((sS : Memref sig .scVector .vmem S512 .i32).view.writes (Elt F) g [⟨Rect.whole S512, w⟩]) := by
  intro j
  have h := View.read_writes_cons_emb (Val := Elt F) (sS : Memref sig .scVector .vmem S512 .i32).view g (Rect.whole S512) w [] j
  have e : (Rect.whole S512).emb j = j := Rect.emb_whole_apply S512 j
  have hr : ∀ g' : S512.Idx → BitVec 32, (sS : Memref sig .scVector .vmem S512 .i32).view.read (Elt F) g' = g' := fun _ => rfl
  rw [e, hr] at h
  exact h.trans (hw j)

/-- What the task's table slice reads of the flat table, and its id slice of the source ids. -/
theorem tblK_read (flat : FVec F S262144 .f32) (j : S8192.Idx) : (tblK L).view.read (Elt F) flat j = flat ((rectT L).emb j) :=
  (View.read_apply _ _).trans (cast_eq _ _)
theorem sidK_read (sid : IVec S16384 32) (j : S512.Idx) : (sidK L).view.read (Elt F) sid j = sid ((rectK L).emb j) :=
  (View.read_apply _ _).trans (cast_eq _ _)

/-- The copies in, at the payloads the transfers carry: what the slices read. -/
theorem tbl_init' (flat : FVec F S262144 .f32) (g : S8192.Idx → Elt F .f32) :
    TblHolds L flat ((sT : Memref sig .scVector .vmem S8192 .f32).view.writes (Elt F) g
      [⟨Rect.whole S8192, ReadAs.same.apply ((tblK L).view.read (Elt F) flat)⟩]) :=
  tbl_init L flat g _ (tblK_read L flat)
theorem sid_init' (sid : IVec S16384 32) (g : S512.Idx → BitVec 32) :
    SidHolds L sid ((sS : Memref sig .scVector .vmem S512 .i32).view.writes (Elt F) g
      [⟨Rect.whole S512, ReadAs.same.apply ((sidK L).view.read (Elt F) sid)⟩]) :=
  sid_init (F := F) L sid g _ (sidK_read (F := F) L sid)

variable {L}

/-- A copy of a result scratch holding the chunk's routed entries onto the task's slice of the result array leaves that slice at the
    routed entries of every token of the chunk: on the slice, the array agrees with the whole-array function. -/
theorem out_valM {flat : FVec F S262144 .f32} {sid : IVec S16384 32} (f0 : FVec F S16384 .f32) (w : S512.Idx → Elt F .f32)
    (hw : ∀ x, w x = KForm.Groute 0 flat sid ((rectK L).emb x)) :
    ∀ i ∈ (meanK L).view.set, (meanK L).view.writes (Elt F) f0 [⟨Rect.whole S512, w⟩] i = KForm.Groute 0 flat sid i := by
  intro i hi
  obtain ⟨x, -, rfl⟩ := Finset.mem_map.mp hi
  have h := View.read_writes_cons_emb (Val := Elt F) (meanK L).view f0 (Rect.whole S512) w [] x
  have e : (Rect.whole S512).emb x = x := Rect.emb_whole_apply S512 x
  rw [e, View.read_apply] at h
  exact (cast_eq _ _).symm.trans (h.trans (hw x))
theorem out_valC {flat : FVec F S262144 .f32} {sid : IVec S16384 32} (f1 : FVec F S16384 .f32) (w : S512.Idx → Elt F .f32)
    (hw : ∀ x, w x = KForm.Groute 1 flat sid ((rectK L).emb x)) :
    ∀ i ∈ (scaleK L).view.set, (scaleK L).view.writes (Elt F) f1 [⟨Rect.whole S512, w⟩] i = KForm.Groute 1 flat sid i := by
  intro i hi
  obtain ⟨x, -, rfl⟩ := Finset.mem_map.mp hi
  have h := View.read_writes_cons_emb (Val := Elt F) (scaleK L).view f1 (Rect.whole S512) w [] x
  have e : (Rect.whole S512).emb x = x := Rect.emb_whole_apply S512 x
  rw [e, View.read_apply] at h
  exact (cast_eq _ _).symm.trans (h.trans (hw x))

/-- The copies out, at the payloads the transfers carry: what the whole result scratches read after the last trip. -/
theorem out_valM' {flat : FVec F S262144 .f32} {sid : IVec S16384 32} (f0 : FVec F S16384 .f32) {fm : S512.Idx → Elt F .f32}
    (hfm : Done L flat sid 0 k1_t1_loop.trips fm) :
    ∀ i ∈ (meanK L).view.set, (meanK L).view.writes (Elt F) f0
      [⟨Rect.whole S512, ReadAs.same.apply ((sM : Memref sig .scVector .vmem S512 .f32).view.read (Elt F) fm)⟩] i = KForm.Groute 0 flat sid i :=
  out_valM f0 _ (fun x => done_all hfm x)
theorem out_valC' {flat : FVec F S262144 .f32} {sid : IVec S16384 32} (f1 : FVec F S16384 .f32) {fc : S512.Idx → Elt F .f32}
    (hfc : Done L flat sid 1 k1_t1_loop.trips fc) :
    ∀ i ∈ (scaleK L).view.set, (scaleK L).view.writes (Elt F) f1
      [⟨Rect.whole S512, ReadAs.same.apply ((sC : Memref sig .scVector .vmem S512 .f32).view.read (Elt F) fc)⟩] i = KForm.Groute 1 flat sid i :=
  out_valC f1 _ (fun x => done_all hfc x)

end Tile
end Cert.Kernel.SC
end
-- ==== Proof.BTile.lean ====
/-
  The routing task's body obligation.

  The task on subcore i of SparseCore c works on chunk w = 2·i + c. It copies its chunk of the flat table (8192 entries) and of the
  source ids (512) into two scratch buffers, runs the loop (32 trips of sixteen tokens: the loop's invariant carries the values), and
  copies the two result scratches onto its chunk of the two result arrays. On the chunk the result arrays then agree with the
  whole-array functions that read, for token n with source id s, entries 16·n + 2·s and 16·n + 2·s + 1 of the flat table.
-/
import proofs.«211727_g52312701665785_cont_9to1_m_854_46_alg».proof.Proof.BTileR
import proofs.«211727_g52312701665785_cont_9to1_m_854_46_alg».proof.Proof.BTileW

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid1.Coords)

/-- The task on vector subcore (L 0, L 1) of device d. -/
theorem tile_body (hF : (K (F := F)).Facts) (flat : FVec F S262144 .f32) (sid : IVec S16384 32) (f0 f1 : FVec F S16384 .f32) (hsid : ∀ j, (sid j).toNat ≤ 7)
    (O : CellTallies nD τ sig (HIx 1)) (W : Waits sig (HIx 1)) (hO : ∀ g, O g none = 0) :
    iprop(levAts (K (F := F)).L (K (F := F)).lev ∗ emp ∗ goRes flat sid f0 f1 d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__route_body L tblW (Memref.isWhole_whole _) sidW (Memref.isWhole_whole _) meanW (Memref.isWhole_whole _) scaleW (Memref.isWhole_whole _)
            sT (Memref.isWhole_whole _) sS (Memref.isWhole_whole _) sM (Memref.isWhole_whole _) sC (Memref.isWhole_whole _) cc1_scoped0 cc1_scoped1 cc1_scoped2 cc1_scoped3)
          fun _ => iprop(tdRes flat sid d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__route_body_eq_skeleton]; unfold cc1__route_body_skel
  rw [(K (F := F)).scopedBufs_V hF d (cV L) (jV L), SparseCore.Cfg.scopedSems0_V (Val := Elt F) d (cV L) (jV L), ownSems0_V, ownBufs_V]
  unfold goRes
  iintro ⟨#Hlv, -, ⟨Hfl, Hsi, Hme, Hsc⟩, ⟨⟨%fT, HT⟩, ⟨%fS, HS⟩, ⟨%fM, HM⟩, ⟨%fC, HC⟩, Hbufs⟩, ⟨Hs0, Hs1, Hs2, Hs3, Hsems⟩, HO⟩
  ihave Hmw := ((K (F := F)).mayWaits_none (thr := V d (cV L) (jV L)) hO) $$ Hlv
  -- the arrays' chunks and the scratch buffers, as the task's memrefs address them
  ihave Hfl' := (Entails.of_eq (pts_tblK (F := F) d L _).symm) $$ Hfl
  ihave Hsi' := (Entails.of_eq (pts_sidK (F := F) d L _).symm) $$ Hsi
  ihave Hme' := (Entails.of_eq (pts_meanK (F := F) d L _).symm) $$ Hme
  ihave Hsc' := (Entails.of_eq (pts_scaleK (F := F) d L _).symm) $$ Hsc
  ihave HT' := (Entails.of_eq (pts_sT (F := F) d L _).symm) $$ HT
  ihave HS' := (Entails.of_eq (pts_sS (F := F) d L _).symm) $$ HS
  ihave HM' := (Entails.of_eq (pts_sM (F := F) d L _).symm) $$ HM
  ihave HC' := (Entails.of_eq (pts_sC (F := F) d L _).symm) $$ HC
  -- the two copies in, each waited for
  sl_exec
  sl_for (inv (F := F) d L flat sid) $$ [HT' HS' HM' HC']
  case region => intro k u; exact tile_region d L flat sid hsid k u
  · unfold inv
    isplitl [HT']
    · iexists _; isplitr; swap
      · iexact HT'
      · ipureintro; exact tbl_init' L flat _
    isplitl [HS']
    · iexists _; isplitr; swap
      · iexact HS'
      · ipureintro; exact sid_init' (F := F) L sid _
    isplitl [HM']
    · iexists _; isplitr; swap
      · iexact HM'
      · ipureintro; exact done_zero 0 _
    · iexists _; isplitr; swap
      · iexact HC'
      · ipureintro; exact done_zero 1 _
  iintro %u HI
  unfold inv
  icases HI with ⟨⟨%tc, %htc, HT⟩, ⟨%sc, %hsc, HS⟩, ⟨%fm, %hfm, HM⟩, ⟨%fc, %hfc, HC⟩⟩
  -- the two copies out, each waited for
  sl_exec
  sl_step
  -- on the chunk the result arrays agree with the whole-array functions
  unfold tdRes
  isplitl [Hfl' Hsi' Hme' Hsc']
  · isplitl [Hfl']; · iapply (Entails.of_eq (pts_tblK (F := F) d L _)); iexact Hfl'
    isplitl [Hsi']; · iapply (Entails.of_eq (pts_sidK (F := F) d L _)); iexact Hsi'
    isplitl [Hme']
    · iapply (Entails.of_eq ((pointsTo_congr (out_valM' (L := L) f0 hfm)).trans (pts_meanK (F := F) d L _))); iexact Hme'
    · iapply (Entails.of_eq ((pointsTo_congr (out_valC' (L := L) f1 hfc)).trans (pts_scaleK (F := F) d L _))); iexact Hsc'
  isplitl [HT HS HM HC Hbufs]
  · isplitl [HT]; · iexists _; iapply (Entails.of_eq (pts_sT (F := F) d L _)); iexact HT
    isplitl [HS]; · iexists _; iapply (Entails.of_eq (pts_sS (F := F) d L _)); iexact HS
    isplitl [HM]; · iexists _; iapply (Entails.of_eq (pts_sM (F := F) d L _)); iexact HM
    isplitl [HC]; · iexists _; iapply (Entails.of_eq (pts_sC (F := F) d L _)); iexact HC
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr; swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__route_body (coordsV c s)
          tblW (Memref.isWhole_whole _) sidW (Memref.isWhole_whole _) meanW (Memref.isWhole_whole _) scaleW (Memref.isWhole_whole _)
          sT (Memref.isWhole_whole _) sS (Memref.isWhole_whole _) sM (Memref.isWhole_whole _) sC (Memref.isWhole_whole _)
          cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The routing call's task obligation: from its chunk of the four arrays to the same with the two result chunks at the routed entries. -/
theorem tileObl (flat : FVec F S262144 .f32) (sid : IVec S16384 32) (f0 f1 : FVec F S16384 .f32) (hsid : ∀ j, (sid j).toNat ≤ 7) :
    (K (F := F)).TileObl (D (F := F)) 𝒱 (P flat sid f0 f1) v₀ 0 := by
  intro d c i O W hO _ _
  -- this kernel owes nothing for a protocol of its own
  simp only [show (P flat sid f0 f1).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) facts flat sid f0 f1 hsid O W hO).trans (wp_mono frame _ _ fun _ => obl_post)

end Cert.Kernel.SC

end
-- ==== Proof.BLaunch.lean ====
/-
  The program's run: every weakly fair execution of the device's 35 threads terminates, nothing faulting, in a memory that
  holds every unscoped buffer the routing call does not touch at the last boundary's contents, the call's inputs as they
  were and its results at the routed table entries — the launch theorem at the routing task's obligation, the operand
  split, the TensorCore's program, the launch element and the reading of the final memory.
-/
import proofs.«211727_g52312701665785_cont_9to1_m_854_46_alg».proof.Proof.BLaunchA
import proofs.«211727_g52312701665785_cont_9to1_m_854_46_alg».proof.Proof.BTile
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

section Run

variable (m : (ℓ : Loc nD τ sig) → Buf (Elt F) ℓ) (ρ : Dev nD → PrngReg)

def QC : PUnit × MemSt nD τ sig (Elt F) → Prop := fun r => ∀ d : Dev nD, fqM m d r.2

theorem run_main [∀ e, Nonempty (Elt F e)] (hsid : ∀ j, ((sidV m) j).toNat ≤ 7) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P0 m) facts v₀
    (fun q hq => match q with | 0 => nomatch hq)
    (fun q _ => match q with | 0 => tileObl (flatV m) (sidV m) (f0V m) (f1V m) hsid)
    (fun q _ => match q with | 0 => SparseCore.Cfg.VecSplit.of_plain (vecSplit (flatV m) (sidV m) (f0V m) (f1V m)))
    m ρ main (Gd (F := F)) (FIN m) (u₀ (F := F)) (sep_elim_left.trans (hu₀ (flatV m) (sidV m) (f0V m) (f1V m))) (hmain m ρ) (fq m) (hfin m) (QC m) (fun _ h => h)

end Run

end Cert.Kernel.SC

end
-- ==== Proof.IClaims.lean ====
/-
  From what the final memory holds to the frame: the buffer contents at each boundary, read at a buffer that the steps in
  between do not write, are the contents one boundary earlier — back to the launch memory for each of the six arguments.
-/
import proofs.«211727_g52312701665785_cont_9to1_m_854_46_alg».proof.Proof.ILaunchA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

section Walk

variable (m : (ℓ : Loc nD τ sig) → Buf (Elt F) ℓ) (d : Dev nD)

/-- The four host operations before the dense stage write only main_v0 … main_v3. -/
theorem Wb_of_ne (r : Ref sig .tc) (h0 : r ≠ main_v0) (h1 : r ≠ main_v1) (h2 : r ≠ main_v2) (h3 : r ≠ main_v3) :
    Wb m d (Proc.devRef .tc r) = m (d, Proc.devRef .tc r) := by
  show (op4 (F := F)).result ((op3 (F := F)).result ((op2 (F := F)).result ((op1 (F := F)).result (Wa m d)))) (Proc.devRef .tc r) = _
  rw [StableHlo.reshape_result_ne' _ _ _ _ _ h3, StableHlo.binary_result_ne' _ _ _ _ _ h2, StableHlo.reshape_result_ne' _ _ _ _ _ h1,
    StableHlo.unary_result_ne' _ _ _ _ h0]

/-- The dense stage leaves a buffer that is none of its eight arrays as it found it. -/
theorem Wc_of_ne (r : Ref sig .tc) (hr : ∀ w, Pipeline.arrRef spec0 w ≠ r) : Wc m d (Proc.devRef .tc r) = Wb m d (Proc.devRef .tc r) :=
  W2_of_ne (Wb m) (Otc (F := F)) (Rtc (F := F)) d r hr
/-- Each of its arrays holds what the pipeline leaves. -/
theorem Wc_arr (w : Fin cfg0.W) :
    Wc m d (Proc.devRef .tc (Pipeline.arrRef spec0 w)) = (dat0 (V1 (Wb m)) (Otc (F := F)) (Rtc (F := F)) d).arrAt w cfg0.N :=
  W2_arr (Wb m) (Otc (F := F)) (Rtc (F := F)) d w
/-- An input array is left as found. -/
theorem Wc_in (w : Fin cfg0.W) (hw : (cfg0.win w).isOut = false) :
    Wc m d (Proc.devRef .tc (Pipeline.arrRef spec0 w)) = Wb m d (Proc.devRef .tc (Pipeline.arrRef spec0 w)) :=
  (Wc_arr m d w).trans (((dat0 (V1 (Wb m)) (Otc (F := F)) (Rtc (F := F)) d).arrAt_in w hw _).trans (A_eq (V1 (Wb m)) (Otc (F := F)) (Rtc (F := F)) d w))

/-- Laying the table out flat writes only main_v5. -/
theorem Wd_of_ne (r : Ref sig .tc) (h : r ≠ main_v5) : Wd m d (Proc.devRef .tc r) = Wc m d (Proc.devRef .tc r) := by
  show (op5 (F := F)).result (Wc m d) (Proc.devRef .tc r) = _
  rw [StableHlo.reshape_result_ne' _ _ _ _ _ h]

theorem notArr (r : Ref sig .tc) (h : r ∉ ({main_arg0, main_v2, main_v3, main_arg3, main_v4_0, main_v4_1, main_v4_2, main_v4_3} : Finset (Ref sig .tc))) :
    ∀ w, Pipeline.arrRef spec0 w ≠ r := by
  intro w e; subst e
  revert h; revert w; decide

end Walk

section Frame

variable (m : (ℓ : Loc nD τ sig) → Buf (Elt F) ℓ)

/-- The arguments end as launched. -/
theorem args_kept (d : Dev nD) (μ : MemSt nD τ sig (Elt F)) (h : fqM m d μ) :
    μ.mem ((d.tc : Thread nD τ).loc main_arg0) = m ((d.tc : Thread nD τ).loc main_arg0)
    ∧ μ.mem ((d.tc : Thread nD τ).loc main_arg1) = m ((d.tc : Thread nD τ).loc main_arg1)
    ∧ μ.mem ((d.tc : Thread nD τ).loc main_arg2) = m ((d.tc : Thread nD τ).loc main_arg2)
    ∧ μ.mem ((d.tc : Thread nD τ).loc main_arg3) = m ((d.tc : Thread nD τ).loc main_arg3)
    ∧ μ.mem ((d.tc : Thread nD τ).loc main_arg4) = m ((d.tc : Thread nD τ).loc main_arg4)
    ∧ μ.mem ((d.tc : Thread nD τ).loc main_arg5) = m ((d.tc : Thread nD τ).loc main_arg5) := by
  obtain rfl : d = d0 := Subsingleton.elim _ _
  obtain ⟨hr, -, hs, -, -⟩ := h
  refine ⟨?_, ?_, ?_, ?_, ?_, ?_⟩
  · exact (hr (Proc.devRef .tc main_arg0) (by decide)).trans ((Wd_of_ne m d0 main_arg0 (by decide)).trans
      ((Wc_in m d0 0 rfl).trans (Wb_of_ne m d0 main_arg0 (by decide) (by decide) (by decide) (by decide))))
  · exact hs.trans ((Wd_of_ne m d0 main_arg1 (by decide)).trans
      ((Wc_of_ne m d0 main_arg1 (notArr main_arg1 (by decide))).trans (Wb_of_ne m d0 main_arg1 (by decide) (by decide) (by decide) (by decide))))
  · exact (hr (Proc.devRef .tc main_arg2) (by decide)).trans ((Wd_of_ne m d0 main_arg2 (by decide)).trans
      ((Wc_of_ne m d0 main_arg2 (notArr main_arg2 (by decide))).trans (Wb_of_ne m d0 main_arg2 (by decide) (by decide) (by decide) (by decide))))
  · exact (hr (Proc.devRef .tc main_arg3) (by decide)).trans ((Wd_of_ne m d0 main_arg3 (by decide)).trans
      ((Wc_in m d0 3 rfl).trans (Wb_of_ne m d0 main_arg3 (by decide) (by decide) (by decide) (by decide))))
  · exact (hr (Proc.devRef .tc main_arg4) (by decide)).trans ((Wd_of_ne m d0 main_arg4 (by decide)).trans
      ((Wc_of_ne m d0 main_arg4 (notArr main_arg4 (by decide))).trans (Wb_of_ne m d0 main_arg4 (by decide) (by decide) (by decide) (by decide))))
  · exact (hr (Proc.devRef .tc main_arg5) (by decide)).trans ((Wd_of_ne m d0 main_arg5 (by decide)).trans
      ((Wc_of_ne m d0 main_arg5 (notArr main_arg5 (by decide))).trans (Wb_of_ne m d0 main_arg5 (by decide) (by decide) (by decide) (by decide))))

/-- The source ids the routing call reads are the launched ones. -/
theorem sidV_eq : sidV m = m ((d0.tc : Thread nD τ).loc main_arg1) :=
  (Wd_of_ne m d0 main_arg1 (by decide)).trans
    ((Wc_of_ne m d0 main_arg1 (notArr main_arg1 (by decide))).trans (Wb_of_ne m d0 main_arg1 (by decide) (by decide) (by decide) (by decide)))

end Frame

end Cert.KernelIdeal.SC

end
-- ==== Proof.BClaims.lean ====
/-
  From what the final memory holds to the frame: the buffer contents at each boundary, read at a buffer that the steps in
  between do not write, are the contents one boundary earlier — back to the launch memory for each of the six arguments.
-/
import proofs.«211727_g52312701665785_cont_9to1_m_854_46_alg».proof.Proof.BLaunchA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable {F : FTy → Type} [FloatOps F]

local notation "𝕄" => MT nD τ sig (HIx 1) (Elt F) ℕ UU ℕ

section Walk

variable (m : (ℓ : Loc nD τ sig) → Buf (Elt F) ℓ) (d : Dev nD)

/-- The four host operations before the dense stage write only main_v0 … main_v3. -/
theorem Wb_of_ne (r : Ref sig .tc) (h0 : r ≠ main_v0) (h1 : r ≠ main_v1) (h2 : r ≠ main_v2) (h3 : r ≠ main_v3) :
    Wb m d (Proc.devRef .tc r) = m (d, Proc.devRef .tc r) := by
  show (op4 (F := F)).result ((op3 (F := F)).result ((op2 (F := F)).result ((op1 (F := F)).result (Wa m d)))) (Proc.devRef .tc r) = _
  rw [StableHlo.reshape_result_ne' _ _ _ _ _ h3, StableHlo.binary_result_ne' _ _ _ _ _ h2, StableHlo.reshape_result_ne' _ _ _ _ _ h1,
    StableHlo.unary_result_ne' _ _ _ _ h0]

/-- The dense stage leaves a buffer that is none of its eight arrays as it found it. -/
theorem Wc_of_ne (r : Ref sig .tc) (hr : ∀ w, Pipeline.arrRef spec0 w ≠ r) : Wc m d (Proc.devRef .tc r) = Wb m d (Proc.devRef .tc r) :=
  W2_of_ne (Wb m) (Otc (F := F)) (Rtc (F := F)) d r hr
/-- Each of its arrays holds what the pipeline leaves. -/
theorem Wc_arr (w : Fin cfg0.W) :
    Wc m d (Proc.devRef .tc (Pipeline.arrRef spec0 w)) = (dat0 (V1 (Wb m)) (Otc (F := F)) (Rtc (F := F)) d).arrAt w cfg0.N :=
  W2_arr (Wb m) (Otc (F := F)) (Rtc (F := F)) d w
/-- An input array is left as found. -/
theorem Wc_in (w : Fin cfg0.W) (hw : (cfg0.win w).isOut = false) :
    Wc m d (Proc.devRef .tc (Pipeline.arrRef spec0 w)) = Wb m d (Proc.devRef .tc (Pipeline.arrRef spec0 w)) :=
  (Wc_arr m d w).trans (((dat0 (V1 (Wb m)) (Otc (F := F)) (Rtc (F := F)) d).arrAt_in w hw _).trans (A_eq (V1 (Wb m)) (Otc (F := F)) (Rtc (F := F)) d w))

/-- Laying the table out flat writes only main_v5. -/
theorem Wd_of_ne (r : Ref sig .tc) (h : r ≠ main_v5) : Wd m d (Proc.devRef .tc r) = Wc m d (Proc.devRef .tc r) := by
  show (op5 (F := F)).result (Wc m d) (Proc.devRef .tc r) = _
  rw [StableHlo.reshape_result_ne' _ _ _ _ _ h]

theorem notArr (r : Ref sig .tc) (h : r ∉ ({main_arg0, main_v2, main_v3, main_arg3, main_v4_0, main_v4_1, main_v4_2, main_v4_3} : Finset (Ref sig .tc))) :
    ∀ w, Pipeline.arrRef spec0 w ≠ r := by
  intro w e; subst e
  revert h; revert w; decide

end Walk

section Frame

variable (m : (ℓ : Loc nD τ sig) → Buf (Elt F) ℓ)

/-- The arguments end as launched. -/
theorem args_kept (d : Dev nD) (μ : MemSt nD τ sig (Elt F)) (h : fqM m d μ) :
    μ.mem ((d.tc : Thread nD τ).loc main_arg0) = m ((d.tc : Thread nD τ).loc main_arg0)
    ∧ μ.mem ((d.tc : Thread nD τ).loc main_arg1) = m ((d.tc : Thread nD τ).loc main_arg1)
    ∧ μ.mem ((d.tc : Thread nD τ).loc main_arg2) = m ((d.tc : Thread nD τ).loc main_arg2)
    ∧ μ.mem ((d.tc : Thread nD τ).loc main_arg3) = m ((d.tc : Thread nD τ).loc main_arg3)
    ∧ μ.mem ((d.tc : Thread nD τ).loc main_arg4) = m ((d.tc : Thread nD τ).loc main_arg4)
    ∧ μ.mem ((d.tc : Thread nD τ).loc main_arg5) = m ((d.tc : Thread nD τ).loc main_arg5) := by
  obtain rfl : d = d0 := Subsingleton.elim _ _
  obtain ⟨hr, -, hs, -, -⟩ := h
  refine ⟨?_, ?_, ?_, ?_, ?_, ?_⟩
  · exact (hr (Proc.devRef .tc main_arg0) (by decide)).trans ((Wd_of_ne m d0 main_arg0 (by decide)).trans
      ((Wc_in m d0 0 rfl).trans (Wb_of_ne m d0 main_arg0 (by decide) (by decide) (by decide) (by decide))))
  · exact hs.trans ((Wd_of_ne m d0 main_arg1 (by decide)).trans
      ((Wc_of_ne m d0 main_arg1 (notArr main_arg1 (by decide))).trans (Wb_of_ne m d0 main_arg1 (by decide) (by decide) (by decide) (by decide))))
  · exact (hr (Proc.devRef .tc main_arg2) (by decide)).trans ((Wd_of_ne m d0 main_arg2 (by decide)).trans
      ((Wc_of_ne m d0 main_arg2 (notArr main_arg2 (by decide))).trans (Wb_of_ne m d0 main_arg2 (by decide) (by decide) (by decide) (by decide))))
  · exact (hr (Proc.devRef .tc main_arg3) (by decide)).trans ((Wd_of_ne m d0 main_arg3 (by decide)).trans
      ((Wc_in m d0 3 rfl).trans (Wb_of_ne m d0 main_arg3 (by decide) (by decide) (by decide) (by decide))))
  · exact (hr (Proc.devRef .tc main_arg4) (by decide)).trans ((Wd_of_ne m d0 main_arg4 (by decide)).trans
      ((Wc_of_ne m d0 main_arg4 (notArr main_arg4 (by decide))).trans (Wb_of_ne m d0 main_arg4 (by decide) (by decide) (by decide) (by decide))))
  · exact (hr (Proc.devRef .tc main_arg5) (by decide)).trans ((Wd_of_ne m d0 main_arg5 (by decide)).trans
      ((Wc_of_ne m d0 main_arg5 (notArr main_arg5 (by decide))).trans (Wb_of_ne m d0 main_arg5 (by decide) (by decide) (by decide) (by decide))))

/-- The source ids the routing call reads are the launched ones. -/
theorem sidV_eq : sidV m = m ((d0.tc : Thread nD τ).loc main_arg1) :=
  (Wd_of_ne m d0 main_arg1 (by decide)).trans
    ((Wc_of_ne m d0 main_arg1 (notArr main_arg1 (by decide))).trans (Wb_of_ne m d0 main_arg1 (by decide) (by decide) (by decide) (by decide)))

end Frame

end Cert.Kernel.SC

end
-- ==== Proof.KValMat.lean ====
/-
  The dense stage's matrix product read at an index: with a zero accumulator, entry (r, c) of the product of a 1024 × 2048
  block of the embedding with the 2048 × 18 widened weights is the sum over d of x[r, d] · w[d, c] — on the extended
  reals no rounding and no order of summation is left in it.
-/
import proofs.«211727_g52312701665785_cont_9to1_m_854_46_alg».proof.Proof.KForm
import proofs.«211727_g52312701665785_cont_9to1_m_854_46_alg».proof.Proof.Spec
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen
open scoped BigOperators

variable [Cert.KernelIdeal.Facts]

theorem lhs_row (i : S1024x18.Idx) (q : dot_S1024x2048_S2048x18_S1024x18_1_0_0_1_n_n.contr.Idx) : (dot_S1024x2048_S2048x18_S1024x18_1_0_0_1_n_n.lhsIdx i q 0).val = (i 0).val := by
  unfold DotDims.lhsIdx
  rw [dif_neg (show ¬(0 : Fin S1024x2048.rank) ∈ dot_S1024x2048_S2048x18_S1024x18_1_0_0_1_n_n.lhsBatch by decide),
    dif_pos (show (0 : Fin S1024x2048.rank) ∈ dot_S1024x2048_S2048x18_S1024x18_1_0_0_1_n_n.lhsNonContracting by decide)]
  rfl
theorem lhs_contr (i : S1024x18.Idx) (q : dot_S1024x2048_S2048x18_S1024x18_1_0_0_1_n_n.contr.Idx) : (dot_S1024x2048_S2048x18_S1024x18_1_0_0_1_n_n.lhsIdx i q 1).val = (q ⟨0, by decide⟩).val :=
  dot_S1024x2048_S2048x18_S1024x18_1_0_0_1_n_n.lhsIdx_val_of_single rfl i q
theorem rhs_contr (i : S1024x18.Idx) (q : dot_S1024x2048_S2048x18_S1024x18_1_0_0_1_n_n.contr.Idx) : (dot_S1024x2048_S2048x18_S1024x18_1_0_0_1_n_n.rhsIdx i q 0).val = (q ⟨0, by decide⟩).val :=
  dot_S1024x2048_S2048x18_S1024x18_1_0_0_1_n_n.rhsIdx_val_of_single rfl i q
theorem rhs_col (i : S1024x18.Idx) (q : dot_S1024x2048_S2048x18_S1024x18_1_0_0_1_n_n.contr.Idx) : (dot_S1024x2048_S2048x18_S1024x18_1_0_0_1_n_n.rhsIdx i q 1).val = (i 1).val := by
  unfold DotDims.rhsIdx
  rw [dif_neg (show ¬(1 : Fin S2048x18.rank) ∈ dot_S1024x2048_S2048x18_S1024x18_1_0_0_1_n_n.rhsBatch by decide),
    dif_pos (show (1 : Fin S2048x18.rank) ∈ dot_S1024x2048_S2048x18_S1024x18_1_0_0_1_n_n.rhsNonContracting by decide)]
  rfl

/-- Entry (r, c) of the block product. -/
theorem pay5_at (x0 : Vec Ideal S1024x2048 .f32) (w : Vec Ideal S2048x18 .f32) (r : Fin 1024) (c : Fin 18) :
    k0_pay5 (F := Ideal) x0 w (ix2 r c) = ∑ d : Fin 2048, x0 (ix2 r d) * w (ix2 d c) := by
  unfold k0_pay5
  simp only [matmul]
  rw [shapeCast_self, Ideal.matmul_constant_zero_apply,
    ← Equiv.sum_comp (contrEquiv1 dot_S1024x2048_S2048x18_S1024x18_1_0_0_1_n_n 2048 rfl rfl).symm]
  refine Finset.sum_congr rfl fun k _ => ?_
  have hk := contrEquiv1_symm_val dot_S1024x2048_S2048x18_S1024x18_1_0_0_1_n_n 2048 rfl rfl k
  have el : dot_S1024x2048_S2048x18_S1024x18_1_0_0_1_n_n.lhsIdx (ix2 r c) ((contrEquiv1 dot_S1024x2048_S2048x18_S1024x18_1_0_0_1_n_n 2048 rfl rfl).symm k) = ix2 r k := funext fun a => Fin.ext (by
    match a with
    | ⟨0, _⟩ => exact lhs_row _ _
    | ⟨1, _⟩ => exact (lhs_contr _ _).trans hk)
  have er : dot_S1024x2048_S2048x18_S1024x18_1_0_0_1_n_n.rhsIdx (ix2 r c) ((contrEquiv1 dot_S1024x2048_S2048x18_S1024x18_1_0_0_1_n_n 2048 rfl rfl).symm k) = ix2 k c := funext fun a => Fin.ext (by
    match a with
    | ⟨0, _⟩ => exact (rhs_contr _ _).trans hk
    | ⟨1, _⟩ => exact rhs_col _ _)
  rw [el, er]

end Cert.KVal

end
-- ==== Proof.KValMask.lean ====
/-
  The dense stage's column mask. It asks "column index mod 2 equals 1" with a signed remainder and the usual correction of
  a negative remainder; on a column index below 16 the remainder is never negative, and the mask bit is set exactly on
  the odd columns.
-/
import proofs.«211727_g52312701665785_cont_9to1_m_854_46_alg».proof.Proof.KForm
import proofs.«211727_g52312701665785_cont_9to1_m_854_46_alg».proof.Proof.Spec
import Idealize.ShloMosaic.Lib.Pipeline.Value
import Idealize.ShloMosaic.Lib.ValueLayout

noncomputable section

namespace Cert.KVal

open Idealize.ShloMosaic Idealize.ShloMosaic.ValueIdx Cert.KernelIdeal Cert.KernelIdeal.Gen
open scoped BigOperators

variable [Cert.KernelIdeal.Facts]

/-- The mask's word arithmetic on one column word: remainder by 2 (the divisor chosen by a select on "2 = 0"), one added back
    where the remainder's sign differs from the divisor's, compared with 1. -/
def oddWord (x : BitVec 32) : BitVec 1 :=
  let v13 : BitVec 32 := Scalar.select (Scalar.cmpi .eq 2#32 0#32) 1#32 2#32
  let v15 : BitVec 32 := IntOp.remsi .vector x v13
  let v17 : BitVec 1 := IntOp.cmpi .ne v15 0#32
  let v19 : BitVec 1 := IntOp.cmpi .slt v15 0#32
  let v20 : BitVec 1 := Scalar.cmpi .slt v13 0#32
  let v23 : BitVec 1 := IntOp.xori v19 v20
  let v24 : BitVec 1 := IntOp.andi v23 v17
  let v26 : BitVec 32 := IntOp.addi v15 v13
  let v27 : BitVec 32 := Scalar.select v24 v26 v15
  IntOp.cmpi .eq v27 1#32

/-- The mask at an index is that arithmetic on the index's column number as a word. -/
theorem pay7_eq (j : S1024x16.Idx) :
    k0_pay7 j = oddWord (iota .tc S1024x16 32 [1] iota_S1024x16_d1_w32 j) := rfl

/-- On a column below 16: the bit is 1 on odd columns and 0 on even ones. -/
theorem oddWord_at : ∀ c : Fin 16, oddWord (BitVec.ofNat 32 c.val) = if c.val % 2 = 1 then 1#1 else 0#1 := by decide

theorem mask_at (r : Fin 1024) (c : Fin 16) : k0_pay7 (ix2 r c) = if c.val % 2 = 1 then 1#1 else 0#1 := by
  rw [pay7_eq, iota_single_apply .tc S1024x16 32 1 iota_S1024x16_d1_w32 (ix2 r c)]
  exact oddWord_at c

theorem mask_even (r : Fin 1024) (s : Fin 8) : k0_pay7 (ix2 r (⟨2 * s.val, by omega⟩ : Fin 16)) = 0#1 := by
  rw [mask_at]
  exact if_neg (by show ¬ (2 * s.val) % 2 = 1; omega)

theorem mask_odd (r : Fin 1024) (s : Fin 8) : k0_pay7 (ix2 r (⟨2 * s.val + 1, by omega⟩ : Fin 16)) = 1#1 := by
  rw [mask_at]
  exact if_pos (by show (2 * s.val + 1) % 2 = 1; omega)

end Cert.KVal

end
-- ==== Proof.KValDense.lean ====
/-
  The dense stage's remaining arithmetic read at an index, over any value of the block product. The two pooled columns
  (16 and 17) get the pooled bias; the pooled mean is column 16, the pooled scale is softplus-with-floor of column 17.
  The sixteen per-source columns get the per-source biases. Softplus-with-floor of v is written by the kernel as
  max(v, 0) + log1p(exp(0 − |v|)) + floor with the two zeros and the floor as float words; the zero word is the number 0.
-/
import proofs.«211727_g52312701665785_cont_9to1_m_854_46_alg».proof.Proof.KForm
import proofs.«211727_g52312701665785_cont_9to1_m_854_46_alg».proof.Proof.Spec
import Idealize.ShloMosaic.Lib.Pipeline.Value
import Idealize.ShloMosaic.Lib.ValueLayout
import Idealize.ShloMosaic.PureOps.Ideal.Laws

noncomputable section

namespace Cert.KVal

open Idealize.ShloMosaic Idealize.ShloMosaic.ValueIdx Cert.KernelIdeal Cert.KernelIdeal.Gen
open scoped BigOperators

variable [Cert.KernelIdeal.Facts]

/-- The kernel's softplus-with-floor of a whole vector, as it writes it. -/
def spv {s : Shape} (z : FVec Ideal s .f32) : FVec Ideal s .f32 :=
  addf (addf (maximumf z (broadcast s (Scalar.ofBits .f32 0x00000000#32)))
    (log1p (exp (subf (broadcast s (Scalar.ofBits .f32 0x00000000#32)) (absf z)))))
    (broadcast s (Scalar.ofBits .f32 0x3A83126F#32))

/-- At an element it is the specification's function of that element. -/
theorem spv_apply {s : Shape} (z : FVec Ideal s .f32) (i : s.Idx) : spv z i = Cert.Spec.sp (z i) := by
  show max (z i) (Ideal.ofBits .f32 0x00000000#32)
    + Ideal.log1p (Ideal.exp (Ideal.ofBits .f32 0x00000000#32 - max (z i) (-(z i)))) + Ideal.ofBits .f32 0x3A83126F#32 = _
  rw [Ideal.ofBits_zero_f32]
  rfl

/-- The two pooled columns plus the pooled bias: entry (r, o) is the product's entry (r, 16 + o) plus b2[o]. -/
theorem pay2_at (v4 : FVec Ideal S1024x18 .f32) (b2 : Vec Ideal S2 .f32) (r : Fin 1024) (o : Fin 2) (k : Fin 18)
    (hk : k.val = 16 + o.val) : k0_pay2 (F := Ideal) v4 b2 (ix2 r o) = v4 (ix2 r k) + b2 (ix1 o) := by
  unfold k0_pay2
  refine (addf_apply _ _ _).trans ?_
  refine congrArg₂ (· + ·) ?_ ?_
  · exact slice2_axis1_apply 16 v4 slices_S1024x18_o0_16_S1024x2 r o k hk
  · refine (broadcastTo_1b_ab_apply _ broadcasts_S1x2_S1024x2 r o).trans ?_
    exact shapeCast_a_1a_apply b2 shapeCasts_S2_S1x2 (0 : Fin 1) o

/-- A one-column matrix read as a vector. -/
theorem col_as_vec (X : FVec Ideal S1024x1 .f32) (r : Fin 1024) :
    shapeCast S1024 X shapeCasts_S1024x1_S1024 (ix1 r) = X (ix2 r (0 : Fin 1)) :=
  shapeCast_apply X shapeCasts_S1024x1_S1024 (ix1 r) (ix2 r (0 : Fin 1)) (by
    rw [Shape.rowMajor_val_two, Shape.rowMajor_val_one]
    show r.val * 1 + 0 = r.val
    omega)

/-- The pooled mean's payload: column 0 of the biased pooled columns. -/
theorem pay3_at (v4 : FVec Ideal S1024x18 .f32) (b2 : Vec Ideal S2 .f32) (r : Fin 1024) :
    k0_pay3 (F := Ideal) v4 b2 (ix1 r) = k0_pay2 (F := Ideal) v4 b2 (ix2 r (0 : Fin 2)) := by
  unfold k0_pay3
  refine (col_as_vec _ r).trans ?_
  exact slice2_axis1_apply 0 (k0_pay2 (F := Ideal) v4 b2) slices_S1024x2_o0_0_S1024x1 r (0 : Fin 1) (0 : Fin 2) rfl

/-- The pooled scale's payload is the kernel's softplus-with-floor of column 1 of the biased pooled columns. -/
theorem pay4_eq (v4 : FVec Ideal S1024x18 .f32) (b2 : Vec Ideal S2 .f32) :
    k0_pay4 (F := Ideal) v4 b2 = spv (shapeCast S1024
      (extractStridedSlice S1024x1 ![0, 1] (k0_pay2 (F := Ideal) v4 b2) slices_S1024x2_o0_1_S1024x1) shapeCasts_S1024x1_S1024) := rfl

theorem pay4_at (v4 : FVec Ideal S1024x18 .f32) (b2 : Vec Ideal S2 .f32) (r : Fin 1024) :
    k0_pay4 (F := Ideal) v4 b2 (ix1 r) = Cert.Spec.sp (k0_pay2 (F := Ideal) v4 b2 (ix2 r (1 : Fin 2))) := by
  rw [pay4_eq, spv_apply]
  refine congrArg Cert.Spec.sp ?_
  refine (col_as_vec _ r).trans ?_
  exact slice2_axis1_apply 1 (k0_pay2 (F := Ideal) v4 b2) slices_S1024x2_o0_1_S1024x1 r (0 : Fin 1) (1 : Fin 2) rfl

/-- The sixteen per-source columns plus their biases, over any value of the block product. -/
theorem bias16_at (v4 : FVec Ideal S1024x18 .f32) (b16 : Vec Ideal S16 .f32) (r : Fin 1024) (c : Fin 16) (k : Fin 18) (hk : k.val = c.val) :
    addf (extractStridedSlice S1024x16 ![0, 0] v4 slices_S1024x18_o0_0_S1024x16)
      (broadcastTo S1024x16 (shapeCast S1x16 (shapeCast S16 b16 shapeCasts_S16_S16) shapeCasts_S16_S1x16) broadcasts_S1x16_S1024x16) (ix2 r c)
      = v4 (ix2 r k) + b16 (ix1 c) := by
  refine (addf_apply _ _ _).trans ?_
  refine congrArg₂ (· + ·) ?_ ?_
  · exact slice2_axis1_apply 0 v4 slices_S1024x18_o0_0_S1024x16 r c k (by omega)
  · refine (broadcastTo_1b_ab_apply _ broadcasts_S1x16_S1024x16 r c).trans ?_
    refine (shapeCast_a_1a_apply _ shapeCasts_S16_S1x16 (0 : Fin 1) c).trans ?_
    rw [shapeCast_self]

/-- The table's payload before the mask is that of the block product. -/
theorem pay6_eq (x0 : Vec Ideal S1024x2048 .f32) (w : Vec Ideal S2048x18 .f32) (b16 : Vec Ideal S16 .f32) :
    k0_pay6 (F := Ideal) x0 w b16 = addf (extractStridedSlice S1024x16 ![0, 0] (k0_pay5 (F := Ideal) x0 w) slices_S1024x18_o0_0_S1024x16)
      (broadcastTo S1024x16 (shapeCast S1x16 (shapeCast S16 b16 shapeCasts_S16_S16) shapeCasts_S16_S1x16) broadcasts_S1x16_S1024x16) := rfl

/-- The softplus branch of the table is the kernel's softplus-with-floor of the biased columns. -/
theorem pay8_eq (x0 : Vec Ideal S1024x2048 .f32) (w : Vec Ideal S2048x18 .f32) (b16 : Vec Ideal S16 .f32) :
    k0_pay8 (F := Ideal) x0 w b16 = spv (k0_pay6 (F := Ideal) x0 w b16) := rfl

end Cert.KVal

end
-- ==== Proof.KValA.lean ====
/-
  The dense stage's four payloads at an index, from the embedding block, the widened weights and the two bias vectors:
  the pooled mean and scale of row r, and the table's even (mean) and odd (scale) columns.
-/
import proofs.«211727_g52312701665785_cont_9to1_m_854_46_alg».proof.Proof.KValMat
import proofs.«211727_g52312701665785_cont_9to1_m_854_46_alg».proof.Proof.KValMask
import proofs.«211727_g52312701665785_cont_9to1_m_854_46_alg».proof.Proof.KValDense

noncomputable section

namespace Cert.KVal

open Idealize.ShloMosaic Idealize.ShloMosaic.ValueIdx Cert.KernelIdeal Cert.KernelIdeal.Gen
open scoped BigOperators

variable [Cert.KernelIdeal.Facts]

theorem pm_at (x0 : Vec Ideal S1024x2048 .f32) (w : Vec Ideal S2048x18 .f32) (b2 : Vec Ideal S2 .f32) (r : Fin 1024) :
    k0_pay3 (F := Ideal) (k0_pay5 x0 w) b2 (ix1 r)
      = (∑ d : Fin 2048, x0 (ix2 r d) * w (ix2 d (16 : Fin 18))) + b2 (ix1 (0 : Fin 2)) := by
  refine (pay3_at _ b2 r).trans ?_
  refine (pay2_at _ b2 r (0 : Fin 2) (16 : Fin 18) rfl).trans ?_
  rw [pay5_at]

theorem ps_at (x0 : Vec Ideal S1024x2048 .f32) (w : Vec Ideal S2048x18 .f32) (b2 : Vec Ideal S2 .f32) (r : Fin 1024) :
    k0_pay4 (F := Ideal) (k0_pay5 x0 w) b2 (ix1 r)
      = Cert.Spec.sp ((∑ d : Fin 2048, x0 (ix2 r d) * w (ix2 d (17 : Fin 18))) + b2 (ix1 (1 : Fin 2))) := by
  refine (pay4_at _ b2 r).trans ?_
  refine congrArg Cert.Spec.sp ?_
  refine (pay2_at _ b2 r (1 : Fin 2) (17 : Fin 18) rfl).trans ?_
  rw [pay5_at]

/-- The biased per-source column c of row r. -/
theorem pay6_at (x0 : Vec Ideal S1024x2048 .f32) (w : Vec Ideal S2048x18 .f32) (b16 : Vec Ideal S16 .f32) (r : Fin 1024)
    (c : Fin 16) (k : Fin 18) (hk : k.val = c.val) :
    k0_pay6 (F := Ideal) x0 w b16 (ix2 r c) = (∑ d : Fin 2048, x0 (ix2 r d) * w (ix2 d k)) + b16 (ix1 c) := by
  rw [pay6_eq]
  refine (bias16_at _ b16 r c k hk).trans ?_
  rw [pay5_at]

theorem tbl_even (x0 : Vec Ideal S1024x2048 .f32) (w : Vec Ideal S2048x18 .f32) (b16 : Vec Ideal S16 .f32) (r : Fin 1024) (s : Fin 8) :
    k0_pay1 (F := Ideal) (k0_pay6 x0 w b16) k0_pay7 (k0_pay8 x0 w b16) (ix2 r (⟨2 * s.val, by omega⟩ : Fin 16))
      = (∑ d : Fin 2048, x0 (ix2 r d) * w (ix2 d (⟨2 * s.val, by omega⟩ : Fin 18))) + b16 (ix1 (⟨2 * s.val, by omega⟩ : Fin 16)) := by
  unfold k0_pay1
  refine (select_apply _ _ _ _).trans ?_
  rw [mask_even, select_zero]
  exact pay6_at x0 w b16 r _ _ rfl

theorem tbl_odd (x0 : Vec Ideal S1024x2048 .f32) (w : Vec Ideal S2048x18 .f32) (b16 : Vec Ideal S16 .f32) (r : Fin 1024) (s : Fin 8) :
    k0_pay1 (F := Ideal) (k0_pay6 x0 w b16) k0_pay7 (k0_pay8 x0 w b16) (ix2 r (⟨2 * s.val + 1, by omega⟩ : Fin 16))
      = Cert.Spec.sp ((∑ d : Fin 2048, x0 (ix2 r d) * w (ix2 d (⟨2 * s.val + 1, by omega⟩ : Fin 18)))
          + b16 (ix1 (⟨2 * s.val + 1, by omega⟩ : Fin 16))) := by
  unfold k0_pay1
  refine (select_apply _ _ _ _).trans ?_
  rw [mask_odd, select_one, pay8_eq, spv_apply]
  exact congrArg Cert.Spec.sp (pay6_at x0 w b16 r _ _ rfl)

end Cert.KVal

end
-- ==== Proof.KValB.lean ====
/-
  The host's layout operations read at an index. The widened weight matrix has column 2·s + o (for s < 8, o < 2) equal
  to the per-source weights Ws[s, ·, o] — the transpose puts the embedding axis first, the reshape merges (s, o) into
  one axis of sixteen — and columns 16 and 17 equal to the pooled weights. The sixteen per-source biases are bs[s, o] at
  2·s + o, and the flat table has entry (n, c) at 16·n + c. None of these touch the values.
-/
import proofs.«211727_g52312701665785_cont_9to1_m_854_46_alg».proof.Proof.KForm
import proofs.«211727_g52312701665785_cont_9to1_m_854_46_alg».proof.Proof.Spec
import Idealize.ShloMosaic.Lib.Pipeline.Value
import Idealize.ShloMosaic.Lib.ValueLayout

noncomputable section

namespace Cert.KVal

open Idealize.ShloMosaic Idealize.ShloMosaic.ValueIdx Cert.KernelIdeal Cert.KernelIdeal.Gen
open scoped BigOperators

variable [Cert.KernelIdeal.Facts]

/-- The widened weights: per-source weights with the embedding axis first and (source, output) merged, then the pooled weights. -/
def wcat (Ws : FVec Ideal S8x2048x2 .f32) (Wp : FVec Ideal S2048x2 .f32) : FVec Ideal S2048x18 .f32 :=
  concatenate S2048x18 1
    [⟨S2048x16, shapeCast S2048x16 (transpose S2048x8x2 [1, 0, 2] Ws transposes_S8x2048x2_S2048x8x2_1_0_2)
      shapeCasts_S2048x8x2_S2048x16⟩, ⟨S2048x2, Wp⟩] concatenates_S2048x16_S2048x2_S2048x18_d1

theorem wcat_src (Ws : FVec Ideal S8x2048x2 .f32) (Wp : FVec Ideal S2048x2 .f32) (d : Fin 2048) (s : Fin 8) (o : Fin 2) :
    wcat Ws Wp (ix2 d (⟨2 * s.val + o.val, by omega⟩ : Fin 18)) = Ws (ix3 s d o) := by
  unfold wcat
  refine (concatenate_pair_apply_left (1 : Fin 2) _ Wp concatenates_S2048x16_S2048x2_S2048x18_d1
    (ix2 d (⟨2 * s.val + o.val, by omega⟩ : Fin 18)) rfl (ix2 d (⟨2 * s.val + o.val, by omega⟩ : Fin 16))
    (fun b => match b with | ⟨0, _⟩ => rfl | ⟨1, _⟩ => rfl)).trans ?_
  refine (shapeCast_apply _ shapeCasts_S2048x8x2_S2048x16 (ix2 d (⟨2 * s.val + o.val, by omega⟩ : Fin 16)) (ix3 d s o) (by
    rw [Shape.rowMajor_val_three, Shape.rowMajor_val_two]
    show (d.val * 8 + s.val) * 2 + o.val = d.val * 16 + (2 * s.val + o.val)
    omega)).trans ?_
  exact transpose_apply [1, 0, 2] Ws transposes_S8x2048x2_S2048x8x2_1_0_2 (ix3 d s o) (ix3 s d o)
    (fun b => match b with | ⟨0, _⟩ => rfl | ⟨1, _⟩ => rfl | ⟨2, _⟩ => rfl)

theorem wcat_pool (Ws : FVec Ideal S8x2048x2 .f32) (Wp : FVec Ideal S2048x2 .f32) (d : Fin 2048) (o : Fin 2) :
    wcat Ws Wp (ix2 d (⟨16 + o.val, by omega⟩ : Fin 18)) = Wp (ix2 d o) := by
  unfold wcat
  exact concatenate_pair_apply_right (1 : Fin 2) _ Wp concatenates_S2048x16_S2048x2_S2048x18_d1
    (ix2 d (⟨16 + o.val, by omega⟩ : Fin 18)) rfl rfl (ix2 d o)
    (fun b => match b with | ⟨0, _⟩ => fun _ => rfl | ⟨1, _⟩ => fun hb => absurd rfl hb)
    (by show o.val + 16 = 16 + o.val; omega)

theorem b16_at (bs : FVec Ideal S8x2 .f32) (s : Fin 8) (o : Fin 2) :
    shapeCast S16 bs shapeCasts_S8x2_S16 (ix1 (⟨2 * s.val + o.val, by omega⟩ : Fin 16)) = bs (ix2 s o) :=
  shapeCast_apply bs shapeCasts_S8x2_S16 (ix1 (⟨2 * s.val + o.val, by omega⟩ : Fin 16)) (ix2 s o) (by
    rw [Shape.rowMajor_val_two, Shape.rowMajor_val_one]
    show s.val * 2 + o.val = 2 * s.val + o.val
    omega)

theorem flat_at (tbl : FVec Ideal S16384x16 .f32) (n : Fin 16384) (c : Fin 16) :
    shapeCast S262144 tbl shapeCasts_S16384x16_S262144 (ix1 (⟨16 * n.val + c.val, by omega⟩ : Fin 262144)) = tbl (ix2 n c) :=
  shapeCast_apply tbl shapeCasts_S16384x16_S262144 (ix1 (⟨16 * n.val + c.val, by omega⟩ : Fin 262144)) (ix2 n c) (by
    rw [Shape.rowMajor_val_two, Shape.rowMajor_val_one]
    show n.val * 16 + c.val = 16 * n.val + c.val
    omega)

end Cert.KVal

end
-- ==== Proof.KValC.lean ====
/-
  The kernel's four computed result arrays equal the specification's. Token n lies in block n / 1024 at row n % 1024, so
  the block's row is the token's own embedding row; the widened weights' column 16 + o is the pooled head's output o and
  column 2·s + o is source head s's output o; the routing stage reads the flat table at 16·n + 2·s + o, which is the
  table's entry (n, 2·s + o): source head s's mean (o = 0) or scale (o = 1) of token n.
-/
import proofs.«211727_g52312701665785_cont_9to1_m_854_46_alg».proof.Proof.KValA
import proofs.«211727_g52312701665785_cont_9to1_m_854_46_alg».proof.Proof.KValB

noncomputable section

namespace Cert.KVal

open Idealize.ShloMosaic Idealize.ShloMosaic.ValueIdx Cert.KernelIdeal Cert.KernelIdeal.Gen
open scoped BigOperators

variable [Cert.KernelIdeal.Facts]

/-- A token is row n % 1024 of block n / 1024. -/
theorem row_block (n : Fin 16384) : KForm.rowOf (KForm.blockOf n) (KForm.inBlock n) = n :=
  Fin.ext (by show 1024 * (n.val / 1024) + n.val % 1024 = n.val; omega)

/-- The token's block, at the token's row, holds the token's embedding row. -/
theorem xBlock_at (x : FVec Ideal S16384x2048 .f32) (n : Fin 16384) (d : Fin 2048) :
    KForm.xBlock x (KForm.blockOf n) (ix2 (KForm.inBlock n) d) = x (ix2 n d) := by
  show x (ix2 (KForm.rowOf (KForm.blockOf n) (KForm.inBlock n)) d) = _
  rw [row_block]

theorem final_pm (x : FVec Ideal S16384x2048 .f32) (Ws : FVec Ideal S8x2048x2 .f32) (Wp : FVec Ideal S2048x2 .f32)
    (bp : FVec Ideal S2 .f32) : KForm.Gpm (F := Ideal) x (wcat Ws Wp) bp = Cert.Spec.pooledMean x Wp bp := by
  funext j
  obtain ⟨n, rfl⟩ : ∃ n : Fin 16384, j = ix1 n := ⟨j 0, eq_ix1 j⟩
  show k0_pay3 (F := Ideal) (k0_pay5 (KForm.xBlock x (KForm.blockOf n)) (wcat Ws Wp)) bp (ix1 (KForm.inBlock n))
    = (∑ d : Fin 2048, x (ix2 n d) * Wp (ix2 d (0 : Fin 2))) + bp (ix1 (0 : Fin 2))
  refine (pm_at _ _ _ _).trans ?_
  refine congrArg₂ (· + ·) (Finset.sum_congr rfl fun d _ => congrArg₂ (· * ·) (xBlock_at x n d) ?_) rfl
  exact wcat_pool Ws Wp d (0 : Fin 2)

theorem final_ps (x : FVec Ideal S16384x2048 .f32) (Ws : FVec Ideal S8x2048x2 .f32) (Wp : FVec Ideal S2048x2 .f32)
    (bp : FVec Ideal S2 .f32) : KForm.Gps (F := Ideal) x (wcat Ws Wp) bp = Cert.Spec.pooledScale x Wp bp := by
  funext j
  obtain ⟨n, rfl⟩ : ∃ n : Fin 16384, j = ix1 n := ⟨j 0, eq_ix1 j⟩
  show k0_pay4 (F := Ideal) (k0_pay5 (KForm.xBlock x (KForm.blockOf n)) (wcat Ws Wp)) bp (ix1 (KForm.inBlock n))
    = Cert.Spec.sp ((∑ d : Fin 2048, x (ix2 n d) * Wp (ix2 d (1 : Fin 2))) + bp (ix1 (1 : Fin 2)))
  refine (ps_at _ _ _ _).trans (congrArg Cert.Spec.sp ?_)
  refine congrArg₂ (· + ·) (Finset.sum_congr rfl fun d _ => congrArg₂ (· * ·) (xBlock_at x n d) ?_) rfl
  exact wcat_pool Ws Wp d (1 : Fin 2)

/-- The table's entry (n, c) is the dense stage's table payload for n's block at n's row. -/
theorem Gtbl_at (x : FVec Ideal S16384x2048 .f32) (w : FVec Ideal S2048x18 .f32) (b16 : FVec Ideal S16 .f32) (n : Fin 16384) (c : Fin 16) :
    KForm.Gtbl (F := Ideal) x w b16 (ix2 n c)
      = k0_pay1 (F := Ideal) (k0_pay6 (KForm.xBlock x (KForm.blockOf n)) w b16) k0_pay7
          (k0_pay8 (KForm.xBlock x (KForm.blockOf n)) w b16) (ix2 (KForm.inBlock n) c) := rfl

theorem final_mean (x : FVec Ideal S16384x2048 .f32) (sid : IVec S16384 32) (hsid : ∀ j, (sid j).toNat ≤ 7)
    (Ws : FVec Ideal S8x2048x2 .f32) (Wp : FVec Ideal S2048x2 .f32) (bs : FVec Ideal S8x2 .f32) :
    KForm.Groute (F := Ideal) 0 (shapeCast S262144 (KForm.Gtbl x (wcat Ws Wp) (shapeCast S16 bs shapeCasts_S8x2_S16))
      shapeCasts_S16384x16_S262144) sid = Cert.Spec.sourceMean x sid Ws bs := by
  funext j
  obtain ⟨n, rfl⟩ : ∃ n : Fin 16384, j = ix1 n := ⟨j 0, eq_ix1 j⟩
  generalize hs : Cert.Spec.head (sid (ix1 n)) = s
  have hsv : (sid (ix1 n)).toNat % 8 = s.val := congrArg Fin.val hs
  have e : KForm.flatIdx n (sid (ix1 n)) 0 = (⟨16 * n.val + (⟨2 * s.val, by omega⟩ : Fin 16).val, by omega⟩ : Fin 262144) :=
    Fin.ext (by show 16 * n.val + 2 * ((sid (ix1 n)).toNat % 8) + 0 = 16 * n.val + 2 * s.val; omega)
  show shapeCast S262144 (KForm.Gtbl x (wcat Ws Wp) (shapeCast S16 bs shapeCasts_S8x2_S16)) shapeCasts_S16384x16_S262144
      (ix1 (KForm.flatIdx n (sid (ix1 n)) 0))
    = (∑ d : Fin 2048, x (ix2 n d) * Ws (ix3 (Cert.Spec.head (sid (ix1 n))) d (0 : Fin 2))) + bs (ix2 (Cert.Spec.head (sid (ix1 n))) (0 : Fin 2))
  rw [e, hs]
  refine (flat_at _ n (⟨2 * s.val, by omega⟩ : Fin 16)).trans ?_
  rw [Gtbl_at]
  refine (tbl_even _ _ _ _ s).trans ?_
  refine congrArg₂ (· + ·) (Finset.sum_congr rfl fun d _ => congrArg₂ (· * ·) (xBlock_at x n d) ?_) ?_
  · exact wcat_src Ws Wp d s (0 : Fin 2)
  · exact b16_at bs s (0 : Fin 2)

theorem final_scale (x : FVec Ideal S16384x2048 .f32) (sid : IVec S16384 32) (hsid : ∀ j, (sid j).toNat ≤ 7)
    (Ws : FVec Ideal S8x2048x2 .f32) (Wp : FVec Ideal S2048x2 .f32) (bs : FVec Ideal S8x2 .f32) :
    KForm.Groute (F := Ideal) 1 (shapeCast S262144 (KForm.Gtbl x (wcat Ws Wp) (shapeCast S16 bs shapeCasts_S8x2_S16))
      shapeCasts_S16384x16_S262144) sid = Cert.Spec.sourceScale x sid Ws bs := by
  funext j
  obtain ⟨n, rfl⟩ : ∃ n : Fin 16384, j = ix1 n := ⟨j 0, eq_ix1 j⟩
  generalize hs : Cert.Spec.head (sid (ix1 n)) = s
  have hsv : (sid (ix1 n)).toNat % 8 = s.val := congrArg Fin.val hs
  have e : KForm.flatIdx n (sid (ix1 n)) 1 = (⟨16 * n.val + (⟨2 * s.val + 1, by omega⟩ : Fin 16).val, by omega⟩ : Fin 262144) :=
    Fin.ext (by show 16 * n.val + 2 * ((sid (ix1 n)).toNat % 8) + 1 = 16 * n.val + (2 * s.val + 1); omega)
  show shapeCast S262144 (KForm.Gtbl x (wcat Ws Wp) (shapeCast S16 bs shapeCasts_S8x2_S16)) shapeCasts_S16384x16_S262144
      (ix1 (KForm.flatIdx n (sid (ix1 n)) 1))
    = Cert.Spec.sp ((∑ d : Fin 2048, x (ix2 n d) * Ws (ix3 (Cert.Spec.head (sid (ix1 n))) d (1 : Fin 2)))
        + bs (ix2 (Cert.Spec.head (sid (ix1 n))) (1 : Fin 2)))
  rw [e, hs]
  refine (flat_at _ n (⟨2 * s.val + 1, by omega⟩ : Fin 16)).trans ?_
  rw [Gtbl_at]
  refine (tbl_odd _ _ _ _ s).trans (congrArg Cert.Spec.sp ?_)
  refine congrArg₂ (· + ·) (Finset.sum_congr rfl fun d _ => congrArg₂ (· * ·) (xBlock_at x n d) ?_) ?_
  · exact wcat_src Ws Wp d s (1 : Fin 2)
  · exact b16_at bs s (1 : Fin 2)

end Cert.KVal

end
-- ==== Proof.KVal.lean ====
/-
  The kernel's pure values at the ideal instance, assembled: the routing stage's index arithmetic, the host's layout
  operations at an index, the dense stage's payloads at an index, and the equalities of the kernel's result arrays with
  the specification.
-/
import proofs.«211727_g52312701665785_cont_9to1_m_854_46_alg».proof.Proof.KValC
import proofs.«211727_g52312701665785_cont_9to1_m_854_46_alg».proof.Proof.KValD
-- ==== Proof.IdealValsHost.lean ====
/-
  The host's layout operations as values of the launch memory, at the ideal instance: before the dense stage the widened
  weights' buffer holds the per-source weights with the embedding axis first and (source, output) merged, followed by the
  pooled weights; the flat bias buffer holds the per-source biases reshaped to sixteen; and after the dense stage the flat
  table's buffer holds the 16-column table reshaped.
-/
import proofs.«211727_g52312701665785_cont_9to1_m_854_46_alg».proof.Proof.IClaims
import proofs.«211727_g52312701665785_cont_9to1_m_854_46_alg».proof.Proof.KVal

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

variable (m : (ℓ : Loc nD τ sig) → Buf (Elt Ideal) ℓ)

/-- The widened weights. -/
theorem Wb_v2 : Wb m d0 (Proc.devRef .tc main_v2)
    = Cert.KVal.wcat (m ((d0.tc : Thread nD τ).loc main_arg4)) (m ((d0.tc : Thread nD τ).loc main_arg2)) := by
  show (op4 (F := Ideal)).result ((op3 (F := Ideal)).result ((op2 (F := Ideal)).result ((op1 (F := Ideal)).result (Wa m d0)))) (Proc.devRef .tc main_v2) = _
  rw [StableHlo.reshape_result_ne' _ _ _ _ _ (show main_v2 ≠ main_v3 by decide), StableHlo.binary_result', StableHlo.reshape_result',
    StableHlo.reshape_result_ne' _ _ _ _ _ (show main_arg2 ≠ main_v1 by decide), StableHlo.unary_result',
    StableHlo.unary_result_ne' _ _ _ _ (show main_arg2 ≠ main_v0 by decide)]
  rfl

/-- The sixteen per-source biases. -/
theorem Wb_v3 : Wb m d0 (Proc.devRef .tc main_v3)
    = shapeCast S16 (m ((d0.tc : Thread nD τ).loc main_arg5)) shapeCasts_S8x2_S16 := by
  show (op4 (F := Ideal)).result ((op3 (F := Ideal)).result ((op2 (F := Ideal)).result ((op1 (F := Ideal)).result (Wa m d0)))) (Proc.devRef .tc main_v3) = _
  rw [StableHlo.reshape_result', StableHlo.binary_result_ne' _ _ _ _ _ (show main_arg5 ≠ main_v2 by decide),
    StableHlo.reshape_result_ne' _ _ _ _ _ (show main_arg5 ≠ main_v1 by decide),
    StableHlo.unary_result_ne' _ _ _ _ (show main_arg5 ≠ main_v0 by decide)]
  rfl

/-- The flat table is the dense stage's table reshaped. -/
theorem flatV_eq : flatV m = shapeCast S262144 (Wc m d0 (Proc.devRef .tc main_v4_3)) shapeCasts_S16384x16_S262144 := by
  show (op5 (F := Ideal)).result (Wc m d0) (Proc.devRef .tc main_v5) = _
  rw [StableHlo.reshape_result']
  rfl

end Cert.KernelIdeal.SC

end
-- ==== Proof.IFinalBlk.lean ====
/-
  The dense stage's blocks read off the arrays. The grid has sixteen points; at point t the embedding's window hands the
  body rows 1024·t … 1024·t + 1023 (all 2048 columns), the three parameter windows hand it their whole arrays at every
  point, and each output window takes back rows 1024·t … 1024·t + 1023 of its array. A token n = 1024·t + r lies in
  block t at row r.
-/
import proofs.«211727_g52312701665785_cont_9to1_m_854_46_alg».proof.Proof.IHeads
import Idealize.ShloMosaic.Lib.Pipeline.Value
import Idealize.ShloMosaic.Lib.ValueIdx

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.ValueIdx

variable {F : FTy → Type} [FloatOps F]

/-- The printed index maps over the grid: the embedding's and the outputs' block index is the point's number on the row
    axis and zero on the column axis; the parameters' is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0
    ∧ win0_5.index t (0 : Fin 1) = t.val ∧ win0_6.index t (0 : Fin 1) = t.val
    ∧ win0_7.index t (0 : Fin 2) = t.val ∧ win0_7.index t (1 : Fin 2) = 0 :=
  (by decide +kernel : ∀ t : Fin grid0.N, _)

/-- A grid point as a block number. -/
def blockNo (t : Fin cfg0.N) : Fin 16 := Fin.cast N_0 t

theorem blockNo_val (t : Fin cfg0.N) : (blockNo t).val = t.val := rfl

/-- A token 1024·t + r lies in block t … -/
theorem blockOf_eq (n : Fin 16384) (t : Fin 16) (r : Fin 1024) (h : n.val = 1024 * t.val + r.val) : KForm.blockOf n = t :=
  Fin.ext (by show n.val / 1024 = t.val; omega)
/-- … at row r. -/
theorem inBlock_eq (n : Fin 16384) (t : Fin 16) (r : Fin 1024) (h : n.val = 1024 * t.val + r.val) : KForm.inBlock n = r :=
  Fin.ext (by show n.val % 1024 = r.val; omega)

section Data

variable (V : (c : Dev nD) → (b : Ref sig .tc) → Buf (Elt F) ((c : Thread nD τ).loc b))

/-- The embedding's block at point t is block t of the embedding. -/
theorem iblk0_eq (c : Dev nD) (t : Fin cfg0.N) :
    (iblk V c 0 t : Vec F S1024x2048 .f32) = KForm.xBlock (V c main_arg0 : S16384x2048.Idx → F .f32) (blockNo t) := by
  obtain ⟨e0, e1, -⟩ := idx_facts t
  funext y
  unfold iblk
  rw [View.read_apply]
  show (V c main_arg0 : S16384x2048.Idx → F .f32) _ = (V c main_arg0 : S16384x2048.Idx → F .f32) (ix2 (KForm.rowOf (blockNo t) (y 0)) (y 1))
  congr 1
  funext a
  apply Fin.ext
  match a with
  | ⟨0, _⟩ => show win0_0.index t (0 : Fin 2) * 1024 + 1 * (y 0).val = 1024 * t.val + (y 0).val; rw [e0]; omega
  | ⟨1, _⟩ => show win0_0.index t (1 : Fin 2) * 2048 + 1 * (y 1).val = (y 1).val; rw [e1]; omega

/-- The widened weights' block at every point is the whole array. -/
theorem iblk1_eq (c : Dev nD) (t : Fin cfg0.N) :
    (iblk V c 1 t : Vec F S2048x18 .f32) = (V c main_v2 : S2048x18.Idx → F .f32) := by
  obtain ⟨-, -, e0, e1, -⟩ := idx_facts t
  funext y
  unfold iblk
  rw [View.read_apply]
  show (V c main_v2 : S2048x18.Idx → F .f32) _ = (V c main_v2 : S2048x18.Idx → F .f32) y
  congr 1
  funext a
  apply Fin.ext
  match a with
  | ⟨0, _⟩ => show win0_1.index t (0 : Fin 2) * 2048 + 1 * (y 0).val = (y 0).val; rw [e0]; omega
  | ⟨1, _⟩ => show win0_1.index t (1 : Fin 2) * 18 + 1 * (y 1).val = (y 1).val; rw [e1]; omega

/-- The sixteen per-source biases' block at every point is the whole array. -/
theorem iblk2_eq (c : Dev nD) (t : Fin cfg0.N) :
    (iblk V c 2 t : Vec F S16 .f32) = (V c main_v3 : S16.Idx → F .f32) := by
  obtain ⟨-, -, -, -, e0, -⟩ := idx_facts t
  funext y
  unfold iblk
  rw [View.read_apply]
  show (V c main_v3 : S16.Idx → F .f32) _ = (V c main_v3 : S16.Idx → F .f32) y
  congr 1
  funext a
  apply Fin.ext
  match a with
  | ⟨0, _⟩ => show win0_2.index t (0 : Fin 1) * 16 + 1 * (y 0).val = (y 0).val; rw [e0]; omega

/-- The two pooled biases' block at every point is the whole array. -/
theorem iblk3_eq (c : Dev nD) (t : Fin cfg0.N) :
    (iblk V c 3 t : Vec F S2 .f32) = (V c main_arg3 : S2.Idx → F .f32) := by
  obtain ⟨-, -, -, -, -, e0, -⟩ := idx_facts t
  funext y
  unfold iblk
  rw [View.read_apply]
  show (V c main_arg3 : S2.Idx → F .f32) _ = (V c main_arg3 : S2.Idx → F .f32) y
  congr 1
  funext a
  apply Fin.ext
  match a with
  | ⟨0, _⟩ => show win0_3.index t (0 : Fin 1) * 2 + 1 * (y 0).val = (y 0).val; rw [e0]; omega

end Data

end Cert.KernelIdeal.SC

end
-- ==== Proof.IFinalG.lean ====
/-
  The dense stage's whole-array functions read at token 1024·t + r: they are the body's payloads for block t of the
  embedding, at row r.
-/
import proofs.«211727_g52312701665785_cont_9to1_m_854_46_alg».proof.Proof.IFinalBlk
import Idealize.ShloMosaic.Lib.Pipeline.Value
import Idealize.ShloMosaic.Lib.ValueIdx

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.ValueIdx

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

theorem xBlock_block (x : FVec F S16384x2048 .f32) (t : Fin 16) (r : Fin 1024) (d : Fin 2048) (n : Fin 16384)
    (h : n.val = 1024 * t.val + r.val) : KForm.xBlock x t (ix2 r d) = x (ix2 n d) := by
  show x (ix2 (KForm.rowOf t r) d) = _
  rw [show KForm.rowOf t r = n from Fin.ext h.symm]
theorem Gpm_block (x : FVec F S16384x2048 .f32) (w : FVec F S2048x18 .f32) (b2 : FVec F S2 .f32) (t : Fin 16) (r : Fin 1024)
    (n : Fin 16384) (h : n.val = 1024 * t.val + r.val) :
    KForm.Gpm x w b2 (ix1 n) = k0_pay3 (k0_pay5 (KForm.xBlock x t) w) b2 (ix1 r) := by
  show k0_pay3 (k0_pay5 (KForm.xBlock x (KForm.blockOf n)) w) b2 (ix1 (KForm.inBlock n)) = _
  rw [blockOf_eq n t r h, inBlock_eq n t r h]
theorem Gps_block (x : FVec F S16384x2048 .f32) (w : FVec F S2048x18 .f32) (b2 : FVec F S2 .f32) (t : Fin 16) (r : Fin 1024)
    (n : Fin 16384) (h : n.val = 1024 * t.val + r.val) :
    KForm.Gps x w b2 (ix1 n) = k0_pay4 (k0_pay5 (KForm.xBlock x t) w) b2 (ix1 r) := by
  show k0_pay4 (k0_pay5 (KForm.xBlock x (KForm.blockOf n)) w) b2 (ix1 (KForm.inBlock n)) = _
  rw [blockOf_eq n t r h, inBlock_eq n t r h]
theorem Gtbl_block (x : FVec F S16384x2048 .f32) (w : FVec F S2048x18 .f32) (b16 : FVec F S16 .f32) (t : Fin 16) (r : Fin 1024)
    (cc : Fin 16) (n : Fin 16384) (h : n.val = 1024 * t.val + r.val) :
    KForm.Gtbl x w b16 (ix2 n cc) = k0_pay1 (k0_pay6 (KForm.xBlock x t) w b16) k0_pay7 (k0_pay8 (KForm.xBlock x t) w b16) (ix2 r cc) := by
  show k0_pay1 (k0_pay6 (KForm.xBlock x (KForm.blockOf n)) w b16) k0_pay7 (k0_pay8 (KForm.xBlock x (KForm.blockOf n)) w b16)
    (ix2 (KForm.inBlock n) cc) = _
  rw [blockOf_eq n t r h, inBlock_eq n t r h]

end Cert.KernelIdeal.SC

end
-- ==== Proof.IFinal4.lean ====
/-
  From blocks to the array, for the copied embedding: every grid point writes back its block of ONE function of the region's input
  arrays, and the sixteen blocks tile the array.
-/
import proofs.«211727_g52312701665785_cont_9to1_m_854_46_alg».proof.Proof.IFinalG
import Idealize.ShloMosaic.Lib.Pipeline.Value
import Idealize.ShloMosaic.Lib.ValueIdx

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.ValueIdx

variable {F : FTy → Type} [FloatOps F]

section Data

variable (V : (c : Dev nD) → (b : Ref sig .tc) → Buf (Elt F) ((c : Thread nD τ).loc b)) (O : Dev nD → CellTallies nD τ sig (HIx 1))
  (Rc : Dev nD → Set (SemLoc sig × HIx 1))

/-- What point t writes back is block t of the embedding. -/
theorem flushed4_eq (c : Dev nD) (t : Fin cfg0.N) :
    (dat0 V O Rc c).flushed 4 t = ((cfg0.win 4).blk t).view.read (Elt F)
      (V c main_arg0 : S16384x2048.Idx → F .f32) := by
  show (cfg0.win 4).cut (grid0.coords t) ((dat0 V O Rc c).after 4 t) = _
  rw [after_4]
  unfold out4
  rw [View.canon_unit_zero hz2]
  simp only [View.ld_unit_zero (S := S1024x2048) hz2]
  rw [iblk0_eq]
  obtain ⟨-, -, -, -, -, -, ea, eb, -⟩ := idx_facts t
  have ht : t.val < 16 := (blockNo t).isLt
  funext j
  have hj0 : (j 0).val < 1024 := (j 0).isLt
  have hj1 : (j 1).val < 2048 := (j 1).isLt
  have e1 : (cfg0.win 4).xinj (grid0.coords t) j = ix2 (⟨(j 0).val, hj0⟩ : Fin 1024) (⟨(j 1).val, hj1⟩ : Fin 2048) :=
    funext fun a => match a with | ⟨0, _⟩ => rfl | ⟨1, _⟩ => rfl
  have e2 : ((cfg0.win 4).blk t).view.emb j
      = ix2 (⟨1024 * t.val + (j 0).val, by omega⟩ : Fin 16384) (⟨(j 1).val, hj1⟩ : Fin 2048) :=
    funext fun a => Fin.ext (match a with
      | ⟨0, _⟩ => by show win0_4.index t (0 : Fin 2) * 1024 + 1 * (j 0).val = 1024 * t.val + (j 0).val; rw [ea]; omega
      | ⟨1, _⟩ => by show win0_4.index t (1 : Fin 2) * 2048 + 1 * (j 1).val = (j 1).val; rw [eb]; omega)
  show KForm.xBlock (V c main_arg0 : S16384x2048.Idx → F .f32) (blockNo t) ((cfg0.win 4).xinj (grid0.coords t) j)
    = (V c main_arg0 : S16384x2048.Idx → F .f32) (((cfg0.win 4).blk t).view.emb j)
  rw [e1, e2]
  exact xBlock_block _ (blockNo t) ⟨(j 0).val, hj0⟩ ⟨(j 1).val, hj1⟩ _ rfl

/-- An index of the array is in point t's block iff each coordinate is in the block's range on its axis. -/
theorem mem_blk4 (t : Fin cfg0.N) (i : S16384x2048.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v4_0).slice (win0_4.rect t)).set ↔ _
  rw [View.set_slice_whole, Rect.mem_set_unit]
  exact Iff.rfl

/-- The array after the region: token n's row is in the block of point n / 1024. -/
theorem final4 (c : Dev nD) : (dat0 V O Rc c).arrAt 4 cfg0.N
    = (V c main_arg0 : S16384x2048.Idx → F .f32) :=
  (dat0 V O Rc c).arrAt_eq_of_cover 4 _ (fun t _ => flushed4_eq V O Rc c t) fun i => by
    have hi0 : (i 0).val < 16384 := (i 0).isLt
    have hi1 : (i 1).val < 2048 := (i 1).isLt
    let t : Fin cfg0.N := Fin.cast N_0.symm (⟨(i 0).val / 1024, by omega⟩ : Fin 16)
    obtain ⟨-, -, -, -, -, -, ea, eb, -⟩ := idx_facts t
    refine ⟨t, flush0_4 t, ?_⟩
    rw [mem_blk4]
    intro a
    match a with
    | ⟨0, _⟩ =>
      show win0_4.index t (0 : Fin 2) * 1024 ≤ (i 0).val ∧ (i 0).val < win0_4.index t (0 : Fin 2) * 1024 + 1024
      rw [ea]
      show (i 0).val / 1024 * 1024 ≤ (i 0).val ∧ (i 0).val < (i 0).val / 1024 * 1024 + 1024
      omega
    | ⟨1, _⟩ =>
      show win0_4.index t (1 : Fin 2) * 2048 ≤ (i 1).val ∧ (i 1).val < win0_4.index t (1 : Fin 2) * 2048 + 2048
      rw [eb]
      omega

end Data

end Cert.KernelIdeal.SC

end
-- ==== Proof.IFinal5.lean ====
/-
  From blocks to the array, for the pooled mean: every grid point writes back its block of ONE function of the region's input
  arrays, and the sixteen blocks tile the array.
-/
import proofs.«211727_g52312701665785_cont_9to1_m_854_46_alg».proof.Proof.IFinalG
import Idealize.ShloMosaic.Lib.Pipeline.Value
import Idealize.ShloMosaic.Lib.ValueIdx

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.ValueIdx

variable {F : FTy → Type} [FloatOps F]

section Data

variable (V : (c : Dev nD) → (b : Ref sig .tc) → Buf (Elt F) ((c : Thread nD τ).loc b)) (O : Dev nD → CellTallies nD τ sig (HIx 1))
  (Rc : Dev nD → Set (SemLoc sig × HIx 1))

/-- What point t writes back is block t of the pooled mean of every token. -/
theorem flushed5_eq (c : Dev nD) (t : Fin cfg0.N) :
    (dat0 V O Rc c).flushed 5 t = ((cfg0.win 5).blk t).view.read (Elt F)
      (KForm.Gpm (V c main_arg0 : S16384x2048.Idx → F .f32) (V c main_v2 : S2048x18.Idx → F .f32) (V c main_arg3 : S2.Idx → F .f32)) := by
  show (cfg0.win 5).cut (grid0.coords t) ((dat0 V O Rc c).after 5 t) = _
  rw [after_5]
  unfold out5
  rw [View.canon_unit_zero hz1]
  simp only [View.ld_unit_zero (S := S1024x2048) hz2, View.ld_unit_zero (S := S2048x18) hz2, View.ld_unit_zero (S := S2) hz1]
  rw [iblk0_eq, iblk1_eq, iblk3_eq]
  obtain ⟨-, -, -, -, -, -, -, -, e, -⟩ := idx_facts t
  have ht : t.val < 16 := (blockNo t).isLt
  funext j
  have hj : (j 0).val < 1024 := (j 0).isLt
  have e1 : (cfg0.win 5).xinj (grid0.coords t) j = ix1 (⟨(j 0).val, hj⟩ : Fin 1024) :=
    funext fun a => match a with | ⟨0, _⟩ => rfl
  have e2 : ((cfg0.win 5).blk t).view.emb j = ix1 (⟨1024 * t.val + (j 0).val, by omega⟩ : Fin 16384) :=
    funext fun a => Fin.ext (match a with
      | ⟨0, _⟩ => by show win0_5.index t (0 : Fin 1) * 1024 + 1 * (j 0).val = 1024 * t.val + (j 0).val; rw [e]; omega)
  show k0_pay3 (k0_pay5 (KForm.xBlock (V c main_arg0 : S16384x2048.Idx → F .f32) (blockNo t)) (V c main_v2 : S2048x18.Idx → F .f32))
      (V c main_arg3 : S2.Idx → F .f32) ((cfg0.win 5).xinj (grid0.coords t) j)
    = KForm.Gpm (V c main_arg0 : S16384x2048.Idx → F .f32) (V c main_v2 : S2048x18.Idx → F .f32) (V c main_arg3 : S2.Idx → F .f32)
      (((cfg0.win 5).blk t).view.emb j)
  rw [e1, e2]
  exact (Gpm_block _ _ _ (blockNo t) ⟨(j 0).val, hj⟩ _ rfl).symm

/-- An index of the array is in point t's block iff its coordinate is in the block's range. -/
theorem mem_blk5 (t : Fin cfg0.N) (i : S16384.Idx) :
    i ∈ ((cfg0.win 5).blk t).view.set ↔ ∀ a : Fin 1, win0_5.index t a * S1024.size a ≤ (i a).val ∧ (i a).val < win0_5.index t a * S1024.size a + S1024.size a := by
  show i ∈ ((View.whole main_v4_1).slice (win0_5.rect t)).set ↔ _
  rw [View.set_slice_whole, Rect.mem_set_unit]
  exact Iff.rfl

/-- The array after the region: token n's entry is in the block of point n / 1024. -/
theorem final5 (c : Dev nD) : (dat0 V O Rc c).arrAt 5 cfg0.N
    = KForm.Gpm (V c main_arg0 : S16384x2048.Idx → F .f32) (V c main_v2 : S2048x18.Idx → F .f32) (V c main_arg3 : S2.Idx → F .f32) :=
  (dat0 V O Rc c).arrAt_eq_of_cover 5 _ (fun t _ => flushed5_eq V O Rc c t) fun i => by
    have hi : (i 0).val < 16384 := (i 0).isLt
    let t : Fin cfg0.N := Fin.cast N_0.symm (⟨(i 0).val / 1024, by omega⟩ : Fin 16)
    obtain ⟨-, -, -, -, -, -, -, -, e, -⟩ := idx_facts t
    refine ⟨t, flush0_5 t, ?_⟩
    rw [mem_blk5]
    intro a
    match a with
    | ⟨0, _⟩ =>
      show win0_5.index t (0 : Fin 1) * 1024 ≤ (i 0).val ∧ (i 0).val < win0_5.index t (0 : Fin 1) * 1024 + 1024
      rw [e]
      show (i 0).val / 1024 * 1024 ≤ (i 0).val ∧ (i 0).val < (i 0).val / 1024 * 1024 + 1024
      omega

end Data

end Cert.KernelIdeal.SC

end
-- ==== Proof.IFinal6.lean ====
/-
  From blocks to the array, for the pooled scale: every grid point writes back its block of ONE function of the region's input
  arrays, and the sixteen blocks tile the array.
-/
import proofs.«211727_g52312701665785_cont_9to1_m_854_46_alg».proof.Proof.IFinalG
import Idealize.ShloMosaic.Lib.Pipeline.Value
import Idealize.ShloMosaic.Lib.ValueIdx

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.ValueIdx

variable {F : FTy → Type} [FloatOps F]

section Data

variable (V : (c : Dev nD) → (b : Ref sig .tc) → Buf (Elt F) ((c : Thread nD τ).loc b)) (O : Dev nD → CellTallies nD τ sig (HIx 1))
  (Rc : Dev nD → Set (SemLoc sig × HIx 1))

/-- What point t writes back is block t of the pooled scale of every token. -/
theorem flushed6_eq (c : Dev nD) (t : Fin cfg0.N) :
    (dat0 V O Rc c).flushed 6 t = ((cfg0.win 6).blk t).view.read (Elt F)
      (KForm.Gps (V c main_arg0 : S16384x2048.Idx → F .f32) (V c main_v2 : S2048x18.Idx → F .f32) (V c main_arg3 : S2.Idx → F .f32)) := by
  show (cfg0.win 6).cut (grid0.coords t) ((dat0 V O Rc c).after 6 t) = _
  rw [after_6]
  unfold out6
  rw [View.canon_unit_zero hz1]
  simp only [View.ld_unit_zero (S := S1024x2048) hz2, View.ld_unit_zero (S := S2048x18) hz2, View.ld_unit_zero (S := S2) hz1]
  rw [iblk0_eq, iblk1_eq, iblk3_eq]
  obtain ⟨-, -, -, -, -, -, -, -, -, e, -⟩ := idx_facts t
  have ht : t.val < 16 := (blockNo t).isLt
  funext j
  have hj : (j 0).val < 1024 := (j 0).isLt
  have e1 : (cfg0.win 6).xinj (grid0.coords t) j = ix1 (⟨(j 0).val, hj⟩ : Fin 1024) :=
    funext fun a => match a with | ⟨0, _⟩ => rfl
  have e2 : ((cfg0.win 6).blk t).view.emb j = ix1 (⟨1024 * t.val + (j 0).val, by omega⟩ : Fin 16384) :=
    funext fun a => Fin.ext (match a with
      | ⟨0, _⟩ => by show win0_6.index t (0 : Fin 1) * 1024 + 1 * (j 0).val = 1024 * t.val + (j 0).val; rw [e]; omega)
  show k0_pay4 (k0_pay5 (KForm.xBlock (V c main_arg0 : S16384x2048.Idx → F .f32) (blockNo t)) (V c main_v2 : S2048x18.Idx → F .f32))
      (V c main_arg3 : S2.Idx → F .f32) ((cfg0.win 6).xinj (grid0.coords t) j)
    = KForm.Gps (V c main_arg0 : S16384x2048.Idx → F .f32) (V c main_v2 : S2048x18.Idx → F .f32) (V c main_arg3 : S2.Idx → F .f32)
      (((cfg0.win 6).blk t).view.emb j)
  rw [e1, e2]
  exact (Gps_block _ _ _ (blockNo t) ⟨(j 0).val, hj⟩ _ rfl).symm

/-- An index of the array is in point t's block iff its coordinate is in the block's range. -/
theorem mem_blk6 (t : Fin cfg0.N) (i : S16384.Idx) :
    i ∈ ((cfg0.win 6).blk t).view.set ↔ ∀ a : Fin 1, win0_6.index t a * S1024.size a ≤ (i a).val ∧ (i a).val < win0_6.index t a * S1024.size a + S1024.size a := by
  show i ∈ ((View.whole main_v4_2).slice (win0_6.rect t)).set ↔ _
  rw [View.set_slice_whole, Rect.mem_set_unit]
  exact Iff.rfl

/-- The array after the region: token n's entry is in the block of point n / 1024. -/
theorem final6 (c : Dev nD) : (dat0 V O Rc c).arrAt 6 cfg0.N
    = KForm.Gps (V c main_arg0 : S16384x2048.Idx → F .f32) (V c main_v2 : S2048x18.Idx → F .f32) (V c main_arg3 : S2.Idx → F .f32) :=
  (dat0 V O Rc c).arrAt_eq_of_cover 6 _ (fun t _ => flushed6_eq V O Rc c t) fun i => by
    have hi : (i 0).val < 16384 := (i 0).isLt
    let t : Fin cfg0.N := Fin.cast N_0.symm (⟨(i 0).val / 1024, by omega⟩ : Fin 16)
    obtain ⟨-, -, -, -, -, -, -, -, -, e, -⟩ := idx_facts t
    refine ⟨t, flush0_6 t, ?_⟩
    rw [mem_blk6]
    intro a
    match a with
    | ⟨0, _⟩ =>
      show win0_6.index t (0 : Fin 1) * 1024 ≤ (i 0).val ∧ (i 0).val < win0_6.index t (0 : Fin 1) * 1024 + 1024
      rw [e]
      show (i 0).val / 1024 * 1024 ≤ (i 0).val ∧ (i 0).val < (i 0).val / 1024 * 1024 + 1024
      omega

end Data

end Cert.KernelIdeal.SC

end
-- ==== Proof.IFinal7.lean ====
/-
  From blocks to the array, for the 16-column table: every grid point writes back its block of ONE function of the region's input
  arrays, and the sixteen blocks tile the array.
-/
import proofs.«211727_g52312701665785_cont_9to1_m_854_46_alg».proof.Proof.IFinalG
import Idealize.ShloMosaic.Lib.Pipeline.Value
import Idealize.ShloMosaic.Lib.ValueIdx

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.ValueIdx

variable {F : FTy → Type} [FloatOps F]

section Data

variable (V : (c : Dev nD) → (b : Ref sig .tc) → Buf (Elt F) ((c : Thread nD τ).loc b)) (O : Dev nD → CellTallies nD τ sig (HIx 1))
  (Rc : Dev nD → Set (SemLoc sig × HIx 1))

/-- What point t writes back is block t of the table of every token. -/
theorem flushed7_eq (c : Dev nD) (t : Fin cfg0.N) :
    (dat0 V O Rc c).flushed 7 t = ((cfg0.win 7).blk t).view.read (Elt F)
      (KForm.Gtbl (V c main_arg0 : S16384x2048.Idx → F .f32) (V c main_v2 : S2048x18.Idx → F .f32) (V c main_v3 : S16.Idx → F .f32)) := by
  show (cfg0.win 7).cut (grid0.coords t) ((dat0 V O Rc c).after 7 t) = _
  rw [after_7]
  unfold out7
  rw [View.canon_unit_zero hz2]
  simp only [View.ld_unit_zero (S := S1024x2048) hz2, View.ld_unit_zero (S := S2048x18) hz2, View.ld_unit_zero (S := S16) hz1]
  rw [iblk0_eq, iblk1_eq, iblk2_eq]
  obtain ⟨-, -, -, -, -, -, -, -, -, -, ea, eb⟩ := idx_facts t
  have ht : t.val < 16 := (blockNo t).isLt
  funext j
  have hj0 : (j 0).val < 1024 := (j 0).isLt
  have hj1 : (j 1).val < 16 := (j 1).isLt
  have e1 : (cfg0.win 7).xinj (grid0.coords t) j = ix2 (⟨(j 0).val, hj0⟩ : Fin 1024) (⟨(j 1).val, hj1⟩ : Fin 16) :=
    funext fun a => match a with | ⟨0, _⟩ => rfl | ⟨1, _⟩ => rfl
  have e2 : ((cfg0.win 7).blk t).view.emb j
      = ix2 (⟨1024 * t.val + (j 0).val, by omega⟩ : Fin 16384) (⟨(j 1).val, hj1⟩ : Fin 16) :=
    funext fun a => Fin.ext (match a with
      | ⟨0, _⟩ => by show win0_7.index t (0 : Fin 2) * 1024 + 1 * (j 0).val = 1024 * t.val + (j 0).val; rw [ea]; omega
      | ⟨1, _⟩ => by show win0_7.index t (1 : Fin 2) * 16 + 1 * (j 1).val = (j 1).val; rw [eb]; omega)
  show k0_pay1 (k0_pay6 (KForm.xBlock (V c main_arg0 : S16384x2048.Idx → F .f32) (blockNo t)) (V c main_v2 : S2048x18.Idx → F .f32) (V c main_v3 : S16.Idx → F .f32)) k0_pay7
      (k0_pay8 (KForm.xBlock (V c main_arg0 : S16384x2048.Idx → F .f32) (blockNo t)) (V c main_v2 : S2048x18.Idx → F .f32) (V c main_v3 : S16.Idx → F .f32)) ((cfg0.win 7).xinj (grid0.coords t) j)
    = (KForm.Gtbl (V c main_arg0 : S16384x2048.Idx → F .f32) (V c main_v2 : S2048x18.Idx → F .f32) (V c main_v3 : S16.Idx → F .f32)) (((cfg0.win 7).blk t).view.emb j)
  rw [e1, e2]
  exact (Gtbl_block _ _ _ (blockNo t) ⟨(j 0).val, hj0⟩ ⟨(j 1).val, hj1⟩ _ rfl).symm

/-- An index of the array is in point t's block iff each coordinate is in the block's range on its axis. -/
theorem mem_blk7 (t : Fin cfg0.N) (i : S16384x16.Idx) :
    i ∈ ((cfg0.win 7).blk t).view.set ↔ ∀ a : Fin 2, win0_7.index t a * S1024x16.size a ≤ (i a).val ∧ (i a).val < win0_7.index t a * S1024x16.size a + S1024x16.size a := by
  show i ∈ ((View.whole main_v4_3).slice (win0_7.rect t)).set ↔ _
  rw [View.set_slice_whole, Rect.mem_set_unit]
  exact Iff.rfl

/-- The array after the region: token n's row is in the block of point n / 1024. -/
theorem final7 (c : Dev nD) : (dat0 V O Rc c).arrAt 7 cfg0.N
    = (KForm.Gtbl (V c main_arg0 : S16384x2048.Idx → F .f32) (V c main_v2 : S2048x18.Idx → F .f32) (V c main_v3 : S16.Idx → F .f32)) :=
  (dat0 V O Rc c).arrAt_eq_of_cover 7 _ (fun t _ => flushed7_eq V O Rc c t) fun i => by
    have hi0 : (i 0).val < 16384 := (i 0).isLt
    have hi1 : (i 1).val < 16 := (i 1).isLt
    let t : Fin cfg0.N := Fin.cast N_0.symm (⟨(i 0).val / 1024, by omega⟩ : Fin 16)
    obtain ⟨-, -, -, -, -, -, -, -, -, -, ea, eb⟩ := idx_facts t
    refine ⟨t, flush0_7 t, ?_⟩
    rw [mem_blk7]
    intro a
    match a with
    | ⟨0, _⟩ =>
      show win0_7.index t (0 : Fin 2) * 1024 ≤ (i 0).val ∧ (i 0).val < win0_7.index t (0 : Fin 2) * 1024 + 1024
      rw [ea]
      show (i 0).val / 1024 * 1024 ≤ (i 0).val ∧ (i 0).val < (i 0).val / 1024 * 1024 + 1024
      omega
    | ⟨1, _⟩ =>
      show win0_7.index t (1 : Fin 2) * 16 ≤ (i 1).val ∧ (i 1).val < win0_7.index t (1 : Fin 2) * 16 + 16
      rw [eb]
      omega

end Data

end Cert.KernelIdeal.SC

end
-- ==== Proof.IFinal.lean ====
/-
  From blocks to arrays for the dense stage, assembled: after the region the four output arrays hold the embedding, the
  pooled mean, the pooled scale and the 16-column table of every token.
-/
import proofs.«211727_g52312701665785_cont_9to1_m_854_46_alg».proof.Proof.IFinal4
import proofs.«211727_g52312701665785_cont_9to1_m_854_46_alg».proof.Proof.IFinal5
import proofs.«211727_g52312701665785_cont_9to1_m_854_46_alg».proof.Proof.IFinal6
import proofs.«211727_g52312701665785_cont_9to1_m_854_46_alg».proof.Proof.IFinal7
-- ==== Proof.IdealVals.lean ====
/-
  The values at the ideal instance, from what the final memory holds: the copied embedding is the embedding, and the four
  computed result arrays are the specification's pooled mean, pooled scale, per-source mean and per-source scale of the
  six launched arguments.
-/
import proofs.«211727_g52312701665785_cont_9to1_m_854_46_alg».proof.Proof.IdealValsHost
import proofs.«211727_g52312701665785_cont_9to1_m_854_46_alg».proof.Proof.IFinal
import proofs.«211727_g52312701665785_cont_9to1_m_854_46_alg».proof.Proof.Spec

set_option maxRecDepth 16384

noncomputable section

namespace Cert.KernelIdeal.SC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Pipeline (Dat Cfg Window BodyObligation cellOf)

section Vals

variable (m : (ℓ : Loc nD τ sig) → Buf (Elt Ideal) ℓ)

/-- The embedding the dense stage reads is the launched one. -/
theorem Wb_arg0 : Wb m d0 (Proc.devRef .tc main_arg0) = (m ((d0.tc : Thread nD τ).loc main_arg0)) :=
  Wb_of_ne m d0 main_arg0 (by decide) (by decide) (by decide) (by decide)
/-- The pooled biases it reads are the launched ones. -/
theorem Wb_arg3 : Wb m d0 (Proc.devRef .tc main_arg3) = (m ((d0.tc : Thread nD τ).loc main_arg3)) :=
  Wb_of_ne m d0 main_arg3 (by decide) (by decide) (by decide) (by decide)

/-- After the dense stage: the copied embedding. -/
theorem Wc_v4_0 : Wc m d0 (Proc.devRef .tc main_v4_0) = (m ((d0.tc : Thread nD τ).loc main_arg0)) :=
  (Wc_arr m d0 4).trans ((final4 (V1 (Wb m)) (Otc (F := Ideal)) (Rtc (F := Ideal)) d0).trans (Wb_arg0 m))

/-- After the dense stage: the pooled mean, as the kernel's whole-array function of the launched arguments. -/
theorem Wc_v4_1 : Wc m d0 (Proc.devRef .tc main_v4_1)
    = KForm.Gpm (F := Ideal) (m ((d0.tc : Thread nD τ).loc main_arg0)) (Cert.KVal.wcat (m ((d0.tc : Thread nD τ).loc main_arg4)) (m ((d0.tc : Thread nD τ).loc main_arg2))) (m ((d0.tc : Thread nD τ).loc main_arg3)) := by
  refine (Wc_arr m d0 5).trans ((final5 (V1 (Wb m)) (Otc (F := Ideal)) (Rtc (F := Ideal)) d0).trans ?_)
  show KForm.Gpm (F := Ideal) (Wb m d0 (Proc.devRef .tc main_arg0)) (Wb m d0 (Proc.devRef .tc main_v2)) (Wb m d0 (Proc.devRef .tc main_arg3)) = _
  rw [Wb_arg0, Wb_v2, Wb_arg3]

/-- After the dense stage: the pooled scale. -/
theorem Wc_v4_2 : Wc m d0 (Proc.devRef .tc main_v4_2)
    = KForm.Gps (F := Ideal) (m ((d0.tc : Thread nD τ).loc main_arg0)) (Cert.KVal.wcat (m ((d0.tc : Thread nD τ).loc main_arg4)) (m ((d0.tc : Thread nD τ).loc main_arg2))) (m ((d0.tc : Thread nD τ).loc main_arg3)) := by
  refine (Wc_arr m d0 6).trans ((final6 (V1 (Wb m)) (Otc (F := Ideal)) (Rtc (F := Ideal)) d0).trans ?_)
  show KForm.Gps (F := Ideal) (Wb m d0 (Proc.devRef .tc main_arg0)) (Wb m d0 (Proc.devRef .tc main_v2)) (Wb m d0 (Proc.devRef .tc main_arg3)) = _
  rw [Wb_arg0, Wb_v2, Wb_arg3]

/-- After the dense stage: the 16-column table. -/
theorem Wc_v4_3 : Wc m d0 (Proc.devRef .tc main_v4_3)
    = KForm.Gtbl (F := Ideal) (m ((d0.tc : Thread nD τ).loc main_arg0)) (Cert.KVal.wcat (m ((d0.tc : Thread nD τ).loc main_arg4)) (m ((d0.tc : Thread nD τ).loc main_arg2)))
        (shapeCast S16 (m ((d0.tc : Thread nD τ).loc main_arg5)) shapeCasts_S8x2_S16) := by
  refine (Wc_arr m d0 7).trans ((final7 (V1 (Wb m)) (Otc (F := Ideal)) (Rtc (F := Ideal)) d0).trans ?_)
  show KForm.Gtbl (F := Ideal) (Wb m d0 (Proc.devRef .tc main_arg0)) (Wb m d0 (Proc.devRef .tc main_v2)) (Wb m d0 (Proc.devRef .tc main_v3)) = _
  rw [Wb_arg0, Wb_v2, Wb_v3]

/-- The flat table the routing call reads. -/
theorem flatV_val : flatV m = shapeCast S262144 (KForm.Gtbl (F := Ideal) (m ((d0.tc : Thread nD τ).loc main_arg0))
      (Cert.KVal.wcat (m ((d0.tc : Thread nD τ).loc main_arg4)) (m ((d0.tc : Thread nD τ).loc main_arg2))) (shapeCast S16 (m ((d0.tc : Thread nD τ).loc main_arg5)) shapeCasts_S8x2_S16))
    shapeCasts_S16384x16_S262144 := by
  rw [flatV_eq, Wc_v4_3]

theorem vals_ideal (d : Dev nD) (μ : MemSt nD τ sig (Elt Ideal)) (h : fqM (F := Ideal) m d μ)
    (hsid : ∀ j, ((m ((d.tc : Thread nD τ).loc main_arg1)) j).toNat ≤ 7) :
    μ.mem ((d.tc : Thread nD τ).loc main_v4_0) = (m ((d.tc : Thread nD τ).loc main_arg0))
    ∧ μ.mem ((d.tc : Thread nD τ).loc main_v4_1) = Cert.Spec.pooledMean (m ((d.tc : Thread nD τ).loc main_arg0)) (m ((d.tc : Thread nD τ).loc main_arg2)) (m ((d.tc : Thread nD τ).loc main_arg3))
    ∧ μ.mem ((d.tc : Thread nD τ).loc main_v4_2) = Cert.Spec.pooledScale (m ((d.tc : Thread nD τ).loc main_arg0)) (m ((d.tc : Thread nD τ).loc main_arg2)) (m ((d.tc : Thread nD τ).loc main_arg3))
    ∧ μ.mem ((d.tc : Thread nD τ).loc main_v6_0) = Cert.Spec.sourceMean (m ((d.tc : Thread nD τ).loc main_arg0)) (m ((d.tc : Thread nD τ).loc main_arg1)) (m ((d.tc : Thread nD τ).loc main_arg4)) (m ((d.tc : Thread nD τ).loc main_arg5))
    ∧ μ.mem ((d.tc : Thread nD τ).loc main_v6_1) = Cert.Spec.sourceScale (m ((d.tc : Thread nD τ).loc main_arg0)) (m ((d.tc : Thread nD τ).loc main_arg1)) (m ((d.tc : Thread nD τ).loc main_arg4)) (m ((d.tc : Thread nD τ).loc main_arg5)) := by
  obtain rfl : d = d0 := Subsingleton.elim _ _
  obtain ⟨hr, -, -, hm, hsc⟩ := h
  refine ⟨?_, ?_, ?_, ?_, ?_⟩
  · exact (hr (Proc.devRef .tc main_v4_0) (by decide)).trans ((Wd_of_ne m d0 main_v4_0 (by decide)).trans (Wc_v4_0 m))
  · exact (hr (Proc.devRef .tc main_v4_1) (by decide)).trans ((Wd_of_ne m d0 main_v4_1 (by decide)).trans
      ((Wc_v4_1 m).trans (Cert.KVal.final_pm _ _ _ _)))
  · exact (hr (Proc.devRef .tc main_v4_2) (by decide)).trans ((Wd_of_ne m d0 main_v4_2 (by decide)).trans
      ((Wc_v4_2 m).trans (Cert.KVal.final_ps _ _ _ _)))
  · refine hm.trans ?_
    rw [flatV_val, sidV_eq]
    exact Cert.KVal.final_mean _ _ hsid _ _ _
  · refine hsc.trans ?_
    rw [flatV_val, sidV_eq]
    exact Cert.KVal.final_scale _ _ hsid _ _ _

end Vals

end Cert.KernelIdeal.SC

end
-- ==== Proof.RefSoftplus.lean ====
/-
  The reference's softplus-with-floor at one element, on the extended reals. The reference computes, for an element v,
  select(v − 0 ≠ v − 0, v + 0, max(v, 0) + log1p(exp(−|v − 0|))) + floor. On the extended reals no value differs from
  itself, so the select keeps its second branch; v − 0 is v, |a| is max(a, −a) and −a is 0 − a: the result is the
  specification's sp v.
-/
import proofs.«211727_g52312701665785_cont_9to1_m_854_46_alg».proof.Proof.Spec
import Idealize.ShloMosaic.PureOps.Ideal.Laws

noncomputable section

namespace Cert.RefSide

open Idealize.ShloMosaic Idealize.ShloMosaic.ValueIdx

/-- The reference's softplus chain plus the floor, at one extended real, is the specification's `sp`. -/
theorem softplus_floor (v : EReal) :
    FloatOps.addf (F := Ideal) (φ := .f32)
      (Scalar.select
        (FloatOps.cmpf (F := Ideal) (φ := .f32) .une
          (FloatOps.subf (F := Ideal) (φ := .f32) v (FloatOps.ofBits (F := Ideal) .f32 0x00000000#32))
          (FloatOps.subf (F := Ideal) (φ := .f32) v (FloatOps.ofBits (F := Ideal) .f32 0x00000000#32)))
        (FloatOps.addf (F := Ideal) (φ := .f32) v (FloatOps.ofBits (F := Ideal) .f32 0x00000000#32))
        (FloatOps.addf (F := Ideal) (φ := .f32)
          (FloatOps.maximumf (F := Ideal) (φ := .f32) v (FloatOps.ofBits (F := Ideal) .f32 0x00000000#32))
          (FloatOps.hostUnary (F := Ideal) (φ := .f32) .log1p
            (FloatOps.hostUnary (F := Ideal) (φ := .f32) .exp
              (FloatOps.hostNegf (F := Ideal) (φ := .f32)
                (FloatOps.hostAbsf (F := Ideal) (φ := .f32)
                  (FloatOps.subf (F := Ideal) (φ := .f32) v (FloatOps.ofBits (F := Ideal) .f32 0x00000000#32))))))))
      (FloatOps.ofBits (F := Ideal) .f32 0x3A83126F#32)
    = Cert.Spec.sp v := by
  have hne : Ideal.cmp .une v v = 0#1 := by simp [Ideal.cmp]
  simp only [Ideal.ofBits_def, Ideal.ofBits_zero_f32, Ideal.subf_def, sub_zero, Ideal.cmpf_def, hne, select_zero,
    Ideal.addf_def, Ideal.maximumf_def, Ideal.hostUnary_log1p_def, Ideal.hostUnary_exp_def, Ideal.hostNegf_def,
    Ideal.hostAbsf_def, Ideal.negf_def, Ideal.absf_def, Cert.Spec.sp, Cert.Spec.floorC, zero_sub]

end Cert.RefSide

end
-- ==== Proof.RefPooled.lean ====
/-
  The pooled head of the reference, read at an index. The reference forms x · Wp (a contraction over the 2048 embedding
  coordinates), adds the bias broadcast along the tokens, and slices the two columns: column 0 is the mean, column 1
  goes through softplus and the floor. At token n these are the specification's pooledMeanAt and pooledScaleAt.
-/
import proofs.«211727_g52312701665785_cont_9to1_m_854_46_alg».proof.Proof.ReadP
import proofs.«211727_g52312701665785_cont_9to1_m_854_46_alg».proof.Proof.RefSoftplus

noncomputable section

namespace Cert.RefSide

open Idealize.ShloMosaic Idealize.ShloMosaic.ValueIdx Cert.ReferenceIdeal Cert.ReferenceIdeal.ReadP
open scoped BigOperators

/-- The pooled head with its bias at token n, output o: the contraction over the embedding plus the bias. -/
theorem pooled_raw_at (x0 : (⟨S16384x2048, .f32⟩ : BufTy).Contents (Elt Ideal)) (x2 : (⟨S2048x2, .f32⟩ : BufTy).Contents (Elt Ideal))
    (x3 : (⟨S2, .f32⟩ : BufTy).Contents (Elt Ideal)) (n : Fin 16384) (o : Fin 2) :
    val_main_v3 (F := Ideal) x0 x2 x3 (ix2 n o) = Cert.Spec.rawP x0 x2 n o + x3 (ix1 o) := by
  have e1 : ∀ k : Fin 2048, lidx_main_v0 (ix2 n o) k = ix2 n k := fun k => by
    funext a; match a with | ⟨0, _⟩ => rfl | ⟨1, _⟩ => rfl
  have e2 : ∀ k : Fin 2048, ridx_main_v0 (ix2 n o) k = ix2 k o := fun k => by
    funext a; match a with | ⟨0, _⟩ => rfl | ⟨1, _⟩ => rfl
  have e3 : idx_main_v1 (idx_main_v2 (ix2 n o)) = ix1 o := by
    funext a; match a with | ⟨0, _⟩ => rfl
  rw [val_main_v3_apply, val_main_v0_apply, val_main_v2_apply, val_main_v1_apply, Ideal.addf_def, e3]
  simp only [e1, e2]
  rfl

/-- Column 0 of the pooled head at token n is the specification's pooled mean. -/
theorem pooled_mean_eq (x0 : (⟨S16384x2048, .f32⟩ : BufTy).Contents (Elt Ideal)) (x2 : (⟨S2048x2, .f32⟩ : BufTy).Contents (Elt Ideal))
    (x3 : (⟨S2, .f32⟩ : BufTy).Contents (Elt Ideal)) :
    val_main_v5 (F := Ideal) x0 x2 x3 = Cert.Spec.pooledMean x0 x2 x3 := by
  funext j
  obtain ⟨n, rfl⟩ : ∃ n : Fin 16384, j = ix1 n := ⟨j 0, eq_ix1 j⟩
  have e : idx_main_v4 (idx_main_v5 (ix1 n)) = ix2 n (0 : Fin 2) := by
    funext a; match a with | ⟨0, _⟩ => exact Fin.ext (Nat.div_one _) | ⟨1, _⟩ => rfl
  rw [val_main_v5_apply, val_main_v4_apply, e, pooled_raw_at]
  rfl

/-- Column 1 of the pooled head at token n, before softplus. -/
theorem pooled_col1_at (x0 : (⟨S16384x2048, .f32⟩ : BufTy).Contents (Elt Ideal)) (x2 : (⟨S2048x2, .f32⟩ : BufTy).Contents (Elt Ideal))
    (x3 : (⟨S2, .f32⟩ : BufTy).Contents (Elt Ideal)) (n : Fin 16384) :
    val_main_v7 (F := Ideal) x0 x2 x3 (ix1 n) = Cert.Spec.rawP x0 x2 n 1 + x3 (ix1 1) := by
  have e : idx_main_v6 (idx_main_v7 (ix1 n)) = ix2 n (1 : Fin 2) := by
    funext a; match a with | ⟨0, _⟩ => exact Fin.ext (Nat.div_one _) | ⟨1, _⟩ => rfl
  rw [val_main_v7_apply, val_main_v6_apply, e, pooled_raw_at]

/-- Softplus and the floor over column 1 at token n is the specification's pooled scale. -/
theorem pooled_scale_eq (x0 : (⟨S16384x2048, .f32⟩ : BufTy).Contents (Elt Ideal)) (x2 : (⟨S2048x2, .f32⟩ : BufTy).Contents (Elt Ideal))
    (x3 : (⟨S2, .f32⟩ : BufTy).Contents (Elt Ideal)) :
    val_main_v10 (F := Ideal) x0 x2 x3 = Cert.Spec.pooledScale x0 x2 x3 := by
  funext j
  obtain ⟨n, rfl⟩ : ∃ n : Fin 16384, j = ix1 n := ⟨j 0, eq_ix1 j⟩
  rw [val_main_v10_apply, val_main_v8_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply,
    val_main_v9_apply, val_main_cst_apply, pooled_col1_at]
  exact softplus_floor _

end Cert.RefSide

end
-- ==== Proof.RefWords.lean ====
/-
  Words and the all-true reduction. A source id whose value is at most 7 is nonnegative as a signed 32-bit word, so:
  the test id < 0 fails and the wrapped index select(id < 0, id + 8, id) is id itself; the range mask
  (0 ≤ id) and (id ≤ 7) is true; and the signed value of id clamped into [0, 7] is id's value, the specification's head
  number. A conjunction folded from true over a family that is true everywhere is true.
-/
import proofs.«211727_g52312701665785_cont_9to1_m_854_46_alg».proof.Proof.Spec
import Idealize.ShloMosaic.Lib.ReduceAll
import Idealize.ShloMosaic.Lib.ValueIdx

noncomputable section

namespace Cert.RefSide

open Idealize.ShloMosaic Idealize.ShloMosaic.ValueIdx

/-- A word of value at most 7 reads the same signed and unsigned. -/
theorem toInt_of_le_seven (s : BitVec 32) (hs : s.toNat ≤ 7) : s.toInt = (s.toNat : Int) :=
  BitVec.toInt_eq_toNat_of_lt (by omega)

/-- Such a word does not test negative. -/
theorem slt_zero_of_le_seven (s : BitVec 32) (hs : s.toNat ≤ 7) : IntOp.cmpi .slt s 0#32 = 0#1 :=
  eq_zero_of_ne_one fun h => by
    rw [IntOp.cmpi_slt, toInt_of_le_seven s hs, show (0#32 : BitVec 32).toInt = 0 from by decide] at h
    omega

/-- The wrapped index of a word of value at most 7 is the word. -/
theorem wrap_of_le_seven (s : BitVec 32) (hs : s.toNat ≤ 7) :
    Scalar.select (IntOp.cmpi .slt s 0#32) (IntOp.addi s 8#32) s = s := by
  rw [slt_zero_of_le_seven s hs, select_zero]

/-- The range mask of a word of value at most 7 is true. -/
theorem mask_of_le_seven (s : BitVec 32) (hs : s.toNat ≤ 7) :
    IntOp.andi (IntOp.cmpi .sge s 0#32) (IntOp.cmpi .sle s 7#32) = 1#1 :=
  IntOp.andi_eq_one.2
    ⟨IntOp.cmpi_sge.2 (by rw [toInt_of_le_seven s hs, show (0#32 : BitVec 32).toInt = 0 from by decide]; omega),
     IntOp.cmpi_sle.2 (by rw [toInt_of_le_seven s hs, show (7#32 : BitVec 32).toInt = 7 from by decide]; omega)⟩

/-- The signed value of a word of value at most 7, clamped into [0, 7], is the specification's head number. -/
theorem clamp_of_le_seven (s : BitVec 32) (hs : s.toNat ≤ 7) : min s.toInt.toNat 7 = (Cert.Spec.head s).val := by
  rw [toInt_of_le_seven s hs, Int.toNat_natCast]
  show min s.toNat 7 = s.toNat % 8
  omega

/-- A left fold by `and` from true over a family that is true everywhere is true. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from true of an array that is true everywhere is true at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) _ fun n _ => hx _

end Cert.RefSide

end
-- ==== Proof.RefGather.lean ====
/-
  The reference's gather read at an index. Its dimension numbers pair axis 0 of the operand [16384, 8, 2] with axis 0 of
  the start indices [16384, 1, 1] (a batching axis), take the start index along axis 1 (collapsed, slice size 1) and
  keep axis 2 whole (the offset axis). So result element (n, 0, o) is the operand at (n, s, o), where s is the start
  index at (n, 0, 0) read as a signed number and clamped into [0, 7].
-/
import proofs.«211727_g52312701665785_cont_9to1_m_854_46_alg».proof.Proof.Gen.ReferenceIdeal
import Idealize.ShloMosaic.Lib.ValueIdx

noncomputable section

namespace Cert.RefSide

open Idealize.ShloMosaic Idealize.ShloMosaic.ValueIdx Cert.ReferenceIdeal Cert.ReferenceIdeal.Gen

/-- The gather's dimension numbers, under a short name. -/
abbrev GD : GatherDims S16384x8x2 S16384x1x1 S16384x1x2 := gather_S16384x8x2_S16384x1x1_S16384x1x2_2_1_0_0_1_2_112

/-- The gather at (n, 0, o): the operand at (n, s, o), s the start index at (n, 0, 0) read signed and clamped into [0, 7]. -/
theorem gather_at {α : Type} (x : S16384x8x2.Idx → α) (idx : IVec S16384x1x1 32) (n : Fin 16384) (o : Fin 2) :
    Host.gather GD x idx (ix3 n (0 : Fin 1) o)
      = x (ix3 n (⟨min (idx (ix3 n (0 : Fin 1) (0 : Fin 1))).toInt.toNat 7, by omega⟩ : Fin 8) o) := by
  unfold Host.gather
  congr 1
  funext a
  refine Fin.ext ?_
  show GD.start (ix3 n (0 : Fin 1) o) idx a + GD.batchCoord (ix3 n (0 : Fin 1) o) a + GD.offCoord (ix3 n (0 : Fin 1) o) a = _
  match a with
  | ⟨0, _⟩ =>
    show GD.start (ix3 n (0 : Fin 1) o) idx (0 : Fin S16384x8x2.rank) + GD.batchCoord (ix3 n (0 : Fin 1) o) (0 : Fin S16384x8x2.rank)
      + GD.offCoord (ix3 n (0 : Fin 1) o) (0 : Fin S16384x8x2.rank) = _
    have hb : (0 : Fin S16384x8x2.rank) ∈ GD.operandBatchingDims := List.mem_singleton.mpr rfl
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, _⟩ =>
    show GD.start (ix3 n (0 : Fin 1) o) idx (1 : Fin S16384x8x2.rank) + GD.batchCoord (ix3 n (0 : Fin 1) o) (1 : Fin S16384x8x2.rank)
      + GD.offCoord (ix3 n (0 : Fin 1) o) (1 : Fin S16384x8x2.rank) = _
    have hc : (1 : Fin S16384x8x2.rank) ∈ GD.collapsedSliceDims := List.mem_singleton.mpr rfl
    have hnb : (1 : Fin S16384x8x2.rank) ∉ GD.operandBatchingDims := by decide
    have hm : (1 : Fin S16384x8x2.rank) ∈ GD.startIndexMap := List.mem_singleton.mpr rfl
    rw [GatherDims.batchCoord_eq_zero _ _ _ hnb,
      GatherDims.offCoord_eq_zero _ _ _ (fun h => ((GatherDims.mem_sKept _ _).mp h).1 hc), Nat.add_zero]
    unfold GatherDims.start
    rw [dif_pos hm]
    have hsi : GD.siIdx (ix3 n (0 : Fin 1) o) ⟨List.idxOf (1 : Fin S16384x8x2.rank) GD.startIndexMap,
        List.idxOf_lt_length_iff.2 hm⟩ = ix3 n (0 : Fin 1) (0 : Fin 1) := by
      funext b; refine Fin.ext ?_
      match b with
      | ⟨0, _⟩ => rfl
      | ⟨1, _⟩ => rfl
      | ⟨2, _⟩ => rfl
    rw [hsi]
    rfl
  | ⟨2, _⟩ =>
    show GD.start (ix3 n (0 : Fin 1) o) idx (2 : Fin S16384x8x2.rank) + GD.batchCoord (ix3 n (0 : Fin 1) o) (2 : Fin S16384x8x2.rank)
      + GD.offCoord (ix3 n (0 : Fin 1) o) (2 : Fin S16384x8x2.rank) = _
    have hnm : (2 : Fin S16384x8x2.rank) ∉ GD.startIndexMap := by decide
    have hnb : (2 : Fin S16384x8x2.rank) ∉ GD.operandBatchingDims := by decide
    have hk : (2 : Fin S16384x8x2.rank) ∈ GD.sKept := (GatherDims.mem_sKept _ _).mpr ⟨by decide, hnb⟩
    rw [GatherDims.batchCoord_eq_zero _ _ _ hnb, Nat.add_zero]
    unfold GatherDims.start GatherDims.offCoord
    rw [dif_neg hnm, dif_pos hk, Nat.zero_add]
    rfl

end Cert.RefSide

end
-- ==== Proof.RefSource.lean ====
/-
  The per-source heads of the reference, read at an index. The reference evaluates all eight heads (a contraction over
  the 2048 embedding coordinates, plus the bias), then picks, for token n, the head named by its source id: the id is
  wrapped (a negative id would have 8 added), masked for being in range, used as the start index of a gather along the
  head axis, and the gathered pair is kept where the mask is true. With every source id between 0 and 7 the wrap is the
  identity, the mask is true everywhere, and the gather reads head number id. Column 0 of the picked pair is the mean;
  column 1 goes through softplus and the floor.
-/
import proofs.«211727_g52312701665785_cont_9to1_m_854_46_alg».proof.Proof.ReadP
import proofs.«211727_g52312701665785_cont_9to1_m_854_46_alg».proof.Proof.RefSoftplus
import proofs.«211727_g52312701665785_cont_9to1_m_854_46_alg».proof.Proof.RefWords
import proofs.«211727_g52312701665785_cont_9to1_m_854_46_alg».proof.Proof.RefGather

noncomputable section

namespace Cert.RefSide

open Idealize.ShloMosaic Idealize.ShloMosaic.ValueIdx Cert.ReferenceIdeal Cert.ReferenceIdeal.Gen Cert.ReferenceIdeal.ReadP
open scoped BigOperators

/-- Source head h with its bias at token n, output o: the contraction over the embedding plus the bias. -/
theorem source_raw_at (x0 : (⟨S16384x2048, .f32⟩ : BufTy).Contents (Elt Ideal))
    (x4 : (⟨S8x2048x2, .f32⟩ : BufTy).Contents (Elt Ideal)) (x5 : (⟨S8x2, .f32⟩ : BufTy).Contents (Elt Ideal))
    (n : Fin 16384) (h : Fin 8) (o : Fin 2) :
    val_main_v14 (F := Ideal) x0 x4 x5 (ix3 n h o) = Cert.Spec.rawS x0 x4 n h o + x5 (ix2 h o) := by
  have e1 : ∀ k : Fin 2048, lidx_main_v11 (ix3 n h o) k = ix2 n k := fun k => by
    funext a; match a with | ⟨0, _⟩ => rfl | ⟨1, _⟩ => rfl
  have e2 : ∀ k : Fin 2048, ridx_main_v11 (ix3 n h o) k = ix3 h k o := fun k => by
    funext a; match a with | ⟨0, _⟩ => rfl | ⟨1, _⟩ => rfl | ⟨2, _⟩ => rfl
  have e3 : idx_main_v12 (idx_main_v13 (ix3 n h o)) = ix2 h o := by
    funext a; match a with | ⟨0, _⟩ => rfl | ⟨1, _⟩ => rfl
  rw [val_main_v14_apply, val_main_v11_apply, val_main_v13_apply, val_main_v12_apply, Ideal.addf_def, e3]
  simp only [e1, e2]
  rfl

/-- The wrapped start index is the source id, when every source id is at most 7. -/
theorem wrapped_at (x1 : (⟨S16384, .i32⟩ : BufTy).Contents (Elt Ideal)) (hs : ∀ j, (x1 j).toNat ≤ 7) (i : S16384x1x1.Idx) :
    val_main_call1_v4 (F := Ideal) x1 i = x1 (idx_main_v15 i) := by
  rw [val_main_call1_v4_apply, val_main_call1_v1_apply, val_main_call1_v3_apply, val_main_v15_apply,
    val_main_call1_v0_apply, val_main_call1_c_apply, val_main_call1_v2_apply, val_main_call1_c_0_apply]
  exact wrap_of_le_seven _ (hs _)

/-- The range mask is true everywhere, when every source id is at most 7. -/
theorem mask_at (x1 : (⟨S16384, .i32⟩ : BufTy).Contents (Elt Ideal)) (hs : ∀ j, (x1 j).toNat ≤ 7) (i : S16384x1x1.Idx) :
    val_main_call1_v10 (F := Ideal) x1 i = 1#1 := by
  rw [val_main_call1_v10_apply, val_main_call1_v6_apply, val_main_call1_v9_apply, wrapped_at x1 hs,
    val_main_call1_v5_apply, val_main_call1_c_2_apply, val_main_call1_v8_apply, val_main_call1_v7_apply,
    val_main_call1_c_1_apply]
  exact mask_of_le_seven _ (hs _)

/-- So is its conjunction along the last axis. -/
theorem allmask_at (x1 : (⟨S16384, .i32⟩ : BufTy).Contents (Elt Ideal)) (hs : ∀ j, (x1 j).toNat ≤ 7) (k : S16384x1.Idx) :
    val_main_call1_v11 (F := Ideal) x1 k = 1#1 := by
  unfold val_main_call1_v11
  exact reduce_andi_one _ _ _ _ (mask_at x1 hs) (fun _ => rfl) k

/-- The gather at (n, 0, o) with an in-range start index reads the head the specification names. -/
theorem gather_at_head {α : Type} (x : S16384x8x2.Idx → α) (idx : IVec S16384x1x1 32) (n : Fin 16384) (o : Fin 2)
    (h : (idx (ix3 n (0 : Fin 1) (0 : Fin 1))).toNat ≤ 7) :
    Host.gather GD x idx (ix3 n (0 : Fin 1) o) = x (ix3 n (Cert.Spec.head (idx (ix3 n (0 : Fin 1) (0 : Fin 1)))) o) :=
  (gather_at x idx n o).trans (congrArg (fun s : Fin 8 => x (ix3 n s o)) (Fin.ext (clamp_of_le_seven _ h)))

/-- The picked pair at token n, output o: the head named by the token's source id, with its bias. -/
theorem selected_at (x0 : (⟨S16384x2048, .f32⟩ : BufTy).Contents (Elt Ideal)) (x1 : (⟨S16384, .i32⟩ : BufTy).Contents (Elt Ideal))
    (x4 : (⟨S8x2048x2, .f32⟩ : BufTy).Contents (Elt Ideal)) (x5 : (⟨S8x2, .f32⟩ : BufTy).Contents (Elt Ideal))
    (hs : ∀ j, (x1 j).toNat ≤ 7) (n : Fin 16384) (o : Fin 2) :
    val_main_v17 (F := Ideal) x0 x1 x4 x5 (ix2 n o)
      = Cert.Spec.rawS x0 x4 n (Cert.Spec.head (x1 (ix1 n))) o + x5 (ix2 (Cert.Spec.head (x1 (ix1 n))) o) := by
  have e : idx_main_v17 (ix2 n o) = ix3 n (0 : Fin 1) o := by
    funext a
    match a with
    | ⟨0, _⟩ => exact Fin.ext (by show (n.val * 2 + o.val) / 2 = n.val; omega)
    | ⟨1, _⟩ => rfl
    | ⟨2, _⟩ => exact Fin.ext (by show (n.val * 2 + o.val) % 2 = o.val; omega)
  have e15 : idx_main_v15 (ix3 n (0 : Fin 1) (0 : Fin 1)) = ix1 n := by
    funext a; match a with | ⟨0, _⟩ => rfl
  have hw : val_main_call1_v4 (F := Ideal) x1 (ix3 n (0 : Fin 1) (0 : Fin 1)) = x1 (ix1 n) := by
    rw [wrapped_at x1 hs, e15]
  rw [val_main_v17_apply, e, val_main_v16_apply, val_main_call1_v13_apply, allmask_at x1 hs, select_one]
  unfold val_main_call1_v12
  rw [gather_at_head _ _ n o (by rw [hw]; exact hs _), hw, source_raw_at]

/-- Column 0 of the picked pair at token n is the specification's source mean. -/
theorem source_mean_eq (x0 : (⟨S16384x2048, .f32⟩ : BufTy).Contents (Elt Ideal)) (x1 : (⟨S16384, .i32⟩ : BufTy).Contents (Elt Ideal))
    (x4 : (⟨S8x2048x2, .f32⟩ : BufTy).Contents (Elt Ideal)) (x5 : (⟨S8x2, .f32⟩ : BufTy).Contents (Elt Ideal))
    (hs : ∀ j, (x1 j).toNat ≤ 7) :
    val_main_v19 (F := Ideal) x0 x1 x4 x5 = Cert.Spec.sourceMean x0 x1 x4 x5 := by
  funext j
  obtain ⟨n, rfl⟩ : ∃ n : Fin 16384, j = ix1 n := ⟨j 0, eq_ix1 j⟩
  have e : idx_main_v18 (idx_main_v19 (ix1 n)) = ix2 n (0 : Fin 2) := by
    funext a; match a with | ⟨0, _⟩ => exact Fin.ext (Nat.div_one _) | ⟨1, _⟩ => rfl
  rw [val_main_v19_apply, val_main_v18_apply, e, selected_at x0 x1 x4 x5 hs]
  rfl

/-- Column 1 of the picked pair at token n, before softplus. -/
theorem source_col1_at (x0 : (⟨S16384x2048, .f32⟩ : BufTy).Contents (Elt Ideal)) (x1 : (⟨S16384, .i32⟩ : BufTy).Contents (Elt Ideal))
    (x4 : (⟨S8x2048x2, .f32⟩ : BufTy).Contents (Elt Ideal)) (x5 : (⟨S8x2, .f32⟩ : BufTy).Contents (Elt Ideal))
    (hs : ∀ j, (x1 j).toNat ≤ 7) (n : Fin 16384) :
    val_main_v21 (F := Ideal) x0 x1 x4 x5 (ix1 n)
      = Cert.Spec.rawS x0 x4 n (Cert.Spec.head (x1 (ix1 n))) 1 + x5 (ix2 (Cert.Spec.head (x1 (ix1 n))) 1) := by
  have e : idx_main_v20 (idx_main_v21 (ix1 n)) = ix2 n (1 : Fin 2) := by
    funext a; match a with | ⟨0, _⟩ => exact Fin.ext (Nat.div_one _) | ⟨1, _⟩ => rfl
  rw [val_main_v21_apply, val_main_v20_apply, e, selected_at x0 x1 x4 x5 hs]

/-- Softplus and the floor over column 1 of the picked pair is the specification's source scale. -/
theorem source_scale_eq (x0 : (⟨S16384x2048, .f32⟩ : BufTy).Contents (Elt Ideal)) (x1 : (⟨S16384, .i32⟩ : BufTy).Contents (Elt Ideal))
    (x4 : (⟨S8x2048x2, .f32⟩ : BufTy).Contents (Elt Ideal)) (x5 : (⟨S8x2, .f32⟩ : BufTy).Contents (Elt Ideal))
    (hs : ∀ j, (x1 j).toNat ≤ 7) :
    val_main_v24 (F := Ideal) x0 x1 x4 x5 = Cert.Spec.sourceScale x0 x1 x4 x5 := by
  funext j
  obtain ⟨n, rfl⟩ : ∃ n : Fin 16384, j = ix1 n := ⟨j 0, eq_ix1 j⟩
  rw [val_main_v24_apply, val_main_v22_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply,
    val_main_v23_apply, val_main_cst_0_apply, source_col1_at x0 x1 x4 x5 hs]
  exact softplus_floor _

end Cert.RefSide

end
-- ==== Proof.RefSide.lean ====
/-
  The reference's run, stated with the specification's functions. Every weakly fair execution of the reference
  terminates; on every device its four computed results are the specification's pooled mean, pooled scale, source mean
  and source scale of the argument arrays as they were at launch, and the six argument arrays are unchanged. The source
  results need every source id to be at most 7 (then the reference's index wrap, range mask and clamp do nothing).
-/
import proofs.«211727_g52312701665785_cont_9to1_m_854_46_alg».proof.Proof.ReadP
import proofs.«211727_g52312701665785_cont_9to1_m_854_46_alg».proof.Proof.RefPooled
import proofs.«211727_g52312701665785_cont_9to1_m_854_46_alg».proof.Proof.RefSource

noncomputable section

namespace Cert.RefSide

open Idealize.ShloMosaic Idealize.ShloMosaic.TcCoe Idealize.SL.Sem Idealize.ShloMosaic.StableHlo
open Cert.ReferenceIdeal Cert.ReferenceIdeal.Gen Cert.ReferenceIdeal.ReadP

theorem run
    (m' : (l : Loc Cert.ReferenceIdeal.nD Cert.ReferenceIdeal.τ Cert.ReferenceIdeal.sig) → Buf (Elt Ideal) l) (g' : Dev Cert.ReferenceIdeal.nD → PrngReg)
    (hsid : ∀ (c : Dev Cert.ReferenceIdeal.nD) j, (m' ((c.tc : Thread Cert.ReferenceIdeal.nD Cert.ReferenceIdeal.τ).loc Cert.ReferenceIdeal.main_arg1) j).toNat ≤ 7) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
          r.2.mem ((c.tc : Thread Cert.ReferenceIdeal.nD Cert.ReferenceIdeal.τ).loc Cert.ReferenceIdeal.main_v5) = Cert.Spec.pooledMean (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v10) = Cert.Spec.pooledScale (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v19) = Cert.Spec.sourceMean (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_v24) = Cert.Spec.sourceScale (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = (m' ((c.tc : Thread Cert.ReferenceIdeal.nD Cert.ReferenceIdeal.τ).loc Cert.ReferenceIdeal.main_arg0)) ∧ r.2.mem ((c.tc : Thread Cert.ReferenceIdeal.nD Cert.ReferenceIdeal.τ).loc Cert.ReferenceIdeal.main_arg1) = (m' ((c.tc : Thread Cert.ReferenceIdeal.nD Cert.ReferenceIdeal.τ).loc Cert.ReferenceIdeal.main_arg1)) ∧ r.2.mem ((c.tc : Thread Cert.ReferenceIdeal.nD Cert.ReferenceIdeal.τ).loc Cert.ReferenceIdeal.main_arg2) = (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg3) = (m' ((c.tc : Thread Cert.ReferenceIdeal.nD Cert.ReferenceIdeal.τ).loc Cert.ReferenceIdeal.main_arg3)) ∧ r.2.mem ((c.tc : Thread Cert.ReferenceIdeal.nD Cert.ReferenceIdeal.τ).loc Cert.ReferenceIdeal.main_arg4) = (m' ((c.tc : Thread Cert.ReferenceIdeal.nD Cert.ReferenceIdeal.τ).loc Cert.ReferenceIdeal.main_arg4)) ∧ r.2.mem ((c.tc : Thread Cert.ReferenceIdeal.nD Cert.ReferenceIdeal.τ).loc Cert.ReferenceIdeal.main_arg5) = (m' ((c.tc : Thread Cert.ReferenceIdeal.nD Cert.ReferenceIdeal.τ).loc Cert.ReferenceIdeal.main_arg5))) :=
  (θ_run Cert.ReferenceIdeal.defs _ _).mono (fun _ h c => by
      obtain ⟨_, h5, h10, h19, h24, a0, a1, a2, a3, a4, a5⟩ := h c
      exact ⟨h5.trans ((val_main_v5_eq _ _ _).trans (pooled_mean_eq _ _ _)),
        h10.trans ((val_main_v10_eq _ _ _).trans (pooled_scale_eq _ _ _)),
        h19.trans ((val_main_v19_eq _ _ _ _).trans (source_mean_eq _ _ _ _ (hsid c))),
        h24.trans ((val_main_v24_eq m' c).trans (source_scale_eq _ _ _ _ (hsid c))),
        a0, a1, a2, a3, a4, a5⟩)
    (Cert.ReferenceIdeal.ValueP.run (F := Ideal) m' g')

end Cert.RefSide

end
-- ==== Proof.PreFacts.lean ====
/-
  What the precondition says of the source ids. The precondition's last conjunct is the conjunction, over all tokens,
  of 0 ≤ id and id ≤ 7 read as signed 32-bit words; a word that is nonnegative as a signed number is its own value, so
  every source id, read as a natural number, is at most 7.
-/
import proofs.«211727_g52312701665785_cont_9to1_m_854_46_alg».proof.Pre_input_domain
import Idealize.ShloMosaic.Lib.ReduceAll
import Idealize.ShloMosaic.Lib.ValueIdx

namespace Cert.PreFacts

open Idealize.ShloMosaic Cert.Pre_input_domain

/-- A shape of rank zero has exactly one index. -/
instance subsingleton_scalar_idx : Subsingleton S_.Idx := ⟨fun a b => funext fun d => d.elim0⟩

/-- A 32-bit word that tests 0 ≤ v and v ≤ 7 as a signed number has a value of at most 7. -/
theorem toNat_le_seven (v : BitVec 32)
    (h : IntOp.andi (IntOp.cmpi .sge v 0#32) (IntOp.cmpi .sle v 7#32) = 1#1) : v.toNat ≤ 7 := by
  obtain ⟨h1, h2⟩ := IntOp.andi_eq_one.1 h
  rw [IntOp.cmpi_sge, show (0#32 : BitVec 32).toInt = 0 from by decide] at h1
  rw [IntOp.cmpi_sle, show (7#32 : BitVec 32).toInt = 7 from by decide] at h2
  have hv := v.isLt
  rw [BitVec.toInt_eq_toNat_cond] at h1 h2
  split_ifs at h1 h2 <;> omega

/-- The precondition holding (its one word is 1) makes every source id, as a natural number, at most 7. -/
theorem sid_le_of_pre {F : FTy → Type} [FloatOps F] [hP : Cert.Pre_input_domain.Facts]
    (a0 : FVec F S16384x2048 .f32) (a1 : IVec S16384 32) (a2 : FVec F S2048x2 .f32) (a3 : FVec F S2 .f32)
    (a4 : FVec F S8x2048x2 .f32) (a5 : FVec F S8x2 .f32)
    (h : Cert.Pre_input_domain.fn (F := F) a0 a1 a2 a3 a4 a5 = (fun _ => 1#1)) : ∀ j, (a1 j).toNat ≤ 7 := by
  intro j
  have e := congrFun h ValueIdx.ix0
  dsimp only [fn, fn_part1] at e
  obtain ⟨-, e2⟩ := IntOp.andi_eq_one.1 e
  exact toNat_le_seven _ (Host.reduce_andi_all _ _ _ _ _ e2 j)

end Cert.PreFacts
-- ==== Proof.Claims.lean ====
/-
  The five conjuncts of the claim, assembled.

  Frames of the two kernel programs: the program's run (all 35 threads of the device) ends in a memory whose argument
  arrays are read back, buffer by buffer, to the launch memory. The source ids lie in 0 … 7 by the precondition, which is what
  keeps the routing stage's gather indices inside its table scratch. Frame of the reference: its run with the values
  dropped. No idealization rewrite was applied, so the preservation conjunct is trivial. Equivalence at the ideal instance:
  both runs end with the embedding unchanged and the four computed arrays at the specification's functions of the arguments —
  the kernel's through its blockwise closed forms and the routed table entries, the reference's through its operations read
  at an index — and the two memories agree on the arguments.
-/
import proofs.«211727_g52312701665785_cont_9to1_m_854_46_alg».proof.Defs
import proofs.«211727_g52312701665785_cont_9to1_m_854_46_alg».proof.Proof.ILaunch
import proofs.«211727_g52312701665785_cont_9to1_m_854_46_alg».proof.Proof.BLaunch
import proofs.«211727_g52312701665785_cont_9to1_m_854_46_alg».proof.Proof.IClaims
import proofs.«211727_g52312701665785_cont_9to1_m_854_46_alg».proof.Proof.BClaims
import proofs.«211727_g52312701665785_cont_9to1_m_854_46_alg».proof.Proof.IdealVals
import proofs.«211727_g52312701665785_cont_9to1_m_854_46_alg».proof.Proof.RefSide
import proofs.«211727_g52312701665785_cont_9to1_m_854_46_alg».proof.Proof.PreFacts
import proofs.«211727_g52312701665785_cont_9to1_m_854_46_alg».proof.Proof.Gen.Kernel
import proofs.«211727_g52312701665785_cont_9to1_m_854_46_alg».proof.Proof.Gen.KernelIdeal
import proofs.«211727_g52312701665785_cont_9to1_m_854_46_alg».proof.Proof.Gen.ReferenceIdeal
import proofs.«211727_g52312701665785_cont_9to1_m_854_46_alg».proof.Proof.Gen.Pre_input_domain

noncomputable section

namespace Cert.Proof.Claims

open Idealize.ShloMosaic Idealize.SL.Sem

/-- Under the precondition every source id the word-level kernel's routing stage reads is at most 7. -/
theorem sid_ok_K (m : (ℓ : Loc Cert.Kernel.nD Cert.Kernel.τ Cert.Kernel.sig) → Buf (Elt Bits) ℓ) (h : Cert.Pre_Kernel m) :
    ∀ j, ((Cert.Kernel.SC.sidV (F := Bits) m) j).toNat ≤ 7 := by
  rw [Cert.Kernel.SC.sidV_eq]
  exact Cert.PreFacts.sid_le_of_pre (F := Bits) _ _ _ _ _ _ (h Cert.Kernel.SC.d0)

/-- The same for the idealized kernel. -/
theorem sid_ok_KI (m : (ℓ : Loc Cert.KernelIdeal.nD Cert.KernelIdeal.τ Cert.KernelIdeal.sig) → Buf (Elt Ideal) ℓ) (h : Cert.Pre_KernelIdeal m) :
    ∀ j, ((Cert.KernelIdeal.SC.sidV (F := Ideal) m) j).toNat ≤ 7 := by
  rw [Cert.KernelIdeal.SC.sidV_eq]
  exact Cert.PreFacts.sid_le_of_pre (F := Ideal) _ _ _ _ _ _ (h Cert.KernelIdeal.SC.d0)

theorem frame_k : Cert.frame_Kernel := fun m ρ hpre =>
  (θ_run Cert.Kernel.defs _ _).mono (fun r h c => Cert.Kernel.SC.args_kept m c r.2 (h c))
    (Cert.Kernel.SC.run_main (F := Bits) m ρ (sid_ok_K m hpre))

theorem frame_ki : Cert.frame_KernelIdeal := fun m ρ hpre =>
  (θ_run Cert.KernelIdeal.defs _ _).mono (fun r h c => Cert.KernelIdeal.SC.args_kept m c r.2 (h c))
    (Cert.KernelIdeal.SC.run_main (F := Ideal) m ρ (sid_ok_KI m hpre))

theorem frame_ri : Cert.frame_ReferenceIdeal := fun m g hpre =>
  (θ_run Cert.ReferenceIdeal.defs _ _).mono (fun r h c => (h c).2.2.2.2)
    (Cert.RefSide.run m g (fun c => Cert.PreFacts.sid_le_of_pre (F := Ideal) _ _ _ _ _ _ (hpre c)))

theorem preserves : Cert.preserves_Kernel_KernelIdeal := trivial

theorem algebraic : Cert.algebraic_KernelIdeal_ReferenceIdeal := by
  intro m g m' g' hpre hagree
  have hsid : ∀ (c : Dev Cert.KernelIdeal.nD) j,
      (m ((c.tc : Thread Cert.KernelIdeal.nD Cert.KernelIdeal.τ).loc Cert.KernelIdeal.main_arg1) j).toNat ≤ 7 :=
    fun c => Cert.PreFacts.sid_le_of_pre (F := Ideal) _ _ _ _ _ _ (hpre c)
  refine ⟨fun c => m ((c.tc : Thread Cert.KernelIdeal.nD Cert.KernelIdeal.τ).loc Cert.KernelIdeal.main_arg0),
    fun c => Cert.Spec.pooledMean (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.pooledScale (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.sourceMean (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.sourceScale (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    ?_, ?_⟩
  · refine (θ_run Cert.KernelIdeal.defs _ _).mono (fun r h c => ?_) (Cert.KernelIdeal.SC.run_main (F := Ideal) m g (sid_ok_KI m hpre))
    obtain ⟨h0, h1, h2, h3, h4⟩ := Cert.KernelIdeal.SC.vals_ideal m c r.2 (h c) (hsid c)
    obtain ⟨a0, a1, a2, a3, a4, a5⟩ := Cert.KernelIdeal.SC.args_kept m c r.2 (h c)
    exact ⟨h0, h1, h2, h3, h4, a0, a1, a2, a3, a4, a5⟩
  · refine (θ_run Cert.ReferenceIdeal.defs _ _).mono (fun r h c => ?_)
      (Cert.RefSide.run m' g' (fun c j => by rw [(hagree c).2.1]; exact hsid c j))
    obtain ⟨e0, e1, e2, e3, e4, e5⟩ := hagree c
    obtain ⟨h1, h2, h3, h4, a0, a1, a2, a3, a4, a5⟩ := h c
    refine ⟨a0.trans e0, ?_, ?_, ?_, ?_, a0, a1, a2, a3, a4, a5⟩
    · rw [h1, e0, e2, e3]
    · rw [h2, e0, e2, e3]
    · rw [h3, e0, e1, e4, e5]
    · rw [h4, e0, e1, e4, e5]

end Cert.Proof.Claims

end
-- ==== Proof.lean ====
/-
  Two programs compute, for 16384 tokens with 2048-dimensional embeddings, a pooled Gaussian head (a mean and a softplus scale
  with a floor) and, per token, the head of the token's source among eight; both return the embeddings unchanged as well. The
  kernel computes all eight sources' heads and the pooled head in one blocked matrix product against a widened weight matrix,
  stores the sixteen per-source columns as a table, and then routes: 32 workers each copy 512 tokens' rows of the flat table
  and their source ids, pick entries 2·id and 2·id + 1 of each row, and copy the picks out. The reference multiplies by the
  per-source weights, adds the bias and selects along the source axis. On the extended reals the two agree entry by entry
  (sums of the same products, the same softplus and floor), given that every source id lies in 0 … 7.

  This file only assembles the conjuncts proved in Proof/Claims.lean behind the witnesses of the programs' stated facts.
-/
import proofs.«211727_g52312701665785_cont_9to1_m_854_46_alg».proof.Defs
import proofs.«211727_g52312701665785_cont_9to1_m_854_46_alg».proof.Proof.Claims
import proofs.«211727_g52312701665785_cont_9to1_m_854_46_alg».proof.Proof.Gen.Kernel
import proofs.«211727_g52312701665785_cont_9to1_m_854_46_alg».proof.Proof.Gen.Kernel.Skeleton
import proofs.«211727_g52312701665785_cont_9to1_m_854_46_alg».proof.Proof.Gen.Kernel.Launch
import proofs.«211727_g52312701665785_cont_9to1_m_854_46_alg».proof.Proof.Gen.Kernel.Points
import proofs.«211727_g52312701665785_cont_9to1_m_854_46_alg».proof.Proof.Gen.KernelIdeal
import proofs.«211727_g52312701665785_cont_9to1_m_854_46_alg».proof.Proof.Gen.KernelIdeal.Skeleton
import proofs.«211727_g52312701665785_cont_9to1_m_854_46_alg».proof.Proof.Gen.KernelIdeal.Launch
import proofs.«211727_g52312701665785_cont_9to1_m_854_46_alg».proof.Proof.Gen.KernelIdeal.Points
import proofs.«211727_g52312701665785_cont_9to1_m_854_46_alg».proof.Proof.Gen.ReferenceIdeal
import proofs.«211727_g52312701665785_cont_9to1_m_854_46_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
